-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_arg10 : FVec F S128 .f32) (main_arg11 : FVec F S128 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x40 .f32) (main_arg9 : FVec F S40 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S128x32 : Shape := ⟨2, ![128, 32]⟩
abbrev S32x128 : Shape := ⟨2, ![32, 128]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S2000x32 : Shape := ⟨2, ![2000, 32]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 72
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S128, .f32⟩
  | .hbm, ⟨11, _⟩ => ⟨S128, .f32⟩
  | .hbm, ⟨12, _⟩ => ⟨S128x32, .f32⟩
  | .hbm, ⟨13, _⟩ => ⟨S32x128, .f32⟩
  | .hbm, ⟨14, _⟩ => ⟨S50000x128, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S50000x40, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x40, .f32⟩
  | .hbm, ⟨64, _⟩ => ⟨S800000x40, .f32⟩
  | .hbm, ⟨65, _⟩ => ⟨S800000x40, .f32⟩
  | .hbm, ⟨66, _⟩ => ⟨S_, .f32⟩
  | .hbm, ⟨67, _⟩ => ⟨S50000x40, .f32⟩
  | .hbm, ⟨68, _⟩ => ⟨S800000x1, .i32⟩
  | .hbm, ⟨69, _⟩ => ⟨S50000x40, .f32⟩
  | .hbm, ⟨70, _⟩ => ⟨S1x40, .f32⟩
  | .hbm, ⟨71, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x32, .f32⟩
  | .local _ .vmem, ⟨17, _⟩ => ⟨S32x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x40, .f32⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  inb_S32x128_S32x128_0_0 : ∀ a, (![0, 0] : Fin 2 → Nat) a + S32x128.size a ≤ S32x128.size a
  h_S32x128 : 0 < S32x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x32_S2000x32_1_0_0_1_n_n_wf : DotDims.WF S2000x128 S128x32 S2000x32 [1] [0] [0] [1] [] []
  dot_S2000x32_S32x128_S2000x128_1_0_0_1_n_n_wf : DotDims.WF S2000x32 S32x128 S2000x128 [1] [0] [0] [1] [] []
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .f32 = 32 ∨ (Rect.block (s := S128x32) S128x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S50000x40.size a
  hwx4_0 : ∀ i : grid4.Coords, EltTy.bits .f32 = 32 ∨ (Rect.block (s := S50000x40) S2000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x40.size a ≤ S1x40.size a
  hwx4_1 : ∀ i : grid4.Coords, EltTy.bits .f32 = 32 ∨ (Rect.block (s := S1x40) S1x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S50000x40.size a
  hwx4_2 : ∀ i : grid4.Coords, EltTy.bits .f32 = 32 ∨ (Rect.block (s := S50000x40) S2000x40.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S1x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x32x4 : Shape := ⟨3, ![50000, 32, 4]⟩
abbrev S50000x32 : Shape := ⟨2, ![50000, 32]⟩
abbrev S50000x32x1 : Shape := ⟨3, ![50000, 32, 1]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S128, .f32⟩
  | 11 => ⟨S128, .f32⟩
  | 12 => ⟨S50000x128, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x32x4, .f32⟩
  | 59 => ⟨S_, .f32⟩
  | 60 => ⟨S50000x32, .f32⟩
  | 61 => ⟨S50000x32x1, .f32⟩
  | 62 => ⟨S_, .f32⟩
  | 63 => ⟨S50000x32x1, .f32⟩
  | 64 => ⟨S50000x32x1, .f32⟩
  | 65 => ⟨S_, .i32⟩
  | 66 => ⟨S_, .f32⟩
  | 67 => ⟨S50000x32, .f32⟩
  | 68 => ⟨S50000x32x1, .f32⟩
  | 69 => ⟨S_, .f32⟩
  | 70 => ⟨S50000x32x1, .f32⟩
  | 71 => ⟨S50000x32x1, .f32⟩
  | 72 => ⟨S50000x32x4, .f32⟩
  | 73 => ⟨S50000x32x4, .f32⟩
  | 74 => ⟨S50000x32x4, .f32⟩
  | 75 => ⟨S_, .f32⟩
  | 76 => ⟨S_, .f32⟩
  | 77 => ⟨S_, .f32⟩
  | 78 => ⟨S_, .f32⟩
  | 79 => ⟨S50000x32, .f32⟩
  | 80 => ⟨S50000x32x1, .f32⟩
  | 81 => ⟨S50000x32x1, .f32⟩
  | 82 => ⟨S50000x32x1, .f32⟩
  | 83 => ⟨S_, .f32⟩
  | 84 => ⟨S_, .i1⟩
  | 85 => ⟨S_, .f32⟩
  | 86 => ⟨S_, .f32⟩
  | 87 => ⟨S50000x32x1, .f32⟩
  | 88 => ⟨S50000x32x1, .f32⟩
  | 89 => ⟨S50000x32x4, .f32⟩
  | 90 => ⟨S50000x32x4, .f32⟩
  | 91 => ⟨S_, .f32⟩
  | 92 => ⟨S50000x32x1, .f32⟩
  | 93 => ⟨S50000x32x1, .f32⟩
  | 94 => ⟨S50000x32x1, .f32⟩
  | 95 => ⟨S50000x32x4, .f32⟩
  | 96 => ⟨S50000x32x4, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x40, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x40, .f32⟩
  | 115 => ⟨S800000x40, .f32⟩
  | 116 => ⟨S800000x40, .f32⟩
  | 117 => ⟨S_, .f32⟩
  | 118 => ⟨S50000x40, .f32⟩
  | 119 => ⟨S800000x1, .i32⟩
  | 120 => ⟨S50000x40, .f32⟩
  | 121 => ⟨S1x40, .f32⟩
  | 122 => ⟨S50000x40, .f32⟩
  | 123 => ⟨S50000x40, .f32⟩
  | 124 => ⟨S_, .f32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000x40, .f32⟩
  | 3 => ⟨S50000x40, .f32⟩
  | 4 => ⟨S50000x40, .f32⟩
  | 5 => ⟨S_, .f32⟩
  | 6 => ⟨S50000, .f32⟩
  | 7 => ⟨S50000x1, .f32⟩
  | 8 => ⟨S50000x1, .f32⟩
  | 9 => ⟨S50000x40, .f32⟩
  | 10 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_7 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_c_8 : Ref sig .tc := ⟨.hbm, 106, rfl⟩
abbrev main_v58 : Ref sig .tc := ⟨.hbm, 107, rfl⟩
abbrev main_v59 : Ref sig .tc := ⟨.hbm, 108, rfl⟩
abbrev main_c_9 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_10 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v73 : Ref sig .tc := ⟨.hbm, 138, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x32x4 : S50000x128.ShapeCasts S50000x32x4
  reducesTo_S50000x32x4_S50000x32_d2 : S50000x32x4.ReducesTo [2] S50000x32
  h_S_ : 0 < S_.numel
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  bcast_S50000x32x1_S50000x32x4_0_1_2 : S50000x32x1.BroadcastsInDim S50000x32x4 (![0, 1, 2] : Fin 3 → Fin S50000x32x4.rank)
  shapeCasts_S50000x32x4_S50000x128 : S50000x32x4.ShapeCasts S50000x128
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RefSpec.lean ====
/-
  The functions the reference computes, layer by layer, at the ideal instance (floats are extended reals, every
  operation exact), written with the reference program's own host operations so that its run reads back as a
  composition of them:

    result = logSoftmax (agg₄₀ (gnorm (relu (agg (relu (agg (x·W0) + b0) · W1) + b1)) · W2) + b2)

  where `agg h` is the graph aggregation — gather the rows `h[src]`, scale row `e` by `w e`, add row `e` into row
  `tgt e` of a zero array —, `gnorm` normalises each group of four consecutive channels by its mean and variance,
  and `logSoftmax` subtracts from each row its maximum and then the logarithm of the sum of its exponentials.
-/
import proofs.«106202_j40956808135033_1_alg».proof.ReferenceIdeal
import proofs.«106202_j40956808135033_1_alg».proof.Proof.Gen.ReferenceIdeal
import Idealize.ShloMosaic.PureOps.Ideal

noncomputable section

namespace Cert.RefSpec

open Idealize.ShloMosaic Cert.ReferenceIdeal Cert.ReferenceIdeal.Facts₀

/-- Node features: one row of 128 channels per node. -/
abbrev A128 := FVec Ideal S50000x128 .f32
/-- Class scores: one row of 40 per node. -/
abbrev A40 := FVec Ideal S50000x40 .f32
/-- One 32-bit integer per edge. -/
abbrev EdgeI := IVec S800000 32
/-- One weight per edge. -/
abbrev EdgeW := FVec Ideal S800000 .f32

/-- `x · W` for a 128 × 128 weight matrix. -/
def mm128 (x : A128) (W : FVec Ideal S128x128 .f32) : A128 :=
  Host.dotGeneral dot_S50000x128_S128x128_S50000x128_1_0_0_1_n_n none x W

/-- `x · W` for the 128 × 40 head. -/
def mm40 (x : A128) (W : FVec Ideal S128x40 .f32) : A40 :=
  Host.dotGeneral dot_S50000x128_S128x40_S50000x40_1_0_0_1_n_n none x W

/-- The source node of every edge as a gather index: a negative entry counts from the end (`src + 50000`). -/
def srcIx (src : EdgeI) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The aggregation over 128 channels: row `e` of `h[src]` scaled by `w e`, summed into row `tgt e` of zeros. -/
def agg128 (h : A128) (src tgt : EdgeI) (w : EdgeW) : A128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 tgt)
    (mulf (broadcastInDim S800000x128 ![0, 1] bcast_S800000x1_S800000x128_0_1
            (broadcastInDim S800000x1 ![0] bcast_S800000_S800000x1_0 w))
      (Host.gather gather_S50000x128_S800000x1_S800000x128_1_0_n_n_0_1_1128 h (srcIx src)))

/-- The same aggregation over 40 channels. -/
def agg40 (h : A40) (src tgt : EdgeI) (w : EdgeW) : A40 :=
  Host.scatterAdd scatter_S50000x40_S800000x1_S800000x40_1_0_0_1
    (broadcastInDim S50000x40 ![] bcast_S_S50000x40 (constant (F := Ideal) S_ .f32 0x00000000#32))
    (broadcastInDim S800000x1 ![0] bcast_S800000_S800000x1_0 tgt)
    (mulf (broadcastInDim S800000x40 ![0, 1] bcast_S800000x1_S800000x40_0_1
            (broadcastInDim S800000x1 ![0] bcast_S800000_S800000x1_0 w))
      (Host.gather gather_S50000x40_S800000x1_S800000x40_1_0_n_n_0_1_140 h (srcIx src)))

/-- Add the bias `b` to every row. -/
def bias128 (a : A128) (b : FVec Ideal S128 .f32) : A128 :=
  addf a (broadcastInDim S50000x128 ![0, 1] bcast_S1x128_S50000x128_0_1 (broadcastInDim S1x128 ![1] bcast_S128_S1x128_1 b))

/-- Add the bias `b` to every row of 40. -/
def bias40 (a : A40) (b : FVec Ideal S40 .f32) : A40 :=
  addf a (broadcastInDim S50000x40 ![0, 1] bcast_S1x40_S50000x40_0_1 (broadcastInDim S1x40 ![1] bcast_S40_S1x40_1 b))

/-- `max a 0`, entry by entry. -/
def relu128 (a : A128) : A128 :=
  maximumf a (broadcastInDim S50000x128 ![] bcast_S_S50000x128 (constant (F := Ideal) S_ .f32 0x00000000#32))

/-- A node's 128 channels as 32 groups of 4. -/
def grouped (a : A128) : FVec Ideal S50000x32x4 .f32 := shapeCast S50000x32x4 a shapeCasts_S50000x128_S50000x32x4

/-- The mean of each group: its sum over 4. -/
def gmean (g : FVec Ideal S50000x32x4 .f32) : FVec Ideal S50000x32x1 .f32 :=
  Host.divf
    (broadcastInDim S50000x32x1 ![0, 1] bcast_S50000x32_S50000x32x1_0_1
      (Host.reduceAdd g (constant (F := Ideal) S_ .f32 0x00000000#32) reducesTo_S50000x32x4_S50000x32_d2 h_S_))
    (broadcastInDim S50000x32x1 ![] bcast_S_S50000x32x1 (constant (F := Ideal) S_ .f32 0x40800000#32))

/-- The number the variance divides by: `4 − ddof` with `ddof = 0`. -/
def varDen : FVec Ideal S_ .f32 :=
  subf (constant (F := Ideal) S_ .f32 0x40800000#32) (sitofp .f32 (constantI S_ 32 0#32))

/-- The variance of each group: the mean of the squared deviations from the group's mean (chosen over the
    not-a-number literal because the divisor `4 − 0` is positive). -/
def gvar (g : FVec Ideal S50000x32x4 .f32) : FVec Ideal S50000x32x1 .f32 :=
  select (broadcastInDim S50000x32x1 ![] bcast_S_S50000x32x1
      (cmpf .ogt varDen (constant (F := Ideal) S_ .f32 0x00000000#32)))
    (Host.divf
      (broadcastInDim S50000x32x1 ![0, 1] bcast_S50000x32_S50000x32x1_0_1
        (Host.reduceAdd
          (mulf (subf g (broadcastInDim S50000x32x4 ![0, 1, 2] bcast_S50000x32x1_S50000x32x4_0_1_2 (gmean g)))
                (subf g (broadcastInDim S50000x32x4 ![0, 1, 2] bcast_S50000x32x1_S50000x32x4_0_1_2 (gmean g))))
          (constant (F := Ideal) S_ .f32 0x00000000#32) reducesTo_S50000x32x4_S50000x32_d2 h_S_))
      (broadcastInDim S50000x32x1 ![] bcast_S_S50000x32x1 varDen))
    (broadcastInDim S50000x32x1 ![] bcast_S_S50000x32x1 (id (constant (F := Ideal) S_ .f32 0x7FC00000#32)))

/-- Group normalisation of a node's channels, then the per-channel scale `γ` and shift `β`. -/
def gnorm (a : A128) (γ β : FVec Ideal S128 .f32) : A128 :=
  addf
    (mulf
      (shapeCast S50000x128
        (mulf (subf (grouped a) (broadcastInDim S50000x32x4 ![0, 1, 2] bcast_S50000x32x1_S50000x32x4_0_1_2 (gmean (grouped a))))
          (broadcastInDim S50000x32x4 ![0, 1, 2] bcast_S50000x32x1_S50000x32x4_0_1_2
            (Host.rsqrt (addf (gvar (grouped a))
              (broadcastInDim S50000x32x1 ![] bcast_S_S50000x32x1 (constant (F := Ideal) S_ .f32 0x3727C5AC#32))))))
        shapeCasts_S50000x32x4_S50000x128)
      (broadcastInDim S50000x128 ![0, 1] bcast_S1x128_S50000x128_0_1 (broadcastInDim S1x128 ![1] bcast_S128_S1x128_1 γ)))
    (broadcastInDim S50000x128 ![0, 1] bcast_S1x128_S50000x128_0_1 (broadcastInDim S1x128 ![1] bcast_S128_S1x128_1 β))

/-- Each row with its maximum subtracted. -/
def shifted (z : A40) : A40 :=
  subf z (broadcastInDim S50000x40 ![0, 1] bcast_S50000x1_S50000x40_0_1
    (broadcastInDim S50000x1 ![0] bcast_S50000_S50000x1_0
      (maximumf (broadcastInDim S50000 ![] bcast_S_S50000 (constant (F := Ideal) S_ .f32 0xFF800000#32))
        (Host.reduce FloatOps.maximumf z (constant (F := Ideal) S_ .f32 0xFF800000#32) reducesTo_S50000x40_S50000_d1 h_S_))))

/-- The logarithm of the softmax of each row. -/
def logSoftmax (z : A40) : A40 :=
  subf (shifted z) (broadcastInDim S50000x40 ![0, 1] bcast_S50000x1_S50000x40_0_1
    (Host.log (broadcastInDim S50000x1 ![0] bcast_S50000_S50000x1_0
      (Host.reduceAdd (Host.exp (shifted z)) (constant (F := Ideal) S_ .f32 0x00000000#32) reducesTo_S50000x40_S50000_d1 h_S_))))

/-- The first layer's activations: `relu (agg (x·W0) + b0)`. -/
def act1 (x : A128) (src tgt : EdgeI) (w : EdgeW) (W0 : FVec Ideal S128x128 .f32) (b0 : FVec Ideal S128 .f32) : A128 :=
  relu128 (bias128 (agg128 (mm128 x W0) src tgt w) b0)

/-- The second layer's aggregated values before bias: `agg (act1 · W1)`. -/
def agg2 (x : A128) (src tgt : EdgeI) (w : EdgeW) (W0 : FVec Ideal S128x128 .f32) (b0 : FVec Ideal S128 .f32)
    (W1 : FVec Ideal S128x128 .f32) : A128 :=
  agg128 (mm128 (act1 x src tgt w W0 b0) W1) src tgt w

/-- What the reference returns. -/
def result (x : A128) (src tgt : EdgeI) (w : EdgeW) (W0 : FVec Ideal S128x128 .f32) (b0 : FVec Ideal S128 .f32)
    (W1 : FVec Ideal S128x128 .f32) (b1 : FVec Ideal S128 .f32) (W2 : FVec Ideal S128x40 .f32) (b2 : FVec Ideal S40 .f32)
    (γ β : FVec Ideal S128 .f32) : A40 :=
  logSoftmax (bias40 (agg40 (mm40 (gnorm (relu128 (bias128 (agg2 x src tgt w W0 b0 W1) b1)) γ β) W2) src tgt w) b2)

end Cert.RefSpec

end
-- ==== Proof.KRegion0Product.lean ====
/- A row block of a matrix product is the product of the row block. For an M × k matrix X, a k × n matrix W and the
   block of m rows of X that starts at row p·m, entry (r, c) of (block · W), accumulated into zeros by the matrix
   unit, is entry (p·m + r, c) of X · W: both are the sum over the k contracted positions of the same products,
   because row r of the block is row p·m + r of X. Stated for operands that are only KNOWN entry by entry (the
   left one as rows of X, the right one as W), so that a change of float format in front of the matrix unit, which is
   the identity on extended reals, or a pointwise preactivation, is absorbed by the hypotheses. -/
import Idealize.ShloMosaic.Lib.StackMember
import Idealize.ShloMosaic.Lib.KernelVsHost

noncomputable section

namespace Cert.KValue.RowBlock

open Idealize.ShloMosaic Idealize.ShloMosaic.ValueIdx

/-- The matrix unit's product of an m × k by a k × n matrix accumulated into zeros, read at (a, b): the sum over the
    contracted coordinate of the products of the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- THE BLOCK OF THE PRODUCT: if the left operand `L` is, entry by entry, rows p·m … p·m + m − 1 of `X` and the right
    operand `R` is `W`, then the matrix unit's `L · R` at (r, c) is the host's `X · W` at (p·m + r, c). -/
theorem block_product {M m k n : Nat} {φ₁ φ₂ ψ₁ ψ₂ : FTy} (prec prec' : Option ContractPrecision)
    (X : FVec Ideal ⟨2, ![M, k]⟩ φ₁) (W : FVec Ideal ⟨2, ![k, n]⟩ φ₂)
    (L : FVec Ideal ⟨2, ![m, k]⟩ ψ₁) (R : FVec Ideal ⟨2, ![k, n]⟩ ψ₂) (p : Nat)
    (hL : ∀ (r : Fin m) (q : Fin k) (i : Fin M), i.val = p * m + r.val → (L (ix2 r q) : EReal) = X (ix2 i q))
    (hR : ∀ (q : Fin k) (c : Fin n), (R (ix2 q c) : EReal) = W (ix2 q c))
    (r : Fin m) (c : Fin n) (i : Fin M) (hi : i.val = p * m + r.val) :
    (matmul (DotDims.plain m k n) prec L R (constant (F := Ideal) ⟨2, ![m, n]⟩ .f32 0x00000000#32) (ix2 r c) : EReal)
      = Host.dotGeneral (DotDims.plain M k n) prec' X W (ix2 i c) := by
  rw [matmul_plain_apply, StackMember.dotGeneral_plain_apply]
  exact Finset.sum_congr rfl fun q _ => by rw [hL r q i hi, hR q c]

end Cert.KValue.RowBlock

end
-- ==== Proof.KRegion0.lean ====
/- Region 0: every block of 2000 rows of the output is the block's rows of `x` times `W0` (the change of float
   format before the matrix unit is the identity on extended reals), and the 25 blocks tile the array: the output
   array ends as the whole product `x · W0`. -/
import proofs.«106202_j40956808135033_1_alg».proof.Proof.KernelIdealFrameP
import proofs.«106202_j40956808135033_1_alg».proof.Proof.RefSpec
import proofs.«106202_j40956808135033_1_alg».proof.Proof.KRegion0Product
import Idealize.ShloMosaic.Lib.Pipeline.Value
import Idealize.ShloMosaic.Lib.ValueIdx

set_option maxRecDepth 16384

noncomputable section

namespace Cert.KValue

open Idealize.ShloMosaic Idealize.ShloMosaic.TcCoe Idealize.SL.Sem
open Idealize.ShloMosaic.ValueIdx
open Cert.KernelIdeal Cert.KernelIdeal.Gen Cert.KernelIdeal.GenP

variable (V : (c : Dev nD) → (b : Ref sig .tc) → Buf (Elt Ideal) ((c : Thread nD τ).loc b))

namespace R0

/-- The two zero offsets of a whole-block access, as the constant function. -/
theorem zeros : (![0, 0] : Fin 2 → Nat) = fun _ => 0 := funext fun a => by fin_cases a <;> rfl

/-- The block's payload at (row, col) is the whole product at (p·2000 + row, col), whenever the first loaded block
    is rows p·2000 … of `X` and the second is `W`: the matrix unit's dimension numbers and the reference's are both
    the plain rows-by-columns contraction, and narrowing to bf16 changes no extended real. -/
theorem pay_at (X : RefSpec.A128) (W : FVec Ideal S128x128 .f32)
    (x0 : Vec Ideal S2000x128 .f32) (x1 : Vec Ideal S128x128 .f32) (p : Nat)
    (hx0 : ∀ (r : Fin 2000) (q : Fin 128) (i : Fin 50000), i.val = p * 2000 + r.val → (x0 (ix2 r q) : EReal) = X (ix2 i q))
    (hx1 : ∀ (q : Fin 128) (c : Fin 128), (x1 (ix2 q c) : EReal) = W (ix2 q c))
    (y : S2000x128.Idx) (i : S50000x128.Idx) (h0 : (i 0).val = p * 2000 + (y 0).val) (h1 : (i 1).val = (y 1).val) :
    (k0_pay1 x0 x1 y : EReal) = RefSpec.mm128 X W i := by
  obtain ⟨r, c, rfl⟩ : ∃ (r : Fin 2000) (c : Fin 128), y = ix2 r c := ⟨y 0, y 1, eq_ix2 y⟩
  obtain ⟨R, c', rfl⟩ : ∃ (R : Fin 50000) (c' : Fin 128), i = ix2 R c' := ⟨i 0, i 1, eq_ix2 i⟩
  obtain rfl : c' = c := Fin.ext h1
  unfold k0_pay1 RefSpec.mm128
  exact RowBlock.block_product (M := 50000) (m := 2000) (k := 128) (n := 128) none none X W _ _ p
    (fun r q i hi => hx0 r q i hi) (fun q c => hx1 q c) r c' R h0

/-- The printed index maps, decided over the 25 points: the row-blocked windows sit at block (t, 0), the weight
    window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point `t` is rows 2000·t … 2000·t + 1999 of `x`: a block's element sits in the
    array at block index × block size + its own coordinate. -/
theorem xblock_at (c : Dev nD) (t : Fin cfg0.N) (r : Fin 2000) (q : Fin 128) (i : Fin 50000)
    (hi : i.val = t.val * 2000 + r.val) :
    (iblk0 V c 0 t (ix2 r q) : EReal) = (V c main_arg0 : S50000x128.Idx → EReal) (ix2 i q) := by
  obtain ⟨e0, e1, -⟩ := idx_facts t
  show V c main_arg0 (((cfg0.win 0).blk t).view.emb (ix2 r q)) = V c main_arg0 (ix2 i q)
  refine congrArg (V c main_arg0) (funext fun a => Fin.ext ?_)
  match a with
  | ⟨0, _⟩ => show win0_0.index t (0 : Fin 2) * 2000 + 1 * r.val = i.val; omega
  | ⟨1, _⟩ => show win0_0.index t (1 : Fin 2) * 128 + 1 * q.val = q.val; omega

/-- The second window's one block is the whole of `W0`. -/
theorem wblock_at (c : Dev nD) (t : Fin cfg0.N) (q : Fin 128) (k : Fin 128) :
    (iblk0 V c 1 t (ix2 q k) : EReal) = (V c main_arg4 : S128x128.Idx → EReal) (ix2 q k) := by
  obtain ⟨-, -, e2, e3, -⟩ := idx_facts t
  show V c main_arg4 (((cfg0.win 1).blk t).view.emb (ix2 q k)) = V c main_arg4 (ix2 q k)
  refine congrArg (V c main_arg4) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- WHAT POINT `t` WRITES BACK is block `t` of the whole product. -/
theorem flushed_eq (c : Dev nD) (t : Fin cfg0.N) :
    (dat0 (F := Ideal) V c).flushed 2 t
      = ((cfg0.win 2).blk t).view.read (Elt Ideal) (RefSpec.mm128 (V c main_arg0) (V c main_arg4)) := by
  show (cfg0.win 2).cut (grid0.coords t) ((dat0 V c).after 2 t) = _
  rw [after0_2]
  unfold out0_2
  rw [View.canon_unit_zero zeros]
  simp only [View.ld_unit_zero (S := S2000x128) zeros, View.ld_unit_zero (S := S128x128) zeros]
  obtain ⟨-, -, -, -, e4, e5⟩ := idx_facts t
  funext y
  show k0_pay1 (iblk0 V c 0 t) (iblk0 V c 1 t) (win0_2.xinj (grid0.coords t) y)
    = RefSpec.mm128 (V c main_arg0) (V c main_arg4) (((cfg0.win 2).blk t).view.emb y)
  refine pay_at (V c main_arg0) (V c main_arg4) (iblk0 V c 0 t) (iblk0 V c 1 t) t.val
    (xblock_at V c t) (wblock_at V c t) _ _ ?_ ?_
  · show win0_2.index t (0 : Fin 2) * 2000 + 1 * (y 0).val = t.val * 2000 + (y 0).val; omega
  · show win0_2.index t (1 : Fin 2) * 128 + 1 * (y 1).val = (y 1).val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every row lies in one of the 25 blocks: row `r` in block `r / 2000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

end R0

theorem region0 (c : Dev nD) :
    ((dat0 (F := Ideal) V c).arrAt 2 cfg0.N : S50000x128.Idx → EReal)
      = RefSpec.mm128 (V c main_arg0) (V c main_arg4) :=
  (dat0 (F := Ideal) V c).arrAt_eq_of_cover 2 (RefSpec.mm128 (V c main_arg0) (V c main_arg4))
    (fun t _ => R0.flushed_eq V c t) R0.cover

end Cert.KValue

end
-- ==== Proof.KRegion1.lean ====
/- Region 1: every block of 2000 rows of the output is `relu (agg + b0)` of the block's rows times `W1`, where the
   bias arrives as a 1 × 128 row; the 25 blocks tile the array, so the output array ends as
   `relu (agg + b0) · W1`. -/
import proofs.«106202_j40956808135033_1_alg».proof.Proof.KernelIdealFrameP
import proofs.«106202_j40956808135033_1_alg».proof.Proof.RefSpec
import proofs.«106202_j40956808135033_1_alg».proof.Proof.KRegion0Product
import Idealize.ShloMosaic.Lib.Pipeline.Value
import Idealize.ShloMosaic.Lib.ValueIdx
import Idealize.ShloMosaic.Lib.KernelVsHost

set_option maxRecDepth 16384

noncomputable section

namespace Cert.KValue

open Idealize.ShloMosaic Idealize.ShloMosaic.TcCoe Idealize.SL.Sem
open Idealize.ShloMosaic.ValueIdx
open Cert.KernelIdeal Cert.KernelIdeal.Gen Cert.KernelIdeal.GenP

variable (V : (c : Dev nD) → (b : Ref sig .tc) → Buf (Elt Ideal) ((c : Thread nD τ).loc b))

namespace R1

/-- The two zero offsets of a whole-block access, as the constant function. -/
theorem zeros : (![0, 0] : Fin 2 → Nat) = fun _ => 0 := funext fun a => by fin_cases a <;> rfl

/-- The preactivation at (row, col): the block's entry plus the bias row's entry at `col`, then the maximum with
    zero — the reference's `relu (X + b0)` at (p·2000 + row, col), whenever the block is rows p·2000 … of `X` and
    the 1 × 128 row is the bias laid out as a row. Both sides broadcast the same row down the rows, and both
    zeros are the same constant. -/
theorem preact_at (X : RefSpec.A128) (b0 : FVec Ideal Cert.ReferenceIdeal.S128 .f32)
    (x0 : Vec Ideal S2000x128 .f32) (x1 : Vec Ideal S1x128 .f32) (p : Nat)
    (hx0 : ∀ (r : Fin 2000) (q : Fin 128) (i : Fin 50000), i.val = p * 2000 + r.val → (x0 (ix2 r q) : EReal) = X (ix2 i q))
    (hx1 : ∀ q : Fin 128, (x1 (ix2 (0 : Fin 1) q) : EReal)
      = broadcastInDim Cert.ReferenceIdeal.S1x128 ![1] Cert.ReferenceIdeal.Facts₀.bcast_S128_S1x128_1 b0 (ix2 (0 : Fin 1) q))
    (r : Fin 2000) (q : Fin 128) (i : Fin 50000) (hi : i.val = p * 2000 + r.val) :
    (maximumf
        (addf (shapeCast S2000x128 x0 shapeCasts_S2000x128_S2000x128)
          (broadcastTo S2000x128 (shapeCast S1x128 x1 shapeCasts_S1x128_S1x128) broadcasts_S1x128_S2000x128))
        (broadcast S2000x128 (Scalar.ofBits (F := Ideal) .f32 0x00000000#32)) (ix2 r q) : EReal)
      = RefSpec.relu128 (RefSpec.bias128 X b0) (ix2 i q) := by
  have e0 : (shapeCast S2000x128 x0 shapeCasts_S2000x128_S2000x128 (ix2 r q) : EReal) = X (ix2 i q) :=
    (congrFun (shapeCast_self x0 _) (ix2 r q)).trans (hx0 r q i hi)
  have e1 : (broadcastTo S2000x128 (shapeCast S1x128 x1 shapeCasts_S1x128_S1x128) broadcasts_S1x128_S2000x128 (ix2 r q) : EReal)
      = broadcastInDim Cert.ReferenceIdeal.S1x128 ![1] Cert.ReferenceIdeal.Facts₀.bcast_S128_S1x128_1 b0 (ix2 (0 : Fin 1) q) := by
    rw [shapeCast_self]
    exact (broadcastTo_apply x1 broadcasts_S1x128_S2000x128 (ix2 r q) (ix2 (0 : Fin 1) q) (fun a => by
      match a with
      | ⟨0, _⟩ => rfl
      | ⟨1, _⟩ => rfl)).trans (hx1 q)
  unfold RefSpec.relu128 RefSpec.bias128
  show max (_ + _) _ = max (_ + _) _
  refine congrArg₂ max (congrArg₂ (· + ·) e0 (e1.trans ?_)) rfl
  exact (broadcastInDim_oneRow_apply _ _ i q).symm

/-- The block's payload at (row, col) is `relu (X + b0) · W` at (p·2000 + row, col), whenever the first loaded
    block is rows p·2000 … of `X`, the second is the bias as a row and the third is `W`. -/
theorem pay_at (X : RefSpec.A128) (b0 : FVec Ideal Cert.ReferenceIdeal.S128 .f32) (W : FVec Ideal S128x128 .f32)
    (x0 : Vec Ideal S2000x128 .f32) (x1 : Vec Ideal S1x128 .f32) (x2 : Vec Ideal S128x128 .f32) (p : Nat)
    (hx0 : ∀ (r : Fin 2000) (q : Fin 128) (i : Fin 50000), i.val = p * 2000 + r.val → (x0 (ix2 r q) : EReal) = X (ix2 i q))
    (hx1 : ∀ q : Fin 128, (x1 (ix2 (0 : Fin 1) q) : EReal)
      = broadcastInDim Cert.ReferenceIdeal.S1x128 ![1] Cert.ReferenceIdeal.Facts₀.bcast_S128_S1x128_1 b0 (ix2 (0 : Fin 1) q))
    (hx2 : ∀ (q : Fin 128) (c : Fin 128), (x2 (ix2 q c) : EReal) = W (ix2 q c))
    (y : S2000x128.Idx) (i : S50000x128.Idx) (h0 : (i 0).val = p * 2000 + (y 0).val) (h1 : (i 1).val = (y 1).val) :
    (k1_pay1 x0 x1 x2 y : EReal) = RefSpec.mm128 (RefSpec.relu128 (RefSpec.bias128 X b0)) W i := by
  obtain ⟨r, c, rfl⟩ : ∃ (r : Fin 2000) (c : Fin 128), y = ix2 r c := ⟨y 0, y 1, eq_ix2 y⟩
  obtain ⟨R, c', rfl⟩ : ∃ (R : Fin 50000) (c' : Fin 128), i = ix2 R c' := ⟨i 0, i 1, eq_ix2 i⟩
  obtain rfl : c' = c := Fin.ext h1
  unfold k1_pay1 RefSpec.mm128
  refine RowBlock.block_product (M := 50000) (m := 2000) (k := 128) (n := 128) (ψ₁ := .bf16) (ψ₂ := .bf16) none none
    (RefSpec.relu128 (RefSpec.bias128 X b0)) W _ _ p ?_ ?_ r c' R h0
  · exact fun r q i hi => preact_at X b0 x0 x1 p hx0 hx1 r q i hi
  · exact fun q c => hx2 q c

/-- The printed index maps, decided over the 25 points: the row-blocked windows sit at block (t, 0), the bias row
    and the weight window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point `t` is rows 2000·t … 2000·t + 1999 of the aggregated values: a block's
    element sits in the array at block index × block size + its own coordinate. -/
theorem xblock_at (c : Dev nD) (t : Fin cfg1.N) (r : Fin 2000) (q : Fin 128) (i : Fin 50000)
    (hi : i.val = t.val * 2000 + r.val) :
    (iblk1 V c 0 t (ix2 r q) : EReal) = (V c main_v13 : S50000x128.Idx → EReal) (ix2 i q) := by
  obtain ⟨e0, e1, -⟩ := idx_facts t
  show V c main_v13 (((cfg1.win 0).blk t).view.emb (ix2 r q)) = V c main_v13 (ix2 i q)
  refine congrArg (V c main_v13) (funext fun a => Fin.ext ?_)
  match a with
  | ⟨0, _⟩ => show win1_0.index t (0 : Fin 2) * 2000 + 1 * r.val = i.val; omega
  | ⟨1, _⟩ => show win1_0.index t (1 : Fin 2) * 128 + 1 * q.val = q.val; omega

/-- The second window's one block is the whole 1 × 128 bias row. -/
theorem bblock_at (c : Dev nD) (t : Fin cfg1.N) (q : Fin 128) :
    (iblk1 V c 1 t (ix2 (0 : Fin 1) q) : EReal) = (V c main_v14 : S1x128.Idx → EReal) (ix2 (0 : Fin 1) q) := by
  obtain ⟨-, -, e2, e3, -⟩ := idx_facts t
  show V c main_v14 (((cfg1.win 1).blk t).view.emb (ix2 (0 : Fin 1) q)) = V c main_v14 (ix2 (0 : Fin 1) q)
  refine congrArg (V c main_v14) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The third window's one block is the whole of `W1`. -/
theorem wblock_at (c : Dev nD) (t : Fin cfg1.N) (q : Fin 128) (k : Fin 128) :
    (iblk1 V c 2 t (ix2 q k) : EReal) = (V c main_arg6 : S128x128.Idx → EReal) (ix2 q k) := by
  obtain ⟨-, -, -, -, e4, e5, -⟩ := idx_facts t
  show V c main_arg6 (((cfg1.win 2).blk t).view.emb (ix2 q k)) = V c main_arg6 (ix2 q k)
  refine congrArg (V c main_arg6) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

/-- WHAT POINT `t` WRITES BACK is block `t` of `relu (agg + b0) · W1`, the 1 × 128 row being the bias as a row. -/
theorem flushed_eq (c : Dev nD) (b0 : FVec Ideal Cert.ReferenceIdeal.S128 .f32)
    (hb : (V c main_v14 : S1x128.Idx → EReal)
      = broadcastInDim Cert.ReferenceIdeal.S1x128 ![1] Cert.ReferenceIdeal.Facts₀.bcast_S128_S1x128_1 b0)
    (t : Fin cfg1.N) :
    (dat1 (F := Ideal) V c).flushed 3 t
      = ((cfg1.win 3).blk t).view.read (Elt Ideal)
          (RefSpec.mm128 (RefSpec.relu128 (RefSpec.bias128 (V c main_v13) b0)) (V c main_arg6)) := by
  show (cfg1.win 3).cut (grid1.coords t) ((dat1 V c).after 3 t) = _
  rw [after1_3]
  unfold out1_3
  rw [View.canon_unit_zero zeros]
  simp only [View.ld_unit_zero (S := S2000x128) zeros, View.ld_unit_zero (S := S1x128) zeros,
    View.ld_unit_zero (S := S128x128) zeros]
  obtain ⟨-, -, -, -, -, -, e6, e7⟩ := idx_facts t
  funext y
  show k1_pay1 (iblk1 V c 0 t) (iblk1 V c 1 t) (iblk1 V c 2 t) (win1_3.xinj (grid1.coords t) y)
    = RefSpec.mm128 (RefSpec.relu128 (RefSpec.bias128 (V c main_v13) b0)) (V c main_arg6) (((cfg1.win 3).blk t).view.emb y)
  refine pay_at (V c main_v13) b0 (V c main_arg6) (iblk1 V c 0 t) (iblk1 V c 1 t) (iblk1 V c 2 t) t.val
    (xblock_at V c t) (fun q => (bblock_at V c t q).trans (congrFun hb (ix2 (0 : Fin 1) q))) (wblock_at V c t) _ _ ?_ ?_
  · show win1_3.index t (0 : Fin 2) * 2000 + 1 * (y 0).val = t.val * 2000 + (y 0).val; omega
  · show win1_3.index t (1 : Fin 2) * 128 + 1 * (y 1).val = (y 1).val; omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v15).slice (win1_3.rect t)).set ↔ _
  rw [View.set_slice_whole, Rect.mem_set_unit]
  exact Iff.rfl

/-- Every row lies in one of the 25 blocks: row `r` in block `r / 2000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨-, -, -, -, -, -, e6, e7⟩ := idx_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

end R1

theorem region1 (c : Dev nD) (b0 : FVec Ideal Cert.ReferenceIdeal.S128 .f32)
    (hb : (V c main_v14 : S1x128.Idx → EReal)
      = broadcastInDim Cert.ReferenceIdeal.S1x128 ![1] Cert.ReferenceIdeal.Facts₀.bcast_S128_S1x128_1 b0) :
    ((dat1 (F := Ideal) V c).arrAt 3 cfg1.N : S50000x128.Idx → EReal)
      = RefSpec.mm128 (RefSpec.relu128 (RefSpec.bias128 (V c main_v13) b0)) (V c main_arg6) :=
  (dat1 (F := Ideal) V c).arrAt_eq_of_cover 3
    (RefSpec.mm128 (RefSpec.relu128 (RefSpec.bias128 (V c main_v13) b0)) (V c main_arg6))
    (fun t _ => R1.flushed_eq V c b0 hb t) R1.cover

end Cert.KValue

end
-- ==== Proof.KRegion2Tables.lean ====
/- The two grouping tables, entry by entry: the 128 × 32 table holds one at (ch, g) exactly when g = ch / 4,
   the 32 × 128 table is its transpose. Both are decided over their 4096 row-major positions. -/
import proofs.«106202_j40956808135033_1_alg».proof.KernelIdeal

namespace Cert.KValue.R2

open Cert.KernelIdeal

/-- Row-major position i of the 128 × 32 table is (i / 32, i % 32): one iff the column is the row's group. -/
theorem lit0_eq : ∀ i : Fin 4096, lit0 i = if i.val % 32 = i.val / 32 / 4 then 0x3F800000#32 else 0x00000000#32 := by
  decide +kernel

/-- Row-major position i of the 32 × 128 table is (i / 128, i % 128): one iff the row is the column's group. -/
theorem lit1_eq : ∀ i : Fin 4096, lit1 i = if i.val / 128 = i.val % 128 / 4 then 0x3F800000#32 else 0x00000000#32 := by
  decide +kernel

end Cert.KValue.R2
-- ==== Proof.KRegion2Alg.lean ====
/- Group normalisation of one row of 128 channels in groups of four, free of any program.

   A row a : Fin 128 → EReal is cut into 32 groups; channel ch lies in group ch / 4 and group g holds the channels
   4 g + k, k < 4. Summing a row against the 0/1 table "g is ch's group" is summing the group's four channels, and
   summing a per-group value against the transposed table picks the value of the channel's group. The variance
   comes in two forms: the mean of the squares minus the squared mean, and the mean of the squared deviations;
   for a row of REAL entries the two agree (on the extended reals they part at the infinities). -/
import Idealize.ShloMosaic.PureOps.Ideal
import Idealize.ShloMosaic.PureOps.Ideal.Laws

noncomputable section

open scoped BigOperators

namespace Cert.KValue.R2

open Idealize.ShloMosaic

/-! ## Constants -/

/-- The pattern of 1.0 denotes 1. -/
theorem ofBits_one : Ideal.ofBits .f32 0x3F800000#32 = 1 := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-- The divisor 4. -/
def four : EReal := Ideal.ofBits .f32 0x40800000#32
/-- The small constant added to the variance. -/
def eps : EReal := Ideal.ofBits .f32 0x3727C5AC#32

theorem four_eq : four = ((4 : ℝ) : EReal) := ofBits_four

/-! ## Groups of four channels -/

/-- The group of a channel. -/
def grp (ch : Fin 128) : Fin 32 := ⟨ch.val / 4, by have := ch.isLt; omega⟩
/-- The k-th channel of a group. -/
def chan (g : Fin 32) (k : Fin 4) : Fin 128 := ⟨4 * g.val + k.val, by have := g.isLt; have := k.isLt; omega⟩

theorem grp_val (ch : Fin 128) : (grp ch).val = ch.val / 4 := rfl
theorem chan_val (g : Fin 32) (k : Fin 4) : (chan g k).val = 4 * g.val + k.val := rfl

/-- A channel is a group and a place in it. -/
def grpEquiv : Fin 32 × Fin 4 ≃ Fin 128 where
  toFun p := chan p.1 p.2
  invFun ch := (grp ch, ⟨ch.val % 4, Nat.mod_lt _ (by decide)⟩)
  left_inv p := by
    rcases p with ⟨g, k⟩
    have hg := g.isLt; have hk := k.isLt
    refine Prod.ext (Fin.ext ?_) (Fin.ext ?_)
    · show (4 * g.val + k.val) / 4 = g.val; omega
    · show (4 * g.val + k.val) % 4 = k.val; omega
  right_inv ch := by
    apply Fin.ext
    show 4 * (ch.val / 4) + ch.val % 4 = ch.val; omega

/-- Summing a row against the table "g is the channel's group" sums group g's four channels. -/
theorem sum_group {M : Type*} [AddCommMonoid M] (f : Fin 128 → M) (g : Fin 32) :
    ∑ ch : Fin 128, (if g.val = ch.val / 4 then f ch else 0) = ∑ k : Fin 4, f (chan g k) := by
  rw [← Equiv.sum_comp grpEquiv, Fintype.sum_prod_type, Finset.sum_eq_single g]
  · refine Finset.sum_congr rfl fun k _ => ?_
    have hk := k.isLt
    exact if_pos (by show g.val = (4 * g.val + k.val) / 4; omega)
  · intro g' _ hne
    refine Finset.sum_eq_zero fun k _ => ?_
    have hk := k.isLt
    refine if_neg fun h => hne (Fin.ext ?_)
    have h' : g.val = (4 * g'.val + k.val) / 4 := h
    omega
  · intro h; exact absurd (Finset.mem_univ _) h

/-- Summing per-group values against the transposed table picks the value of the channel's group. -/
theorem sum_pick {M : Type*} [AddCommMonoid M] (v : Fin 32 → M) (ch : Fin 128) :
    ∑ g : Fin 32, (if g.val = ch.val / 4 then v g else 0) = v (grp ch) := by
  rw [Finset.sum_eq_single (grp ch)]
  · exact if_pos rfl
  · intro g _ hne
    exact if_neg fun h => hne (Fin.ext h)
  · intro h; exact absurd (Finset.mem_univ _) h

/-! ## One row's statistics -/

/-- The mean of group g. -/
def gmu (a : Fin 128 → EReal) (g : Fin 32) : EReal := Ideal.div (∑ k : Fin 4, a (chan g k)) four
/-- The variance as the mean of the squared deviations from the mean. -/
def gvarDev (a : Fin 128 → EReal) (g : Fin 32) : EReal :=
  Ideal.div (∑ k : Fin 4, (a (chan g k) - gmu a g) * (a (chan g k) - gmu a g)) four
/-- The variance as the mean of the squares minus the squared mean. -/
def gvarSq (a : Fin 128 → EReal) (g : Fin 32) : EReal :=
  Ideal.div (∑ k : Fin 4, a (chan g k) * a (chan g k)) four - gmu a g * gmu a g
/-- The normalised, scaled and shifted entry of channel ch, from a variance v per group. -/
def normRow (v : Fin 32 → EReal) (a γ β : Fin 128 → EReal) (ch : Fin 128) : EReal :=
  (a ch - gmu a (grp ch)) * Ideal.rsqrt (v (grp ch) + eps) * γ ch + β ch

/-- For a row of real entries the two variances agree: with μ = (∑ aₖ)/4,
    (∑ aₖ²)/4 − μ² = (∑ (aₖ − μ)²)/4. -/
theorem gvarSq_eq_gvarDev (a : Fin 128 → EReal) (ha : ∀ ch, ∃ r : ℝ, a ch = (r : EReal)) (g : Fin 32) :
    gvarSq a g = gvarDev a g := by
  choose r hr using ha
  have h4 : (4 : ℝ) ≠ 0 := by norm_num
  unfold gvarSq gvarDev gmu
  simp only [Fin.sum_univ_four, hr, four_eq, Ideal.div_coe h4]
  simp only [← EReal.coe_add, ← EReal.coe_mul, ← EReal.coe_sub]
  refine congrArg _ ?_
  ring

end Cert.KValue.R2

end
-- ==== Proof.KRegion2Pay.lean ====
/- The body's value at one entry of its block: entry (r, ch) is the normalised entry of channel ch of the row
   a = max (x + b, 0) of the block's row r, with the variance in the form "mean of squares minus squared mean".
   The two products with the 0/1 grouping table sum each group's four channels; the two products with its
   transpose spread a per-group value back over the group's channels. -/
import proofs.«106202_j40956808135033_1_alg».proof.Proof.Gen.KernelIdeal.Skeleton
import proofs.«106202_j40956808135033_1_alg».proof.Proof.KRegion2Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KValue.R2

open Idealize.ShloMosaic Idealize.ShloMosaic.ValueIdx
open Cert.KernelIdeal Cert.KernelIdeal.Gen

/-- Row r of the activation max (x + b, 0), b being the one row of the bias block. -/
def rowA (x0 : Vec Ideal S2000x128 .f32) (x1 : Vec Ideal S1x128 .f32) (r : Fin 2000) : Fin 128 → EReal :=
  fun ch => max (x0 (ix2 r ch) + x1 (ix2 (0 : Fin 1) ch)) 0

/-- A product with the grouping table, at (r, g): the sum of row r over group g's four channels. -/
theorem groupSum_apply (A : FVec Ideal S2000x128 .f32) (x4 : FVec Ideal S128x32 .f32)
    (h4 : ∀ (ch : Fin 128) (g : Fin 32), x4 (ix2 ch g) = if g.val = ch.val / 4 then 1 else 0)
    (r : Fin 2000) (g : Fin 32) :
    matmul dot_S2000x128_S128x32_S2000x32_1_0_0_1_n_n (some .fp32) A x4
        (constant (F := Ideal) S2000x32 .f32 0x00000000#32) (ix2 r g)
      = ∑ k : Fin 4, A (ix2 r (chan g k)) := by
  show FloatOps.matmul _ _ A x4 (constant (F := Ideal) S2000x32 .f32 0x00000000#32) (ix2 r g) = _
  rw [Ideal.matmul_constant_zero_apply,
    ← Equiv.sum_comp (contrEquiv1 dot_S2000x128_S128x32_S2000x32_1_0_0_1_n_n 128 rfl rfl).symm,
    ← sum_group (fun ch => A (ix2 r ch)) g]
  refine Finset.sum_congr rfl fun c _ => ?_
  have c2 := contrEquiv1_symm_val dot_S2000x128_S128x32_S2000x32_1_0_0_1_n_n 128 rfl rfl c
  have l2 : dot_S2000x128_S128x32_S2000x32_1_0_0_1_n_n.lhsIdx (ix2 r g) ((contrEquiv1 _ 128 rfl rfl).symm c) = ix2 r c := by
    funext ax; apply Fin.ext
    match ax with
    | ⟨0, _⟩ => simp [DotDims.lhsIdx, dot_S2000x128_S128x32_S2000x32_1_0_0_1_n_n]; rfl
    | ⟨1, _⟩ => exact (DotDims.lhsIdx_val_of_single _ rfl _ _).trans c2
  have r2 : dot_S2000x128_S128x32_S2000x32_1_0_0_1_n_n.rhsIdx (ix2 r g) ((contrEquiv1 _ 128 rfl rfl).symm c) = ix2 c g := by
    funext ax; apply Fin.ext
    match ax with
    | ⟨0, _⟩ => exact (DotDims.rhsIdx_val_of_single _ rfl _ _).trans c2
    | ⟨1, _⟩ => simp [DotDims.rhsIdx, dot_S2000x128_S128x32_S2000x32_1_0_0_1_n_n]; rfl
  rw [l2, r2, h4, mul_ite, mul_one, mul_zero]

/-- A product with the transposed table, at (r, ch): the per-group value of the channel's group. -/
theorem groupPick_apply (M : FVec Ideal S2000x32 .f32) (x5 : FVec Ideal S32x128 .f32)
    (h5 : ∀ (g : Fin 32) (ch : Fin 128), x5 (ix2 g ch) = if g.val = ch.val / 4 then 1 else 0)
    (r : Fin 2000) (ch : Fin 128) :
    matmul dot_S2000x32_S32x128_S2000x128_1_0_0_1_n_n (some .fp32) M x5
        (constant (F := Ideal) S2000x128 .f32 0x00000000#32) (ix2 r ch)
      = M (ix2 r (grp ch)) := by
  show FloatOps.matmul _ _ M x5 (constant (F := Ideal) S2000x128 .f32 0x00000000#32) (ix2 r ch) = _
  rw [Ideal.matmul_constant_zero_apply,
    ← Equiv.sum_comp (contrEquiv1 dot_S2000x32_S32x128_S2000x128_1_0_0_1_n_n 32 rfl rfl).symm,
    ← sum_pick (fun g => M (ix2 r g)) ch]
  refine Finset.sum_congr rfl fun c _ => ?_
  have c2 := contrEquiv1_symm_val dot_S2000x32_S32x128_S2000x128_1_0_0_1_n_n 32 rfl rfl c
  have l2 : dot_S2000x32_S32x128_S2000x128_1_0_0_1_n_n.lhsIdx (ix2 r ch) ((contrEquiv1 _ 32 rfl rfl).symm c) = ix2 r c := by
    funext ax; apply Fin.ext
    match ax with
    | ⟨0, _⟩ => simp [DotDims.lhsIdx, dot_S2000x32_S32x128_S2000x128_1_0_0_1_n_n]; rfl
    | ⟨1, _⟩ => exact (DotDims.lhsIdx_val_of_single _ rfl _ _).trans c2
  have r2 : dot_S2000x32_S32x128_S2000x128_1_0_0_1_n_n.rhsIdx (ix2 r ch) ((contrEquiv1 _ 32 rfl rfl).symm c) = ix2 c ch := by
    funext ax; apply Fin.ext
    match ax with
    | ⟨0, _⟩ => exact (DotDims.rhsIdx_val_of_single _ rfl _ _).trans c2
    | ⟨1, _⟩ => simp [DotDims.rhsIdx, dot_S2000x32_S32x128_S2000x128_1_0_0_1_n_n]; rfl
  rw [l2, r2, h5, mul_ite, mul_one, mul_zero]

/-- A vector rsqrt at an index. -/
theorem rsqrt_apply {s : Shape} {φ : FTy} (x : FVec Ideal s φ) (i : s.Idx) : rsqrt x i = Ideal.rsqrt (x i) := rfl

/-- THE PAYLOAD AT (r, ch). -/
theorem pay_apply (x0 : Vec Ideal S2000x128 .f32) (x1 x2 x3 : Vec Ideal S1x128 .f32)
    (x4 : Vec Ideal S128x32 .f32) (x5 : Vec Ideal S32x128 .f32)
    (h4 : ∀ (ch : Fin 128) (g : Fin 32), x4 (ix2 ch g) = if g.val = ch.val / 4 then 1 else 0)
    (h5 : ∀ (g : Fin 32) (ch : Fin 128), x5 (ix2 g ch) = if g.val = ch.val / 4 then 1 else 0)
    (r : Fin 2000) (ch : Fin 128) :
    k2_pay1 (F := Ideal) x0 x1 x4 x5 x2 x3 (ix2 r ch)
      = normRow (gvarSq (rowA x0 x1 r)) (rowA x0 x1 r) (fun c => x2 (ix2 (0 : Fin 1) c)) (fun c => x3 (ix2 (0 : Fin 1) c)) ch := by
  unfold k2_pay1
  simp only [shapeCast_self]
  simp only [addf_apply, mulf_apply, subf_apply, divf_apply, maximumf_apply, broadcast_apply, rsqrt_apply,
    groupPick_apply _ x5 h5, groupSum_apply _ x4 h4, broadcastTo_1b_ab_apply]
  simp only [Ideal.ofBits_def, Ideal.ofBits_zero_f32]
  rfl

end Cert.KValue.R2

end
-- ==== Proof.KRegion2Ref.lean ====
/- The reference's group normalisation at one entry: entry (n, ch) is the normalised entry of channel ch of
   row n of its operand, with the variance in the form "mean of the squared deviations from the mean" — read
   through the reshape to groups of four (position (n, g, k) is channel 4 g + k), the sums over a group's four
   places, the broadcasts of the per-group mean and inverse deviation, and the reshape back. -/
import proofs.«106202_j40956808135033_1_alg».proof.Proof.RefSpec
import proofs.«106202_j40956808135033_1_alg».proof.Proof.KRegion2Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KValue.R2

open Idealize.ShloMosaic Idealize.ShloMosaic.ValueIdx
open Cert.ReferenceIdeal Cert.ReferenceIdeal.Facts₀

/-! ## Broadcasts, reshapes and the group sum, at an index -/

/-- A scalar broadcast to any shape reads the scalar. -/
theorem bcastScalar_apply {t : Shape} {α : Type} (h : S_.BroadcastsInDim t (![] : Fin 0 → Fin t.rank))
    (c : S_.Idx → α) (j : t.Idx) : broadcastInDim t ![] h c j = c ix0 :=
  broadcastInDim_apply _ h c j ix0 (fun a => a.elim0)

/-- A vector of 128 broadcast as one row over all rows reads its entry at the column. -/
theorem bcastRow_apply (v : FVec Ideal S128 .f32) (n : Fin 50000) (ch : Fin 128) :
    broadcastInDim S50000x128 ![0, 1] bcast_S1x128_S50000x128_0_1 (broadcastInDim S1x128 ![1] bcast_S128_S1x128_1 v) (ix2 n ch)
      = v (ix1 ch) := by
  refine (broadcastInDim_apply _ _ _ (ix2 n ch) (ix2 (0 : Fin 1) ch) fun a => ?_).trans
    (broadcastInDim_apply _ _ _ (ix2 (0 : Fin 1) ch) (ix1 ch) fun a => ?_)
  · match a with
    | ⟨0, _⟩ => rfl
    | ⟨1, _⟩ => rfl
  · match a with
    | ⟨0, _⟩ => rfl

/-- A per-group value broadcast over the group's four places. -/
theorem bcastGroup_apply {α : Type} (m : S50000x32x1.Idx → α) (n : Fin 50000) (g : Fin 32) (k : Fin 4) :
    broadcastInDim S50000x32x4 ![0, 1, 2] bcast_S50000x32x1_S50000x32x4_0_1_2 m (ix3 n g k) = m (ix3 n g (0 : Fin 1)) := by
  refine broadcastInDim_apply _ _ m (ix3 n g k) (ix3 n g (0 : Fin 1)) fun a => ?_
  match a with
  | ⟨0, _⟩ => rfl
  | ⟨1, _⟩ => rfl
  | ⟨2, _⟩ => rfl

/-- A per-group value given a trailing unit axis. -/
theorem bcastUnit_apply {α : Type} (m : S50000x32.Idx → α) (n : Fin 50000) (g : Fin 32) :
    broadcastInDim S50000x32x1 ![0, 1] bcast_S50000x32_S50000x32x1_0_1 m (ix3 n g (0 : Fin 1)) = m (ix2 n g) := by
  refine broadcastInDim_apply _ _ m (ix3 n g (0 : Fin 1)) (ix2 n g) fun a => ?_
  match a with
  | ⟨0, _⟩ => rfl
  | ⟨1, _⟩ => rfl

/-- Place k of group g of row n is channel 4 g + k of row n. -/
theorem grouped_apply (A : RefSpec.A128) (n : Fin 50000) (g : Fin 32) (k : Fin 4) :
    RefSpec.grouped A (ix3 n g k) = A (ix2 n (chan g k)) := by
  unfold RefSpec.grouped
  refine shapeCast_apply A _ (ix3 n g k) (ix2 n (chan g k)) ?_
  rw [Shape.rowMajor_val_two, Shape.rowMajor_val_three]
  show n.val * 128 + (4 * g.val + k.val) = (n.val * 32 + g.val) * 4 + k.val
  omega

/-- The reshape back. -/
theorem ungrouped_apply (X : FVec Ideal S50000x32x4 .f32) (n : Fin 50000) (g : Fin 32) (k : Fin 4) :
    shapeCast S50000x128 X shapeCasts_S50000x32x4_S50000x128 (ix2 n (chan g k)) = X (ix3 n g k) := by
  refine shapeCast_apply X _ (ix2 n (chan g k)) (ix3 n g k) ?_
  rw [Shape.rowMajor_val_two, Shape.rowMajor_val_three]
  show (n.val * 32 + g.val) * 4 + k.val = n.val * 128 + (4 * g.val + k.val)
  omega

/-- The host's sum over the four places of a group, from the initial value zero. -/
theorem groupReduce_apply (G : FVec Ideal S50000x32x4 .f32) (n : Fin 50000) (g : Fin 32) :
    Host.reduceAdd G (constant (F := Ideal) S_ .f32 0x00000000#32) reducesTo_S50000x32x4_S50000x32_d2 h_S_ (ix2 n g)
      = ∑ k : Fin 4, G (ix3 n g k) := by
  have hR : S50000x32x4.Reduces [2] S50000x32 :=
    ⟨reducesTo_S50000x32x4_S50000x32_d2.1, Nat.two_pos, reducesTo_S50000x32x4_S50000x32_d2.2⟩
  show Ideal.hostReduceAdd reducesTo_S50000x32x4_S50000x32_d2 G (Ideal.ofBits .f32 0x00000000#32) (ix2 n g) = _
  rw [Ideal.hostReduceAdd_single _ hR, Ideal.ofBits_zero_f32, zero_add]
  refine Finset.sum_congr rfl fun k _ => congrArg G ?_
  funext c; apply Fin.ext
  match c with
  | ⟨0, _⟩ => rfl
  | ⟨1, _⟩ => rfl
  | ⟨2, _⟩ => rfl

/-- The host's division at an index. -/
theorem hostDivf_apply {s : Shape} {φ : FTy} (x y : FVec Ideal s φ) (i : s.Idx) : Host.divf x y i = Ideal.div (x i) (y i) := rfl
/-- The host's reciprocal square root at an index. -/
theorem hostRsqrt_apply {s : Shape} {φ : FTy} (x : FVec Ideal s φ) (i : s.Idx) : Host.rsqrt x i = Ideal.rsqrt (x i) := rfl

/-! ## The statistics -/

/-- The reference's group mean. -/
theorem gmean_apply (G : FVec Ideal S50000x32x4 .f32) (n : Fin 50000) (g : Fin 32) :
    RefSpec.gmean G (ix3 n g (0 : Fin 1)) = Ideal.div (∑ k : Fin 4, G (ix3 n g k)) four := by
  unfold RefSpec.gmean
  rw [hostDivf_apply, bcastUnit_apply, groupReduce_apply, bcastScalar_apply]
  rfl

/-- The divisor 4 − 0 is the real 4. -/
theorem varDen_eq : RefSpec.varDen ix0 = ((4 : ℝ) : EReal) := by
  unfold RefSpec.varDen
  show Ideal.ofBits .f32 0x40800000#32 - (((0#32 : BitVec 32).toInt : ℝ) : EReal) = _
  rw [ofBits_four]
  simp

/-- 4 > 0. -/
theorem cmp_four : Ideal.cmp .ogt ((4 : ℝ) : EReal) 0 = 1#1 := by
  have h : (0 : EReal) < ((4 : ℝ) : EReal) := by exact_mod_cast (by norm_num : (0 : ℝ) < 4)
  simp [Ideal.cmp, h]

/-- The reference's group variance: the branch of the positive divisor. -/
theorem gvar_apply (G : FVec Ideal S50000x32x4 .f32) (n : Fin 50000) (g : Fin 32) :
    RefSpec.gvar G (ix3 n g (0 : Fin 1))
      = Ideal.div (∑ k : Fin 4, (G (ix3 n g k) - RefSpec.gmean G (ix3 n g (0 : Fin 1))) * (G (ix3 n g k) - RefSpec.gmean G (ix3 n g (0 : Fin 1)))) four := by
  unfold RefSpec.gvar
  rw [select_apply, bcastScalar_apply, cmpf_apply]
  show Scalar.select (Ideal.cmp .ogt (RefSpec.varDen ix0) (Ideal.ofBits .f32 0x00000000#32)) _ _ = _
  rw [varDen_eq, Ideal.ofBits_zero_f32, cmp_four, select_one, hostDivf_apply, bcastUnit_apply, groupReduce_apply,
    bcastScalar_apply, varDen_eq, four_eq]
  refine congrArg (Ideal.div · _) (Finset.sum_congr rfl fun k _ => ?_)
  rw [mulf_apply, subf_apply, bcastGroup_apply]

/-! ## The normalisation -/

theorem grp_chan (g : Fin 32) (k : Fin 4) : grp (chan g k) = g := by
  apply Fin.ext
  show (4 * g.val + k.val) / 4 = g.val
  have := k.isLt; omega

theorem chan_grp (ch : Fin 128) : chan (grp ch) ⟨ch.val % 4, Nat.mod_lt _ (by decide)⟩ = ch := by
  apply Fin.ext
  show 4 * (ch.val / 4) + ch.val % 4 = ch.val
  omega

/-- The reference's normalisation at channel 4 g + k of row n. -/
theorem gnorm_chan_apply (A : RefSpec.A128) (γ β : FVec Ideal S128 .f32) (n : Fin 50000) (g : Fin 32) (k : Fin 4) :
    RefSpec.gnorm A γ β (ix2 n (chan g k))
      = normRow (gvarDev (fun c => A (ix2 n c))) (fun c => A (ix2 n c)) (fun c => γ (ix1 c)) (fun c => β (ix1 c)) (chan g k) := by
  unfold RefSpec.gnorm
  rw [addf_apply, mulf_apply, bcastRow_apply, bcastRow_apply, ungrouped_apply, mulf_apply, subf_apply, bcastGroup_apply,
    bcastGroup_apply, hostRsqrt_apply, addf_apply, bcastScalar_apply, gvar_apply, gmean_apply]
  simp only [grouped_apply]
  unfold normRow gvarDev gmu
  rw [grp_chan]
  rfl

/-- The reference's normalisation at any entry. -/
theorem gnorm_apply (A : RefSpec.A128) (γ β : FVec Ideal S128 .f32) (n : Fin 50000) (ch : Fin 128) :
    RefSpec.gnorm A γ β (ix2 n ch)
      = normRow (gvarDev (fun c => A (ix2 n c))) (fun c => A (ix2 n c)) (fun c => γ (ix1 c)) (fun c => β (ix1 c)) ch := by
  have h := gnorm_chan_apply A γ β n (grp ch) ⟨ch.val % 4, Nat.mod_lt _ (by decide)⟩
  rwa [chan_grp] at h

/-- The activation max (x + b, 0) at an entry. -/
theorem act_apply (X : RefSpec.A128) (b : FVec Ideal S128 .f32) (n : Fin 50000) (ch : Fin 128) :
    RefSpec.relu128 (RefSpec.bias128 X b) (ix2 n ch) = max (X (ix2 n ch) + b (ix1 ch)) 0 := by
  unfold RefSpec.relu128 RefSpec.bias128
  rw [maximumf_apply, addf_apply, bcastRow_apply, bcastScalar_apply]
  show max _ (Ideal.ofBits .f32 0x00000000#32) = _
  rw [Ideal.ofBits_zero_f32]

/-- THE REFERENCE'S LAYER AT (n, ch): the normalised entry of the activation's row n. -/
theorem ref_apply (X : RefSpec.A128) (b γ β : FVec Ideal S128 .f32) (n : Fin 50000) (ch : Fin 128) :
    RefSpec.gnorm (RefSpec.relu128 (RefSpec.bias128 X b)) γ β (ix2 n ch)
      = normRow (gvarDev (fun c => max (X (ix2 n c) + b (ix1 c)) 0)) (fun c => max (X (ix2 n c) + b (ix1 c)) 0)
          (fun c => γ (ix1 c)) (fun c => β (ix1 c)) ch := by
  rw [gnorm_apply]
  simp only [act_apply]

end Cert.KValue.R2

end
-- ==== Proof.KRegion2Blocks.lean ====
/- Region 2's blocks. Grid point t works on rows 2000 t … 2000 t + 1999: its output block at (r, ch) is the
   reference's layer at (2000 t + r, ch) — the body's payload read at an entry, the grouping tables read at an
   entry, the input blocks read off their arrays — and the 25 blocks cover the 50000 rows (row n lies in block
   n / 2000). -/
import proofs.«106202_j40956808135033_1_alg».proof.Proof.KernelIdealFrameP
import proofs.«106202_j40956808135033_1_alg».proof.Proof.RefSpec
import proofs.«106202_j40956808135033_1_alg».proof.Proof.KRegion2Tables
import proofs.«106202_j40956808135033_1_alg».proof.Proof.KRegion2Pay
import proofs.«106202_j40956808135033_1_alg».proof.Proof.KRegion2Ref
import Idealize.ShloMosaic.Lib.Pipeline.Value

set_option maxRecDepth 16384

noncomputable section

namespace Cert.KValue.R2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

/-! ## The grouping tables at an index -/

/-- Position ch · 32 + g of the 128 × 32 table: one iff g is ch's group. -/
theorem tableG_word (i : Fin 4096) (ch : Fin 128) (g : Fin 32) (hi : i.val = ch.val * 32 + g.val) :
    FloatOps.ofBits (F := Ideal) .f32 (lit0 i) = if g.val = ch.val / 4 then (1 : EReal) else 0 := by
  have hc := ch.isLt; have hg := g.isLt
  have e1 : i.val % 32 = g.val := by omega
  have e2 : i.val / 32 / 4 = ch.val / 4 := by omega
  rw [lit0_eq, e1, e2]
  by_cases h : g.val = ch.val / 4
  · rw [if_pos h, if_pos h]; exact ofBits_one
  · rw [if_neg h, if_neg h]; exact Ideal.ofBits_zero_f32

/-- Entry (ch, g) of the 128 × 32 table: one iff g is ch's group. -/
theorem tableG_apply (ch : Fin 128) (g : Fin 32) :
    FloatOps.ofBits (F := Ideal) .f32 (lit0 (S128x32.rowMajor (ix2 ch g))) = if g.val = ch.val / 4 then (1 : EReal) else 0 := by
  have hv : (S128x32.rowMajor (ix2 ch g)).val = ch.val * 32 + g.val := by rw [Shape.rowMajor_val_two]; rfl
  exact tableG_word _ ch g hv

/-- Position g · 128 + ch of the 32 × 128 table: one iff g is ch's group. -/
theorem tableGt_word (i : Fin 4096) (g : Fin 32) (ch : Fin 128) (hi : i.val = g.val * 128 + ch.val) :
    FloatOps.ofBits (F := Ideal) .f32 (lit1 i) = if g.val = ch.val / 4 then (1 : EReal) else 0 := by
  have hc := ch.isLt; have hg := g.isLt
  have e1 : i.val / 128 = g.val := by omega
  have e2 : i.val % 128 / 4 = ch.val / 4 := by omega
  rw [lit1_eq, e1, e2]
  by_cases h : g.val = ch.val / 4
  · rw [if_pos h, if_pos h]; exact ofBits_one
  · rw [if_neg h, if_neg h]; exact Ideal.ofBits_zero_f32

/-- Entry (g, ch) of the 32 × 128 table: one iff g is ch's group. -/
theorem tableGt_apply (g : Fin 32) (ch : Fin 128) :
    FloatOps.ofBits (F := Ideal) .f32 (lit1 (S32x128.rowMajor (ix2 g ch))) = if g.val = ch.val / 4 then (1 : EReal) else 0 := by
  have hv : (S32x128.rowMajor (ix2 g ch)).val = g.val * 128 + ch.val := by rw [Shape.rowMajor_val_two]; rfl
  exact tableGt_word _ g ch hv

/-! ## One entry of one block -/

/-- The body's payload at entry y of a block equals the reference's layer at the array index i, when the block of
    the features holds rows T·2000 … of X, the one-row blocks hold the bias, scale and shift, and the two table
    blocks hold the grouping tables; X and the bias finite. -/
theorem point_eq (x0 : Vec Ideal S2000x128 .f32) (x1 x2 x3 : Vec Ideal S1x128 .f32)
    (x4 : Vec Ideal S128x32 .f32) (x5 : Vec Ideal S32x128 .f32)
    (X : RefSpec.A128) (b1 γ β : FVec Ideal Cert.ReferenceIdeal.S128 .f32) (T : ℕ)
    (y : S2000x128.Idx) (i : S50000x128.Idx)
    (hi0 : (i 0).val = T * 2000 + (y 0).val) (hi1 : (i 1).val = (y 1).val)
    (h0 : ∀ (r : Fin 2000) (n : Fin 50000) (ch : Fin 128), n.val = T * 2000 + r.val → x0 (ix2 r ch) = X (ix2 n ch))
    (h1 : ∀ ch : Fin 128, x1 (ix2 (0 : Fin 1) ch) = b1 (ix1 ch))
    (h2 : ∀ ch : Fin 128, x2 (ix2 (0 : Fin 1) ch) = γ (ix1 ch))
    (h3 : ∀ ch : Fin 128, x3 (ix2 (0 : Fin 1) ch) = β (ix1 ch))
    (h4 : ∀ (ch : Fin 128) (g : Fin 32), x4 (ix2 ch g) = if g.val = ch.val / 4 then 1 else 0)
    (h5 : ∀ (g : Fin 32) (ch : Fin 128), x5 (ix2 g ch) = if g.val = ch.val / 4 then 1 else 0)
    (hfin : ∀ j, ∃ r : ℝ, X j = (r : EReal)) (hb1 : ∀ j, ∃ r : ℝ, b1 j = (r : EReal)) :
    k2_pay1 (F := Ideal) x0 x1 x4 x5 x2 x3 y = RefSpec.gnorm (RefSpec.relu128 (RefSpec.bias128 X b1)) γ β i := by
  obtain ⟨r, ch, rfl⟩ : ∃ (r : Fin 2000) (ch : Fin 128), y = ix2 r ch := ⟨y 0, y 1, eq_ix2 y⟩
  obtain ⟨n, ch', rfl⟩ : ∃ (n : Fin 50000) (ch' : Fin 128), i = ix2 n ch' := ⟨i 0, i 1, eq_ix2 i⟩
  obtain rfl : ch' = ch := Fin.ext hi1
  have hn : n.val = T * 2000 + r.val := hi0
  rw [pay_apply x0 x1 x2 x3 x4 x5 h4 h5, ref_apply]
  have hrow : rowA x0 x1 r = fun c => max (X (ix2 n c) + b1 (ix1 c)) 0 :=
    funext fun c => by unfold rowA; rw [h0 r n c hn, h1]
  rw [hrow]
  simp only [h2, h3]
  have hreal : ∀ c : Fin 128, ∃ q : ℝ, max (X (ix2 n c) + b1 (ix1 c)) 0 = (q : EReal) := fun c => by
    obtain ⟨p, hp⟩ := hfin (ix2 n c)
    obtain ⟨s, hs⟩ := hb1 (ix1 c)
    refine ⟨max (p + s) 0, ?_⟩
    rw [hp, hs, ← EReal.coe_add, ← EReal.coe_zero]
    exact (EReal.coe_strictMono.monotone.map_max).symm
  rw [show gvarSq (fun c => max (X (ix2 n c) + b1 (ix1 c)) 0) = gvarDev (fun c => max (X (ix2 n c) + b1 (ix1 c)) 0) from
    funext (gvarSq_eq_gvarDev _ hreal)]

/-! ## The blocks read off the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the output's blocks are block t of the rows; every
    other window is its one whole block. -/
theorem idx_facts : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row r of the features' block at point t is row 2000 t + r of the array. -/
theorem blk0_apply (c : Dev nD) (t : Fin cfg2.N) (r : Fin 2000) (n : Fin 50000) (ch : Fin 128)
    (hn : n.val = t.val * 2000 + r.val) :
    (iblk2 (F := Ideal) V c 0 t : S2000x128.Idx → EReal) (ix2 r ch) = (V c main_v28 : S50000x128.Idx → EReal) (ix2 n ch) := by
  obtain ⟨e0, e1, -⟩ := idx_facts t
  unfold iblk2
  rw [View.read_apply]
  show V c main_v28 (((cfg2.win 0).blk t).view.emb (ix2 r ch)) = _
  refine congrArg _ (funext fun a => Fin.ext ?_)
  match a with
  | ⟨0, _⟩ => show win2_0.index t (0 : Fin 2) * 2000 + 1 * r.val = n.val; rw [e0]; omega
  | ⟨1, _⟩ => show win2_0.index t (1 : Fin 2) * 128 + 1 * ch.val = ch.val; rw [e1]; omega

/-- The bias block is the whole one-row array. -/
theorem blk1_apply (c : Dev nD) (t : Fin cfg2.N) (ch : Fin 128) :
    (iblk2 (F := Ideal) V c 1 t : S1x128.Idx → EReal) (ix2 (0 : Fin 1) ch) = (V c main_v29 : S1x128.Idx → EReal) (ix2 (0 : Fin 1) ch) := by
  obtain ⟨-, -, -, -, e0, e1, -⟩ := idx_facts t
  unfold iblk2
  rw [View.read_apply]
  show V c main_v29 (((cfg2.win 1).blk t).view.emb (ix2 (0 : Fin 1) ch)) = _
  refine congrArg _ (funext fun a => Fin.ext ?_)
  match a with
  | ⟨0, _⟩ => show win2_1.index t (0 : Fin 2) * 1 + 1 * 0 = 0; rw [e0]
  | ⟨1, _⟩ => show win2_1.index t (1 : Fin 2) * 128 + 1 * ch.val = ch.val; rw [e1]; omega

/-- The scale block is the whole one-row array. -/
theorem blk2_apply (c : Dev nD) (t : Fin cfg2.N) (ch : Fin 128) :
    (iblk2 (F := Ideal) V c 2 t : S1x128.Idx → EReal) (ix2 (0 : Fin 1) ch) = (V c main_v30 : S1x128.Idx → EReal) (ix2 (0 : Fin 1) ch) := by
  obtain ⟨-, -, -, -, -, -, e0, e1, -⟩ := idx_facts t
  unfold iblk2
  rw [View.read_apply]
  show V c main_v30 (((cfg2.win 2).blk t).view.emb (ix2 (0 : Fin 1) ch)) = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * ch.val = ch.val; rw [e1]; omega

/-- The shift block is the whole one-row array. -/
theorem blk3_apply (c : Dev nD) (t : Fin cfg2.N) (ch : Fin 128) :
    (iblk2 (F := Ideal) V c 3 t : S1x128.Idx → EReal) (ix2 (0 : Fin 1) ch) = (V c main_v31 : S1x128.Idx → EReal) (ix2 (0 : Fin 1) ch) := by
  obtain ⟨-, -, -, -, -, -, -, -, e0, e1, -⟩ := idx_facts t
  unfold iblk2
  rw [View.read_apply]
  show V c main_v31 (((cfg2.win 3).blk t).view.emb (ix2 (0 : Fin 1) ch)) = _
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * ch.val = ch.val; rw [e1]; omega

/-- The 128 × 32 table's block is the whole table. -/
theorem blk4_apply (c : Dev nD) (t : Fin cfg2.N) (ch : Fin 128) (g : Fin 32) :
    (iblk2 (F := Ideal) V c 4 t : S128x32.Idx → EReal) (ix2 ch g) = (V c main_cst : S128x32.Idx → EReal) (ix2 ch g) := by
  obtain ⟨-, -, -, -, -, -, -, -, -, -, e0, e1, -⟩ := idx_facts t
  unfold iblk2
  rw [View.read_apply]
  show V c main_cst (((cfg2.win 4).blk t).view.emb (ix2 ch g)) = _
  refine congrArg _ (funext fun a => Fin.ext ?_)
  match a with
  | ⟨0, _⟩ => show win2_4.index t (0 : Fin 2) * 128 + 1 * ch.val = ch.val; rw [e0]; omega
  | ⟨1, _⟩ => show win2_4.index t (1 : Fin 2) * 32 + 1 * g.val = g.val; rw [e1]; omega

/-- The 32 × 128 table's block is the whole table. -/
theorem blk5_apply (c : Dev nD) (t : Fin cfg2.N) (g : Fin 32) (ch : Fin 128) :
    (iblk2 (F := Ideal) V c 5 t : S32x128.Idx → EReal) (ix2 g ch) = (V c main_cst_0 : S32x128.Idx → EReal) (ix2 g ch) := by
  obtain ⟨-, -, -, -, -, -, -, -, -, -, -, -, e0, e1⟩ := idx_facts t
  unfold iblk2
  rw [View.read_apply]
  show V c main_cst_0 (((cfg2.win 5).blk t).view.emb (ix2 g ch)) = _
  refine congrArg _ (funext fun a => Fin.ext ?_)
  match a with
  | ⟨0, _⟩ => show win2_5.index t (0 : Fin 2) * 32 + 1 * g.val = g.val; rw [e0]; omega
  | ⟨1, _⟩ => show win2_5.index t (1 : Fin 2) * 128 + 1 * ch.val = ch.val; rw [e1]; omega

/-- A vector of 128 as one row, at its column. -/
theorem rowOf_apply (v : FVec Ideal Cert.ReferenceIdeal.S128 .f32) (ch : Fin 128) :
    broadcastInDim Cert.ReferenceIdeal.S1x128 ![1] Cert.ReferenceIdeal.Facts₀.bcast_S128_S1x128_1 v (ix2 (0 : Fin 1) ch)
      = v (ix1 ch) := by
  refine broadcastInDim_apply _ _ v (ix2 (0 : Fin 1) ch) (ix1 ch) fun a => ?_
  match a with
  | ⟨0, _⟩ => rfl

/-! ## What a point writes back, and the cover -/

/-- WHAT POINT t WRITES BACK is block t of the reference's layer of the arrays the region finds. -/
theorem flushed_eq (c : Dev nD) (b1 γ β : FVec Ideal Cert.ReferenceIdeal.S128 .f32)
    (hb : (V c main_v29 : S1x128.Idx → EReal)
      = broadcastInDim Cert.ReferenceIdeal.S1x128 ![1] Cert.ReferenceIdeal.Facts₀.bcast_S128_S1x128_1 b1)
    (hγ : (V c main_v30 : S1x128.Idx → EReal)
      = broadcastInDim Cert.ReferenceIdeal.S1x128 ![1] Cert.ReferenceIdeal.Facts₀.bcast_S128_S1x128_1 γ)
    (hβ : (V c main_v31 : S1x128.Idx → EReal)
      = broadcastInDim Cert.ReferenceIdeal.S1x128 ![1] Cert.ReferenceIdeal.Facts₀.bcast_S128_S1x128_1 β)
    (hG : (V c main_cst : S128x32.Idx → EReal) = fun i => FloatOps.ofBits (F := Ideal) .f32 (lit0 (S128x32.rowMajor i)))
    (hGt : (V c main_cst_0 : S32x128.Idx → EReal) = fun i => FloatOps.ofBits (F := Ideal) .f32 (lit1 (S32x128.rowMajor i)))
    (hfin : ∀ i, ∃ r : ℝ, (V c main_v28 : S50000x128.Idx → EReal) i = (r : EReal))
    (hb1 : ∀ j, ∃ r : ℝ, b1 j = (r : EReal)) (t : Fin cfg2.N) :
    (dat2 (F := Ideal) V c).flushed 6 t
      = ((cfg2.win 6).blk t).view.read (Elt Ideal)
          (RefSpec.gnorm (RefSpec.relu128 (RefSpec.bias128 (V c main_v28) b1)) γ β) := by
  show (cfg2.win 6).cut (grid2.coords t) ((dat2 V c).after 6 t) = _
  rw [after2_6]
  unfold out2_6
  rw [View.canon_unit_zero hz]
  simp only [View.ld_unit_zero (S := S2000x128) hz, View.ld_unit_zero (S := S1x128) hz,
    View.ld_unit_zero (S := S128x32) hz, View.ld_unit_zero (S := S32x128) hz]
  obtain ⟨-, -, e0, e1, -⟩ := idx_facts t
  funext y
  show k2_pay1 (F := Ideal) (iblk2 V c 0 t) (iblk2 V c 1 t) (iblk2 V c 4 t) (iblk2 V c 5 t) (iblk2 V c 2 t) (iblk2 V c 3 t) y
      = RefSpec.gnorm (RefSpec.relu128 (RefSpec.bias128 (V c main_v28) b1)) γ β (((cfg2.win 6).blk t).view.emb y)
  refine point_eq (iblk2 V c 0 t) (iblk2 V c 1 t) (iblk2 V c 2 t) (iblk2 V c 3 t) (iblk2 V c 4 t) (iblk2 V c 5 t)
    (V c main_v28) b1 γ β t.val y (((cfg2.win 6).blk t).view.emb y) ?_ ?_ ?_ ?_ ?_ ?_ ?_ ?_ hfin hb1
  · show win2_6.index t (0 : Fin 2) * 2000 + 1 * (y 0).val = t.val * 2000 + (y 0).val
    rw [e0]; omega
  · show win2_6.index t (1 : Fin 2) * 128 + 1 * (y 1).val = (y 1).val
    rw [e1]; omega
  · exact fun r n ch hn => blk0_apply V c t r n ch hn
  · intro ch; rw [blk1_apply V c t ch, hb]; exact rowOf_apply b1 ch
  · intro ch; rw [blk2_apply V c t ch, hγ]; exact rowOf_apply γ ch
  · intro ch; rw [blk3_apply V c t ch, hβ]; exact rowOf_apply β ch
  · intro ch g; rw [blk4_apply V c t ch g, hG]; exact tableG_apply ch g
  · intro g ch; rw [blk5_apply V c t g ch, hGt]; exact tableGt_apply g ch

/-- An index of the array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v32).slice (win2_6.rect t)).set ↔ _
  rw [View.set_slice_whole, Rect.mem_set_unit]
  exact Iff.rfl

/-- Every index of the array lies in the block of the point its row selects: row n is in block n / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, e0, e1, -⟩ := idx_facts ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

end Cert.KValue.R2

end
-- ==== Proof.KRegion2.lean ====
/- Region 2: group normalisation. The body sums each group of four channels by a product with the 0/1 grouping
   matrix and spreads a group's mean and inverse deviation back over its channels by a product with the transpose;
   its variance is the mean of the squares minus the square of the mean, which for FINITE entries is the mean of
   the squared deviations the reference computes. -/
import proofs.«106202_j40956808135033_1_alg».proof.Proof.KernelIdealFrameP
import proofs.«106202_j40956808135033_1_alg».proof.Proof.RefSpec
import proofs.«106202_j40956808135033_1_alg».proof.Proof.KRegion2Blocks
import Idealize.ShloMosaic.Lib.Pipeline.Value

set_option maxRecDepth 16384

noncomputable section

namespace Cert.KValue

open Idealize.ShloMosaic Idealize.ShloMosaic.TcCoe Idealize.SL.Sem
open Cert.KernelIdeal Cert.KernelIdeal.Gen Cert.KernelIdeal.GenP

variable (V : (c : Dev nD) → (b : Ref sig .tc) → Buf (Elt Ideal) ((c : Thread nD τ).loc b))

theorem region2 (c : Dev nD) (b1 γ β : FVec Ideal Cert.ReferenceIdeal.S128 .f32)
    (hb : (V c main_v29 : S1x128.Idx → EReal)
      = broadcastInDim Cert.ReferenceIdeal.S1x128 ![1] Cert.ReferenceIdeal.Facts₀.bcast_S128_S1x128_1 b1)
    (hγ : (V c main_v30 : S1x128.Idx → EReal)
      = broadcastInDim Cert.ReferenceIdeal.S1x128 ![1] Cert.ReferenceIdeal.Facts₀.bcast_S128_S1x128_1 γ)
    (hβ : (V c main_v31 : S1x128.Idx → EReal)
      = broadcastInDim Cert.ReferenceIdeal.S1x128 ![1] Cert.ReferenceIdeal.Facts₀.bcast_S128_S1x128_1 β)
    (hG : (V c main_cst : S128x32.Idx → EReal) = fun i => FloatOps.ofBits (F := Ideal) .f32 (lit0 (S128x32.rowMajor i)))
    (hGt : (V c main_cst_0 : S32x128.Idx → EReal) = fun i => FloatOps.ofBits (F := Ideal) .f32 (lit1 (S32x128.rowMajor i)))
    (hfin : ∀ i, ∃ r : ℝ, (V c main_v28 : S50000x128.Idx → EReal) i = (r : EReal))
    (hb1 : ∀ j, ∃ r : ℝ, b1 j = (r : EReal)) :
    ((dat2 (F := Ideal) V c).arrAt 6 cfg2.N : S50000x128.Idx → EReal)
      = RefSpec.gnorm (RefSpec.relu128 (RefSpec.bias128 (V c main_v28) b1)) γ β := by
  exact (dat2 (F := Ideal) V c).arrAt_eq_of_cover 6
    (RefSpec.gnorm (RefSpec.relu128 (RefSpec.bias128 (V c main_v28) b1)) γ β)
    (fun t _ => R2.flushed_eq V c b1 γ β hb hγ hβ hG hGt hfin hb1 t) R2.cover

end Cert.KValue

end
-- ==== Proof.KRegion3.lean ====
/- Region 3: every block of 2000 rows of the output is the block's rows of the normalised activations times the
   128 × 40 head `W2`, and the 25 blocks tile the array: the output array ends as the whole product. -/
import proofs.«106202_j40956808135033_1_alg».proof.Proof.KernelIdealFrameP
import proofs.«106202_j40956808135033_1_alg».proof.Proof.RefSpec
import proofs.«106202_j40956808135033_1_alg».proof.Proof.KRegion0Product
import Idealize.ShloMosaic.Lib.Pipeline.Value
import Idealize.ShloMosaic.Lib.ValueIdx

set_option maxRecDepth 16384

noncomputable section

namespace Cert.KValue

open Idealize.ShloMosaic Idealize.ShloMosaic.TcCoe Idealize.SL.Sem
open Idealize.ShloMosaic.ValueIdx
open Cert.KernelIdeal Cert.KernelIdeal.Gen Cert.KernelIdeal.GenP

variable (V : (c : Dev nD) → (b : Ref sig .tc) → Buf (Elt Ideal) ((c : Thread nD τ).loc b))

namespace R3

/-- The two zero offsets of a whole-block access, as the constant function. -/
theorem zeros : (![0, 0] : Fin 2 → Nat) = fun _ => 0 := funext fun a => by fin_cases a <;> rfl

/-- The block's payload at (row, col) is the whole product at (p·2000 + row, col), whenever the first loaded block
    is rows p·2000 … of `X` and the second is `W`: the cast of the block to its own shape is the identity, the matrix
    unit's dimension numbers and the reference's are both the plain rows-by-columns contraction, and narrowing to
    bf16 changes no extended real. -/
theorem pay_at (X : RefSpec.A128) (W : FVec Ideal S128x40 .f32)
    (x0 : Vec Ideal S2000x128 .f32) (x1 : Vec Ideal S128x40 .f32) (p : Nat)
    (hx0 : ∀ (r : Fin 2000) (q : Fin 128) (i : Fin 50000), i.val = p * 2000 + r.val → (x0 (ix2 r q) : EReal) = X (ix2 i q))
    (hx1 : ∀ (q : Fin 128) (c : Fin 40), (x1 (ix2 q c) : EReal) = W (ix2 q c))
    (y : S2000x40.Idx) (i : S50000x40.Idx) (h0 : (i 0).val = p * 2000 + (y 0).val) (h1 : (i 1).val = (y 1).val) :
    (k3_pay1 x0 x1 y : EReal) = RefSpec.mm40 X W i := by
  obtain ⟨r, c, rfl⟩ : ∃ (r : Fin 2000) (c : Fin 40), y = ix2 r c := ⟨y 0, y 1, eq_ix2 y⟩
  obtain ⟨R, c', rfl⟩ : ∃ (R : Fin 50000) (c' : Fin 40), i = ix2 R c' := ⟨i 0, i 1, eq_ix2 i⟩
  obtain rfl : c' = c := Fin.ext h1
  unfold k3_pay1 RefSpec.mm40
  exact RowBlock.block_product (M := 50000) (m := 2000) (k := 128) (n := 40) none none X W _ _ p
    (fun r q i hi => (congrFun (shapeCast_self x0 shapeCasts_S2000x128_S2000x128) (ix2 r q)).trans (hx0 r q i hi))
    (fun q c => hx1 q c) r c' R h0

/-- The printed index maps, decided over the 25 points: the row-blocked windows sit at block (t, 0), the weight
    window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first window's block at point `t` is rows 2000·t … 2000·t + 1999 of the activations: a block's element sits
    in the array at block index × block size + its own coordinate. -/
theorem xblock_at (c : Dev nD) (t : Fin cfg3.N) (r : Fin 2000) (q : Fin 128) (i : Fin 50000)
    (hi : i.val = t.val * 2000 + r.val) :
    (iblk3 V c 0 t (ix2 r q) : EReal) = (V c main_v32 : S50000x128.Idx → EReal) (ix2 i q) := by
  obtain ⟨e0, e1, -⟩ := idx_facts t
  show V c main_v32 (((cfg3.win 0).blk t).view.emb (ix2 r q)) = V c main_v32 (ix2 i q)
  refine congrArg (V c main_v32) (funext fun a => Fin.ext ?_)
  match a with
  | ⟨0, _⟩ => show win3_0.index t (0 : Fin 2) * 2000 + 1 * r.val = i.val; omega
  | ⟨1, _⟩ => show win3_0.index t (1 : Fin 2) * 128 + 1 * q.val = q.val; omega

/-- The second window's one block is the whole of `W2`. -/
theorem wblock_at (c : Dev nD) (t : Fin cfg3.N) (q : Fin 128) (k : Fin 40) :
    (iblk3 V c 1 t (ix2 q k) : EReal) = (V c main_arg8 : S128x40.Idx → EReal) (ix2 q k) := by
  obtain ⟨-, -, e2, e3, -⟩ := idx_facts t
  show V c main_arg8 (((cfg3.win 1).blk t).view.emb (ix2 q k)) = V c main_arg8 (ix2 q k)
  refine congrArg (V c main_arg8) (funext fun a => Fin.ext ?_)
  match a with
  | ⟨0, _⟩ => show win3_1.index t (0 : Fin 2) * 128 + 1 * q.val = q.val; omega
  | ⟨1, _⟩ => show win3_1.index t (1 : Fin 2) * 40 + 1 * k.val = k.val; omega

/-- WHAT POINT `t` WRITES BACK is block `t` of the whole product. -/
theorem flushed_eq (c : Dev nD) (t : Fin cfg3.N) :
    (dat3 (F := Ideal) V c).flushed 2 t
      = ((cfg3.win 2).blk t).view.read (Elt Ideal) (RefSpec.mm40 (V c main_v32) (V c main_arg8)) := by
  show (cfg3.win 2).cut (grid3.coords t) ((dat3 V c).after 2 t) = _
  rw [after3_2]
  unfold out3_2
  rw [View.canon_unit_zero zeros]
  simp only [View.ld_unit_zero (S := S2000x128) zeros, View.ld_unit_zero (S := S128x40) zeros]
  obtain ⟨-, -, -, -, e4, e5⟩ := idx_facts t
  funext y
  show k3_pay1 (iblk3 V c 0 t) (iblk3 V c 1 t) (win3_2.xinj (grid3.coords t) y)
    = RefSpec.mm40 (V c main_v32) (V c main_arg8) (((cfg3.win 2).blk t).view.emb y)
  refine pay_at (V c main_v32) (V c main_arg8) (iblk3 V c 0 t) (iblk3 V c 1 t) t.val
    (xblock_at V c t) (wblock_at V c t) _ _ ?_ ?_
  · show win3_2.index t (0 : Fin 2) * 2000 + 1 * (y 0).val = t.val * 2000 + (y 0).val; omega
  · show win3_2.index t (1 : Fin 2) * 40 + 1 * (y 1).val = (y 1).val; omega

/-- An index of the array is in point `t`'s block iff each coordinate is in the block's range on its axis. -/
theorem mem_blk (t : Fin cfg3.N) (i : S50000x40.Idx) :
    i ∈ ((cfg3.win 2).blk t).view.set ↔ ∀ a : Fin 2, win3_2.index t a * S2000x40.size a ≤ (i a).val
      ∧ (i a).val < win3_2.index t a * S2000x40.size a + S2000x40.size a := by
  show i ∈ ((View.whole main_v33).slice (win3_2.rect t)).set ↔ _
  rw [View.set_slice_whole, Rect.mem_set_unit]
  exact Iff.rfl

/-- Every row lies in one of the 25 blocks: row `r` in block `r / 2000`. -/
theorem cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 25 := N_3
  let t : Fin cfg3.N := ⟨(i 0).val / 2000, by rw [hN]; omega⟩
  have ht : t.val = (i 0).val / 2000 := rfl
  obtain ⟨-, -, -, -, e4, e5⟩ := idx_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 40 ≤ (i 1).val ∧ (i 1).val < win3_2.index t (1 : Fin 2) * 40 + 40
    omega

end R3

theorem region3 (c : Dev nD) :
    ((dat3 (F := Ideal) V c).arrAt 2 cfg3.N : S50000x40.Idx → EReal)
      = RefSpec.mm40 (V c main_v32) (V c main_arg8) :=
  (dat3 (F := Ideal) V c).arrAt_eq_of_cover 2 (RefSpec.mm40 (V c main_v32) (V c main_arg8))
    (fun t _ => R3.flushed_eq V c t) R3.cover

end Cert.KValue

end
-- ==== Proof.KRegion4Row.lean ====
/- One row's log-softmax on the extended reals: from every entry of the row subtract the row's maximum, then the
   logarithm of the sum of the exponentials of the shifted entries. The maximum is the fold of `max` over the 40
   entries starting from the value of the pattern of minus infinity; that value is never evaluated, because taking
   the maximum with the starting value once more changes nothing, whatever the value is. -/
import Idealize.ShloMosaic.PureOps.Ideal

noncomputable section

namespace Cert.KValue.R4

open Idealize.ShloMosaic

/-- The value of the 32-bit pattern of minus infinity. -/
abbrev negInf : EReal := Ideal.ofBits .f32 0xFF800000#32

/-- A row's maximum: `max` folded over its 40 entries from `negInf`. -/
def rowMax (r : Fin 40 → EReal) : EReal := (Finset.univ : Finset (Fin 40)).fold max negInf r

/-- A row's log-softmax at column `q`. -/
def rowLsm (r : Fin 40 → EReal) (q : Fin 40) : EReal :=
  (r q - rowMax r) - Ideal.log (∑ k : Fin 40, Ideal.exp (r k - rowMax r))

/-- The starting value is below the fold, so one more maximum with it is the fold. -/
theorem max_negInf_rowMax (r : Fin 40 → EReal) : max negInf (rowMax r) = rowMax r :=
  max_eq_right ((Finset.le_fold_max negInf).2 (Or.inl le_rfl))

end Cert.KValue.R4

end
-- ==== Proof.KRegion4Kernel.lean ====
/- The kernel's payload of region 4 read at an entry of a block: with `z = x0 + (the one row x1 broadcast down)`,
   entry (p, q) is the log-softmax of row p of `z` at column q. The lane maximum and the lane sum of a block's row
   run over that row's 40 entries alone. -/
import proofs.«106202_j40956808135033_1_alg».proof.Proof.Gen.KernelIdeal.Skeleton
import proofs.«106202_j40956808135033_1_alg».proof.Proof.KRegion4Row
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KValue.R4

open Idealize.ShloMosaic Idealize.ShloMosaic.ValueIdx
open Cert.KernelIdeal Cert.KernelIdeal.Gen

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry of a block's row that the reduction over the columns inserts at column `k`. -/
theorem lift_row (h : S2000x40.Reduces [1] S2000) (p : Fin 2000) (k : Fin 40) : h.lift (ix1 p) k = ix2 p k :=
  funext fun a => Fin.ext (by match a with | ⟨0, _⟩ => rfl | ⟨1, _⟩ => rfl)

/-- The lane maximum of a block at row `p` is the maximum of that row. -/
theorem laneMax_apply (src : FVec Ideal S2000x40 .f32) (h : S2000x40.Reduces [1] S2000) (hφ : FKind.Formats .f32)
    (hacc : (0xFF800000#32 : BitVec 32) = FKind.maximumf.neutral .f32 hφ) (p : Fin 2000) :
    multiReduction .maximumf [1] S2000 src 0xFF800000#32 h hφ hacc (ix1 p) = rowMax (fun k => src (ix2 p k)) :=
  (Ideal.multiReduction_maximumf_single src _ h hφ hacc (ix1 p)).trans
    (congrArg (fun f : Fin 40 → EReal => (Finset.univ : Finset (Fin 40)).fold max negInf f)
      (funext fun k => congrArg src (lift_row h p k)))

/-- The lane sum of a block at row `p` is the sum of that row. -/
theorem laneSum_apply (src : FVec Ideal S2000x40 .f32) (h : S2000x40.Reduces [1] S2000) (hφ : FKind.Formats .f32)
    (hacc : (0x00000000#32 : BitVec 32) = FKind.add.neutral .f32 hφ) (p : Fin 2000) :
    multiReduction .add [1] S2000 src 0x00000000#32 h hφ hacc (ix1 p) = ∑ k : Fin 40, src (ix2 p k) :=
  (Ideal.multiReduction_add_single src _ h hφ hacc (ix1 p)).trans
    (Finset.sum_congr rfl fun k _ => congrArg src (lift_row h p k))

/-- The block computation after the bias is added, read at entry (p, q): every step but the two lane reductions is
    entry by entry, and the two column broadcasts read the reduced column at row `p`. -/
theorem lsm_block_apply (z : FVec Ideal S2000x40 .f32) (h : S2000x40.Reduces [1] S2000) (hφ : FKind.Formats .f32)
    (hmax : (0xFF800000#32 : BitVec 32) = FKind.maximumf.neutral .f32 hφ)
    (hadd : (0x00000000#32 : BitVec 32) = FKind.add.neutral .f32 hφ)
    (hc : S2000.ShapeCasts S2000x1) (hb : S2000x1.Broadcasts S2000x40) (p : Fin 2000) (q : Fin 40) :
    (subf (subf z (broadcastTo S2000x40 (shapeCast S2000x1 (multiReduction .maximumf [1] S2000 z 0xFF800000#32 h hφ hmax) hc) hb))
        (broadcastTo S2000x40
          (log (shapeCast S2000x1
            (multiReduction .add [1] S2000
              (exp (subf z (broadcastTo S2000x40 (shapeCast S2000x1 (multiReduction .maximumf [1] S2000 z 0xFF800000#32 h hφ hmax) hc) hb)))
              0x00000000#32 h hφ hadd) hc)) hb) : FVec Ideal S2000x40 .f32) (ix2 p q)
      = rowLsm (fun k => z (ix2 p k)) q := by
  -- the row's maximum, broadcast back over the row
  have hM : ∀ k : Fin 40,
      (broadcastTo S2000x40 (shapeCast S2000x1 (multiReduction .maximumf [1] S2000 z 0xFF800000#32 h hφ hmax) hc) hb
        : FVec Ideal S2000x40 .f32) (ix2 p k) = rowMax (fun k => z (ix2 p k)) := fun k =>
    (broadcastTo_a1_ab_apply _ hb p k).trans ((shapeCast_a_a1_apply _ hc p 0).trans (laneMax_apply z h hφ hmax p))
  -- the shifted row
  have hS : ∀ k : Fin 40,
      (subf z (broadcastTo S2000x40 (shapeCast S2000x1 (multiReduction .maximumf [1] S2000 z 0xFF800000#32 h hφ hmax) hc) hb)
        : FVec Ideal S2000x40 .f32) (ix2 p k) = z (ix2 p k) - rowMax (fun k => z (ix2 p k)) := fun k =>
    congrArg (fun m : EReal => z (ix2 p k) - m) (hM k)
  -- the logarithm of the sum of the exponentials, broadcast back over the row
  refine congrArg₂ (fun s l : EReal => s - l) (hS q) ?_
  refine (broadcastTo_a1_ab_apply _ hb p q).trans ?_
  refine congrArg Ideal.log ?_
  refine (shapeCast_a_a1_apply _ hc p 0).trans ?_
  refine (laneSum_apply _ h hφ hadd p).trans ?_
  exact Finset.sum_congr rfl fun k _ => congrArg Ideal.exp (hS k)

/-- The bias row added to a block, read at entry (p, k). -/
theorem biased_block_apply (x0 : Vec Ideal S2000x40 .f32) (x1 : Vec Ideal S1x40 .f32)
    (h0 : S2000x40.ShapeCasts S2000x40) (h1 : S1x40.ShapeCasts S1x40) (hb : S1x40.Broadcasts S2000x40) (p : Fin 2000) (k : Fin 40) :
    (addf (shapeCast S2000x40 x0 h0) (broadcastTo S2000x40 (shapeCast S1x40 x1 h1) hb) : FVec Ideal S2000x40 .f32) (ix2 p k)
      = x0 (ix2 p k) + x1 (ix2 (0 : Fin 1) k) := by
  rw [shapeCast_self, shapeCast_self]
  exact congrArg (fun m : EReal => x0 (ix2 p k) + m) (broadcastTo_1b_ab_apply x1 hb p k)

/-- THE PAYLOAD AT AN ENTRY: entry (p, q) of what the body stores is the log-softmax, at column q, of row p of the
    loaded block plus the loaded bias row. -/
theorem pay_apply (x0 : Vec Ideal S2000x40 .f32) (x1 : Vec Ideal S1x40 .f32) (p : Fin 2000) (q : Fin 40) :
    (k4_pay1 (F := Ideal) x0 x1 : FVec Ideal S2000x40 .f32) (ix2 p q)
      = rowLsm (fun k => x0 (ix2 p k) + x1 (ix2 (0 : Fin 1) k)) q := by
  unfold k4_pay1
  refine (lsm_block_apply
    (addf (shapeCast S2000x40 x0 shapeCasts_S2000x40_S2000x40)
      (broadcastTo S2000x40 (shapeCast S1x40 x1 shapeCasts_S1x40_S1x40) broadcasts_S1x40_S2000x40))
    reduces_S2000x40_S2000 (.inl rfl) rfl rfl shapeCasts_S2000_S2000x1 broadcasts_S2000x1_S2000x40 p q).trans ?_
  exact congrArg (fun r : Fin 40 → EReal => rowLsm r q)
    (funext fun k => biased_block_apply x0 x1 _ _ _ p k)

end Cert.KValue.R4

end
-- ==== Proof.KRegion4Ref.lean ====
/- The reference's log-softmax of the biased scores read at an entry: entry (r, q) is the log-softmax, at column q,
   of row r of `a + b`. The host's maximum over axis 1 at row r folds `max` over that row's 40 entries; one more
   maximum with the starting value changes nothing; the host's sum over axis 1 is the starting value 0 plus the
   row's sum. -/
import proofs.«106202_j40956808135033_1_alg».proof.Proof.RefSpec
import proofs.«106202_j40956808135033_1_alg».proof.Proof.KRegion4Row
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

namespace Cert.KValue.R4

open Idealize.ShloMosaic Idealize.ShloMosaic.ValueIdx
open Cert.ReferenceIdeal Cert.ReferenceIdeal.Facts₀

/-- An `[a]` array broadcast along axis 0 to `[a, 1]` reads, at `(p, u)`, the operand at `p`. -/
theorem bcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A `[b]` array broadcast along axis 1 to `[1, b]` reads, at `(u, c)`, the operand at `c`. -/
theorem bcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- An `[a, 1]` column broadcast to `[a, b]` reads, at `(p, c)`, the column at `p`. -/
theorem bcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast to `[a, b]` reads, at `(p, c)`, the row at `c`. -/
theorem bcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- Axis 1 of a 50000 × 40 array reduces to its 50000 rows. -/
theorem reduces_rows : S50000x40.Reduces [1] S50000 := by decide

/-- The entry of row `r` that the reduction over the columns inserts at column `k`. -/
theorem lift_row50000 (h : S50000x40.Reduces [1] S50000) (r : Fin 50000) (k : Fin 40) : h.lift (ix1 r) k = ix2 r k :=
  funext fun a => Fin.ext (by match a with | ⟨0, _⟩ => rfl | ⟨1, _⟩ => rfl)

/-- The biased scores at entry (r, k). -/
theorem bias40_apply (a : RefSpec.A40) (b : FVec Ideal S40 .f32) (r : Fin 50000) (k : Fin 40) :
    (RefSpec.bias40 a b : FVec Ideal S50000x40 .f32) (ix2 r k) = a (ix2 r k) + b (ix1 k) := by
  unfold RefSpec.bias40
  refine (addf_apply _ _ _).trans ?_
  exact congrArg (fun m : EReal => a (ix2 r k) + m)
    ((bcastInDim_1b_ab_apply _ bcast_S1x40_S50000x40_0_1 r k).trans (bcastInDim_b_1b_apply b bcast_S40_S1x40_1 0 k))

/-- The host's maximum over axis 1 at row `r`. -/
theorem hostMax_apply (z : RefSpec.A40) (r : Fin 50000) :
    Host.reduce FloatOps.maximumf z (constant (F := Ideal) S_ .f32 0xFF800000#32) reducesTo_S50000x40_S50000_d1 h_S_ (ix1 r)
      = rowMax (fun k => z (ix2 r k)) :=
  (Host.reduce_eq_fold_single FloatOps.maximumf z _ reducesTo_S50000x40_S50000_d1 reduces_rows h_S_ (ix1 r)).trans
    (congrArg (fun f : Fin 40 → EReal => (Finset.univ : Finset (Fin 40)).fold max negInf f)
      (funext fun k => congrArg z (lift_row50000 reduces_rows r k)))

/-- The shifted scores at entry (r, k): the entry minus the row's maximum. -/
theorem shifted_apply (z : RefSpec.A40) (r : Fin 50000) (k : Fin 40) :
    (RefSpec.shifted z : FVec Ideal S50000x40 .f32) (ix2 r k) = z (ix2 r k) - rowMax (fun k => z (ix2 r k)) := by
  -- the starting value broadcast to every row is the starting value (read through the broadcast, never evaluated)
  have hinit : (broadcastInDim S50000 ![] bcast_S_S50000 (constant (F := Ideal) S_ .f32 0xFF800000#32)
      : FVec Ideal S50000 .f32) (ix1 r) = negInf :=
    (broadcastInDim_scalar_apply bcast_S_S50000 _ (ix1 r)).trans (constant_apply _ _)
  unfold RefSpec.shifted
  refine (subf_apply _ _ _).trans (congrArg (fun m : EReal => z (ix2 r k) - m) ?_)
  refine (bcastInDim_a1_ab_apply _ bcast_S50000x1_S50000x40_0_1 r k).trans ?_
  refine (bcastInDim_a_a1_apply _ bcast_S50000_S50000x1_0 r 0).trans ?_
  refine (maximumf_apply _ _ (ix1 r)).trans ?_
  refine (congrArg₂ (fun x y : EReal => max x y) hinit (hostMax_apply z r)).trans ?_
  exact max_negInf_rowMax _

/-- The host's sum over axis 1 at row `r`: the starting value 0 plus the row's sum. -/
theorem hostSum_apply (x : RefSpec.A40) (r : Fin 50000) :
    Host.reduceAdd x (constant (F := Ideal) S_ .f32 0x00000000#32) reducesTo_S50000x40_S50000_d1 h_S_ (ix1 r)
      = ∑ k : Fin 40, x (ix2 r k) := by
  refine (hostReduceAdd_apply x _ reducesTo_S50000x40_S50000_d1 h_S_ (ix1 r)).trans ?_
  refine (Ideal.hostReduceAdd_single reducesTo_S50000x40_S50000_d1 reduces_rows x _ (ix1 r)).trans ?_
  rw [constant_apply, Ideal.ofBits_zero_f32, zero_add]
  exact Finset.sum_congr rfl fun k _ => congrArg x (lift_row50000 reduces_rows r k)

/-- The host's logarithm and exponential, entry by entry, are the extended reals' functions. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's log-softmax at entry (r, q) is the row's log-softmax at column q. -/
theorem logSoftmax_apply (z : RefSpec.A40) (r : Fin 50000) (q : Fin 40) :
    (RefSpec.logSoftmax z : FVec Ideal S50000x40 .f32) (ix2 r q) = rowLsm (fun k => z (ix2 r k)) q := by
  unfold RefSpec.logSoftmax
  refine (subf_apply _ _ _).trans (congrArg₂ (fun s l : EReal => s - l) (shifted_apply z r q) ?_)
  refine (bcastInDim_a1_ab_apply _ bcast_S50000x1_S50000x40_0_1 r q).trans ?_
  refine (hostLog_apply _ _).trans (congrArg Ideal.log ?_)
  refine (bcastInDim_a_a1_apply _ bcast_S50000_S50000x1_0 r 0).trans ?_
  refine (hostSum_apply _ r).trans ?_
  exact Finset.sum_congr rfl fun k _ => (hostExp_apply _ _).trans (congrArg Ideal.exp (shifted_apply z r k))

/-- THE REFERENCE AT AN ENTRY: entry (r, q) of the log-softmax of the biased scores. -/
theorem ref_apply (a : RefSpec.A40) (b : FVec Ideal S40 .f32) (r : Fin 50000) (q : Fin 40) :
    (RefSpec.logSoftmax (RefSpec.bias40 a b) : FVec Ideal S50000x40 .f32) (ix2 r q)
      = rowLsm (fun k => a (ix2 r k) + b (ix1 k)) q :=
  (logSoftmax_apply _ r q).trans
    (congrArg (fun f : Fin 40 → EReal => rowLsm f q) (funext fun k => bias40_apply a b r k))

end Cert.KValue.R4

end
-- ==== Proof.KRegion4.lean ====
/- Region 4: every block of 2000 rows of the output is the log-softmax of `agg + b2` over the block's rows (each
   row's maximum, then the logarithm of the sum of the exponentials, are functions of that row alone); the 25 blocks
   tile the array. -/
import proofs.«106202_j40956808135033_1_alg».proof.Proof.KernelIdealFrameP
import proofs.«106202_j40956808135033_1_alg».proof.Proof.RefSpec
import proofs.«106202_j40956808135033_1_alg».proof.Proof.KRegion4Kernel
import proofs.«106202_j40956808135033_1_alg».proof.Proof.KRegion4Ref
import Idealize.ShloMosaic.Lib.Pipeline.Value

set_option maxRecDepth 16384

noncomputable section

namespace Cert.KValue

open Idealize.ShloMosaic Idealize.ShloMosaic.TcCoe Idealize.SL.Sem
open Cert.KernelIdeal Cert.KernelIdeal.Gen Cert.KernelIdeal.GenP

variable (V : (c : Dev nD) → (b : Ref sig .tc) → Buf (Elt Ideal) ((c : Thread nD τ).loc b))

namespace R4

open Idealize.ShloMosaic.ValueIdx

theorem offsets_zero : (![0, 0] : Fin 2 → Nat) = fun _ => 0 := funext fun a => by fin_cases a <;> rfl

/-- The block indices of the three windows at grid point `t`, decided over the 25 points: the row-blocked windows
    are at block (t, 0), the bias row at block (0, 0). -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- ONE ENTRY: when row `p` of the loaded block is row `r` of the scores and the loaded bias row is `b2`, entry
    (p, q) of the payload is entry (r, q) of the reference's log-softmax of the biased scores: both are the
    log-softmax of the same row of 40. -/
theorem entry_eq (x0 : Vec Ideal S2000x40 .f32) (x1 : Vec Ideal S1x40 .f32) (A : RefSpec.A40)
    (b2 : FVec Ideal Cert.ReferenceIdeal.S40 .f32) (p : Fin 2000) (q : Fin 40) (r : Fin 50000)
    (hx0 : ∀ k : Fin 40, x0 (ix2 p k) = A (ix2 r k)) (hx1 : ∀ k : Fin 40, x1 (ix2 (0 : Fin 1) k) = b2 (ix1 k)) :
    (k4_pay1 (F := Ideal) x0 x1 : FVec Ideal S2000x40 .f32) (ix2 p q)
      = (RefSpec.logSoftmax (RefSpec.bias40 A b2) : RefSpec.A40) (ix2 r q) :=
  (pay_apply x0 x1 p q).trans
    ((congrArg (fun f : Fin 40 → EReal => rowLsm f q) (funext fun k => by rw [hx0 k, hx1 k])).trans
      (ref_apply A b2 r q).symm)

/-- Row `p` of the scores' block at point `t` is row `2000 t + p` of the scores. -/
theorem scores_block_apply (c : Dev nD) (t : Fin cfg4.N) (p : Fin 2000) (k : Fin 40) (r : Fin 50000)
    (hr : r.val = t.val * 2000 + p.val) :
    (iblk4 (F := Ideal) V c 0 t : Vec Ideal S2000x40 .f32) (ix2 p k) = (V c main_v46 : S50000x40.Idx → EReal) (ix2 r k) := by
  obtain ⟨e0, e1, -⟩ := block_index t
  unfold iblk4
  rw [View.read_apply]
  show V c main_v46 _ = V c main_v46 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 40 + 1 * k.val = k.val; rw [e1]; omega

/-- The bias window's block at every point is the whole bias row. -/
theorem bias_block_apply (c : Dev nD) (t : Fin cfg4.N) (k : Fin 40) :
    (iblk4 (F := Ideal) V c 1 t : Vec Ideal S1x40 .f32) (ix2 (0 : Fin 1) k) = (V c main_v47 : S1x40.Idx → EReal) (ix2 (0 : Fin 1) k) := by
  obtain ⟨-, -, e2, e3, -⟩ := block_index t
  unfold iblk4
  rw [View.read_apply]
  show V c main_v47 _ = V c main_v47 _
  congr 1
  funext a
  apply Fin.ext
  match a with
  | ⟨0, _⟩ => show win4_1.index t (0 : Fin 2) * 1 + 1 * 0 = 0; rw [e2]
  | ⟨1, _⟩ => show win4_1.index t (1 : Fin 2) * 40 + 1 * k.val = k.val; rw [e3]; omega

/-- WHAT POINT `t` WRITES BACK is block `t` of the reference's log-softmax of the biased scores. -/
theorem flushed_eq (c : Dev nD) (b2 : FVec Ideal Cert.ReferenceIdeal.S40 .f32)
    (hb : (V c main_v47 : S1x40.Idx → EReal)
      = broadcastInDim Cert.ReferenceIdeal.S1x40 ![1] Cert.ReferenceIdeal.Facts₀.bcast_S40_S1x40_1 b2)
    (t : Fin cfg4.N) :
    (dat4 (F := Ideal) V c).flushed 2 t
      = ((cfg4.win 2).blk t).view.read (Elt Ideal) (RefSpec.logSoftmax (RefSpec.bias40 (V c main_v46) b2)) := by
  show (cfg4.win 2).cut (grid4.coords t) ((dat4 V c).after 2 t) = _
  rw [after4_2]
  unfold out4_2
  rw [View.canon_unit_zero offsets_zero]
  simp only [View.ld_unit_zero (S := S2000x40) offsets_zero, View.ld_unit_zero (S := S1x40) offsets_zero]
  funext y
  obtain ⟨p, q, rfl⟩ : ∃ (p : Fin 2000) (q : Fin 40), y = ix2 p q := ⟨y 0, y 1, eq_ix2 y⟩
  obtain ⟨-, -, -, -, e4, e5⟩ := block_index t
  have hN : cfg4.N = 25 := by decide
  have ht : t.val < 25 := hN ▸ t.isLt
  have hp : p.val < 2000 := p.isLt
  refine (entry_eq (iblk4 V c 0 t) (iblk4 V c 1 t) (V c main_v46) b2 p q ⟨t.val * 2000 + p.val, by omega⟩
    (fun k => scores_block_apply V c t p k ⟨t.val * 2000 + p.val, by omega⟩ rfl)
    (fun k => (bias_block_apply V c t k).trans ?_)).trans ?_
  · rw [hb]
    exact bcastInDim_b_1b_apply b2 Cert.ReferenceIdeal.Facts₀.bcast_S40_S1x40_1 0 k
  · rw [View.read_apply]
    show (RefSpec.logSoftmax (RefSpec.bias40 (V c main_v46) b2) : S50000x40.Idx → EReal) _
      = (RefSpec.logSoftmax (RefSpec.bias40 (V c main_v46) b2) : S50000x40.Idx → EReal) _
    congr 1
    funext a
    apply Fin.ext
    match a with
    | ⟨0, _⟩ => show t.val * 2000 + p.val = win4_2.index t (0 : Fin 2) * 2000 + 1 * p.val; rw [e4]; omega
    | ⟨1, _⟩ => show q.val = win4_2.index t (1 : Fin 2) * 40 + 1 * q.val; rw [e5]; omega

/-- An index of the output array is in point `t`'s block iff each coordinate is in the block's range on its axis. -/
theorem mem_blk (t : Fin cfg4.N) (i : S50000x40.Idx) :
    i ∈ ((cfg4.win 2).blk t).view.set
      ↔ ∀ a : Fin 2, win4_2.index t a * S2000x40.size a ≤ (i a).val ∧ (i a).val < win4_2.index t a * S2000x40.size a + S2000x40.size a := by
  show i ∈ ((View.whole main_v48).slice (win4_2.rect t)).set ↔ _
  rw [View.set_slice_whole, Rect.mem_set_unit]
  exact Iff.rfl

/-- THE BLOCKS TILE THE ARRAY: row `r` lies in the block of point `r / 2000`. -/
theorem cover (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  have hN : cfg4.N = 25 := by decide
  obtain ⟨t, ht⟩ : ∃ t : Fin cfg4.N, t.val = (i 0).val / 2000 := ⟨⟨(i 0).val / 2000, by rw [hN]; omega⟩, rfl⟩
  obtain ⟨-, -, -, -, e4, e5⟩ := block_index t
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    rw [e4, ht]; omega
  | ⟨1, _⟩ =>
    show win4_2.index t (1 : Fin 2) * 40 ≤ (i 1).val ∧ (i 1).val < win4_2.index t (1 : Fin 2) * 40 + 40
    rw [e5]; omega

end R4

theorem region4 (c : Dev nD) (b2 : FVec Ideal Cert.ReferenceIdeal.S40 .f32)
    (hb : (V c main_v47 : S1x40.Idx → EReal)
      = broadcastInDim Cert.ReferenceIdeal.S1x40 ![1] Cert.ReferenceIdeal.Facts₀.bcast_S40_S1x40_1 b2) :
    ((dat4 (F := Ideal) V c).arrAt 2 cfg4.N : S50000x40.Idx → EReal)
      = RefSpec.logSoftmax (RefSpec.bias40 (V c main_v46) b2) :=
  (dat4 (F := Ideal) V c).arrAt_eq_of_cover 2 (RefSpec.logSoftmax (RefSpec.bias40 (V c main_v46) b2))
    (fun t _ => R4.flushed_eq V c b2 hb t) R4.cover

end Cert.KValue

end
-- ==== Proof.KHostBase.lean ====
/-
  The twelve argument buffers of the kernel's program, as a list: no host stretch writes any of them.
-/
import proofs.«106202_j40956808135033_1_alg».proof.Proof.KernelIdealLaunchP

noncomputable section

namespace Cert.KHost

open Idealize.ShloMosaic Idealize.ShloMosaic.TcCoe Idealize.SL.Sem
open Cert.KernelIdeal Cert.KernelIdeal.Gen Cert.KernelIdeal.GenP

/-- The twelve argument buffers. -/
def argRefs : List (Ref sig .tc) := [main_arg0, main_arg1, main_arg2, main_arg3, main_arg4, main_arg5, main_arg6, main_arg7, main_arg8, main_arg9, main_arg10, main_arg11]

end Cert.KHost

end
-- ==== Proof.KHost0.lean ====
/-
  The first host stretch, read from an arbitrary valuation `W` of the buffers: two operations, each filling a
  table with a fixed literal (the two grouping tables of the normalisation, entry `i` being the literal's word at
  `i`'s row-major position, read as a float). Afterwards each table holds exactly that function, and no argument
  buffer has been written.
-/
import proofs.«106202_j40956808135033_1_alg».proof.Proof.KernelIdealLaunchP
import proofs.«106202_j40956808135033_1_alg».proof.Proof.KHostBase
import Idealize.ShloMosaic.PureOps.Ideal
import Idealize.ShloMosaic.Lib.StableHlo.Run

set_option maxRecDepth 16384

noncomputable section

namespace Cert.KHost

open Idealize.ShloMosaic Idealize.ShloMosaic.TcCoe Idealize.SL.Sem
open Cert.KernelIdeal Cert.KernelIdeal.Gen Cert.KernelIdeal.GenP

variable (W : Valuation τ sig (Elt Ideal))

/-! ## Stretch 0: the two grouping tables -/

/-- The first table holds its literal: the first operation writes it and the second writes another buffer. -/
theorem host0_cst : (StableHlo.after (hostOps0 (F := Ideal)) W (Proc.devRef .tc main_cst) : S128x32.Idx → EReal)
    = fun i => FloatOps.ofBits (F := Ideal) .f32 (lit0 (S128x32.rowMajor i)) := by
  show StableHlo.after hostOps0 _ (Proc.devRef .tc main_cst) = _
  dsimp only [hostOps0]
  after_results
  rfl
/-- The second table holds its literal: the second operation writes it. -/
theorem host0_cst0 : (StableHlo.after (hostOps0 (F := Ideal)) W (Proc.devRef .tc main_cst_0) : S32x128.Idx → EReal)
    = fun i => FloatOps.ofBits (F := Ideal) .f32 (lit1 (S32x128.rowMajor i)) := by
  show StableHlo.after hostOps0 _ (Proc.devRef .tc main_cst_0) = _
  dsimp only [hostOps0]
  after_results
  rfl
/-- The stretch writes none of the argument buffers: its two operations write the two tables. -/
theorem host0_keeps (b : Ref sig .tc) (hb : b ∈ argRefs) :
    StableHlo.after (hostOps0 (F := Ideal)) W (Proc.devRef .tc b) = W (Proc.devRef .tc b) := by
  simp only [argRefs, List.mem_cons, List.mem_append, List.mem_singleton, List.not_mem_nil, or_false] at hb
  rcases hb with rfl | rfl | rfl | rfl | rfl | rfl | rfl | rfl | rfl | rfl | rfl | rfl
  all_goals
    exact StableHlo.after_of_forall_not_mem (b := Proc.devRef .tc _) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

end Cert.KHost

end
-- ==== Proof.KHostRows.lean ====
/-
  A vector of extent `a` laid out as a `1 × a` row. The row can be made in two ways: by a shape cast (the same
  entries in row-major order) or by broadcasting the vector along the row's second axis. Entry `(u, i)` of the cast
  sits at row-major position `u · a + i = i` (the unit coordinate `u` is `0`), so it is the vector's entry `i`;
  entry `(u, i)` of the broadcast reads the vector at the row's second coordinate, again `i` (when `a = 1` it
  reads entry `0`, and then `i = 0`). So the two rows are the same function.
-/
import Idealize.ShloMosaic.Lib.ValueLayout

namespace Cert.KHost

open Idealize.ShloMosaic Idealize.ShloMosaic.ValueIdx

/-- A vector of extent `a` cast to a `1 × a` row is the vector broadcast along the row's second axis: both read,
    at `(u, i)`, the vector's entry `i`. -/
theorem shapeCast_row_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  symm
  refine broadcastInDim_apply _ _ _ _ _ (fun d => ?_)
  match d with
  | ⟨0, _⟩ =>
    show i.val = if a = 1 then 0 else i.val
    have hlt : i.val < a := i.isLt
    split
    · omega
    · rfl

end Cert.KHost
-- ==== Proof.KHost1.lean ====
/-
  The first host stretch, read from an arbitrary valuation `W` of the buffers. Its seventeen operations are the
  graph aggregation of the first layer — the source indices made non-negative (a negative index counts from the
  end), the rows `h[src]` gathered, row `e` scaled by the edge weight `w e`, and the scaled rows added into the
  rows `tgt e` of a zero array — followed by the bias vector `b0` laid out as a `1 × 128` row. The aggregation is,
  operation for operation, the reference's own; the row is the reference's broadcast of the vector. No operation of
  the stretch writes an argument buffer, a grouping table or the stretch's input array.
-/
import proofs.«106202_j40956808135033_1_alg».proof.Proof.KernelIdealLaunchP
import proofs.«106202_j40956808135033_1_alg».proof.Proof.RefSpec
import proofs.«106202_j40956808135033_1_alg».proof.Proof.KHostBase
import proofs.«106202_j40956808135033_1_alg».proof.Proof.KHostRows
import Idealize.ShloMosaic.Lib.StableHlo.Run

set_option maxRecDepth 16384

noncomputable section

namespace Cert.KHost

open Idealize.ShloMosaic Idealize.ShloMosaic.TcCoe Idealize.SL.Sem
open Cert.KernelIdeal Cert.KernelIdeal.Gen Cert.KernelIdeal.GenP

variable (W : Valuation τ sig (Elt Ideal))

/-! ## Stretch 1: the first aggregation and the row of `b0` -/

set_option maxHeartbeats 1000000 in
/-- The aggregated array is the reference's aggregation of the stretch's input array, source and target indices and
    edge weights: composing the operations' functions along the chain gives the same gather / scale / scatter-add
    term. -/
theorem host1_agg : (StableHlo.after (hostOps1 (F := Ideal)) W (Proc.devRef .tc main_v13) : S50000x128.Idx → EReal)
    = RefSpec.agg128 (W (Proc.devRef .tc main_v0)) (W (Proc.devRef .tc main_arg1)) (W (Proc.devRef .tc main_arg2)) (W (Proc.devRef .tc main_arg3)) := by
  show StableHlo.after hostOps1 _ (Proc.devRef .tc main_v13) = _
  dsimp only [hostOps1]
  after_results_simp
  unfold RefSpec.agg128 RefSpec.srcIx
  rfl
/-- The row of `b0`: the cast of the bias vector to `1 × 128` is its broadcast along the second axis. -/
theorem host1_b0 : (StableHlo.after (hostOps1 (F := Ideal)) W (Proc.devRef .tc main_v14) : S1x128.Idx → EReal)
    = broadcastInDim Cert.ReferenceIdeal.S1x128 ![1] Cert.ReferenceIdeal.Facts₀.bcast_S128_S1x128_1 (W (Proc.devRef .tc main_arg5)) := by
  show StableHlo.after hostOps1 _ (Proc.devRef .tc main_v14) = _
  dsimp only [hostOps1]
  after_results_simp
  exact shapeCast_row_eq_broadcastInDim _ _ _
/-- The stretch writes none of the argument buffers, the two grouping tables or its input array: each of its
    seventeen operations writes one buffer, and that buffer is another one. -/
theorem host1_keeps (b : Ref sig .tc) (hb : b ∈ argRefs ++ [main_cst, main_cst_0, main_v0]) :
    StableHlo.after (hostOps1 (F := Ideal)) W (Proc.devRef .tc b) = W (Proc.devRef .tc b) := by
  simp only [argRefs, List.mem_cons, List.mem_append, List.mem_singleton, List.not_mem_nil, or_false] at hb
  rcases hb with (rfl | rfl | rfl | rfl | rfl | rfl | rfl | rfl | rfl | rfl | rfl | rfl) | rfl | rfl | rfl
  all_goals
    exact StableHlo.after_of_forall_not_mem (b := Proc.devRef .tc _) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

end Cert.KHost

end
-- ==== Proof.KHost2.lean ====
/-
  The second host stretch, read from an arbitrary valuation `W` of the buffers. Its nineteen operations are the
  graph aggregation of the second layer — the same gather / scale / scatter-add chain as in the first layer, over
  this stretch's input array — followed by three vectors laid out as `1 × 128` rows: the bias `b1` and the
  normalisation's scale `γ` and shift `β`. The aggregation is the reference's own, each row the reference's
  broadcast of its vector. No operation of the stretch writes an argument buffer, a grouping table or the stretch's
  input array.
-/
import proofs.«106202_j40956808135033_1_alg».proof.Proof.KernelIdealLaunchP
import proofs.«106202_j40956808135033_1_alg».proof.Proof.RefSpec
import proofs.«106202_j40956808135033_1_alg».proof.Proof.KHostBase
import proofs.«106202_j40956808135033_1_alg».proof.Proof.KHostRows
import Idealize.ShloMosaic.Lib.StableHlo.Run

set_option maxRecDepth 16384

noncomputable section

namespace Cert.KHost

open Idealize.ShloMosaic Idealize.ShloMosaic.TcCoe Idealize.SL.Sem
open Cert.KernelIdeal Cert.KernelIdeal.Gen Cert.KernelIdeal.GenP

variable (W : Valuation τ sig (Elt Ideal))

/-! ## Stretch 2: the second aggregation and the rows of `b1`, `γ`, `β` -/

set_option maxHeartbeats 1000000 in
/-- The aggregated array is the reference's aggregation of the stretch's input array, source and target indices and
    edge weights: composing the operations' functions along the chain gives the same gather / scale / scatter-add
    term. -/
theorem host2_agg : (StableHlo.after (hostOps2 (F := Ideal)) W (Proc.devRef .tc main_v28) : S50000x128.Idx → EReal)
    = RefSpec.agg128 (W (Proc.devRef .tc main_v15)) (W (Proc.devRef .tc main_arg1)) (W (Proc.devRef .tc main_arg2)) (W (Proc.devRef .tc main_arg3)) := by
  show StableHlo.after hostOps2 _ (Proc.devRef .tc main_v28) = _
  dsimp only [hostOps2]
  after_results_simp
  unfold RefSpec.agg128 RefSpec.srcIx
  rfl
/-- The row of `b1`: the cast of the bias vector to `1 × 128` is its broadcast along the second axis. -/
theorem host2_b1 : (StableHlo.after (hostOps2 (F := Ideal)) W (Proc.devRef .tc main_v29) : S1x128.Idx → EReal)
    = broadcastInDim Cert.ReferenceIdeal.S1x128 ![1] Cert.ReferenceIdeal.Facts₀.bcast_S128_S1x128_1 (W (Proc.devRef .tc main_arg7)) := by
  show StableHlo.after hostOps2 _ (Proc.devRef .tc main_v29) = _
  dsimp only [hostOps2]
  after_results_simp
  exact shapeCast_row_eq_broadcastInDim _ _ _
/-- The row of `γ`, likewise. -/
theorem host2_gamma : (StableHlo.after (hostOps2 (F := Ideal)) W (Proc.devRef .tc main_v30) : S1x128.Idx → EReal)
    = broadcastInDim Cert.ReferenceIdeal.S1x128 ![1] Cert.ReferenceIdeal.Facts₀.bcast_S128_S1x128_1 (W (Proc.devRef .tc main_arg10)) := by
  show StableHlo.after hostOps2 _ (Proc.devRef .tc main_v30) = _
  dsimp only [hostOps2]
  after_results_simp
  exact shapeCast_row_eq_broadcastInDim _ _ _
/-- The row of `β`, likewise. -/
theorem host2_beta : (StableHlo.after (hostOps2 (F := Ideal)) W (Proc.devRef .tc main_v31) : S1x128.Idx → EReal)
    = broadcastInDim Cert.ReferenceIdeal.S1x128 ![1] Cert.ReferenceIdeal.Facts₀.bcast_S128_S1x128_1 (W (Proc.devRef .tc main_arg11)) := by
  show StableHlo.after hostOps2 _ (Proc.devRef .tc main_v31) = _
  dsimp only [hostOps2]
  after_results_simp
  exact shapeCast_row_eq_broadcastInDim _ _ _
/-- The stretch writes none of the argument buffers, the two grouping tables or its input array: each of its
    nineteen operations writes one buffer, and that buffer is another one. -/
theorem host2_keeps (b : Ref sig .tc) (hb : b ∈ argRefs ++ [main_cst, main_cst_0, main_v15]) :
    StableHlo.after (hostOps2 (F := Ideal)) W (Proc.devRef .tc b) = W (Proc.devRef .tc b) := by
  simp only [argRefs, List.mem_cons, List.mem_append, List.mem_singleton, List.not_mem_nil, or_false] at hb
  rcases hb with (rfl | rfl | rfl | rfl | rfl | rfl | rfl | rfl | rfl | rfl | rfl | rfl) | rfl | rfl | rfl
  all_goals
    exact StableHlo.after_of_forall_not_mem (b := Proc.devRef .tc _) _ _ (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

end Cert.KHost

end
-- ==== Proof.KHost4.lean ====
/-
  The last host stretch, read from an arbitrary valuation `W` of the buffers. Its seventeen operations are the
  graph aggregation of the third layer over 40 channels — source indices made non-negative, rows gathered, scaled by
  the edge weights and added into the target rows of a zero array — followed by the bias vector `b2` laid out as a
  `1 × 40` row. The aggregation is the reference's own, the row the reference's broadcast of the vector. No
  operation of the stretch writes an argument buffer or the stretch's input array.
-/
import proofs.«106202_j40956808135033_1_alg».proof.Proof.KernelIdealLaunchP
import proofs.«106202_j40956808135033_1_alg».proof.Proof.RefSpec
import proofs.«106202_j40956808135033_1_alg».proof.Proof.KHostBase
import proofs.«106202_j40956808135033_1_alg».proof.Proof.KHostRows
import Idealize.ShloMosaic.Lib.StableHlo.Run

set_option maxRecDepth 16384

noncomputable section

namespace Cert.KHost

open Idealize.ShloMosaic Idealize.ShloMosaic.TcCoe Idealize.SL.Sem
open Cert.KernelIdeal Cert.KernelIdeal.Gen Cert.KernelIdeal.GenP

variable (W : Valuation τ sig (Elt Ideal))

/-! ## Stretch 4: the third aggregation and the row of `b2` -/

set_option maxHeartbeats 1000000 in
/-- The aggregated array is the reference's 40-channel aggregation of the stretch's input array, source and target
    indices and edge weights: composing the operations' functions along the chain gives the same gather / scale /
    scatter-add term. -/
theorem host4_agg : (StableHlo.after (hostOps4 (F := Ideal)) W (Proc.devRef .tc main_v46) : S50000x40.Idx → EReal)
    = RefSpec.agg40 (W (Proc.devRef .tc main_v33)) (W (Proc.devRef .tc main_arg1)) (W (Proc.devRef .tc main_arg2)) (W (Proc.devRef .tc main_arg3)) := by
  show StableHlo.after hostOps4 _ (Proc.devRef .tc main_v46) = _
  dsimp only [hostOps4]
  after_results_simp
  unfold RefSpec.agg40 RefSpec.srcIx
  rfl
/-- The row of `b2`: the cast of the bias vector to `1 × 40` is its broadcast along the second axis. -/
theorem host4_b2 : (StableHlo.after (hostOps4 (F := Ideal)) W (Proc.devRef .tc main_v47) : S1x40.Idx → EReal)
    = broadcastInDim Cert.ReferenceIdeal.S1x40 ![1] Cert.ReferenceIdeal.Facts₀.bcast_S40_S1x40_1 (W (Proc.devRef .tc main_arg9)) := by
  show StableHlo.after hostOps4 _ (Proc.devRef .tc main_v47) = _
  dsimp only [hostOps4]
  after_results_simp
  exact shapeCast_row_eq_broadcastInDim _ _ _
/-- The stretch writes none of the argument buffers nor its input array: each of its seventeen operations writes
    one buffer, and that buffer is another one. -/
theorem host4_keeps (b : Ref sig .tc) (hb : b ∈ argRefs ++ [main_v33]) :
    StableHlo.after (hostOps4 (F := Ideal)) W (Proc.devRef .tc b) = W (Proc.devRef .tc b) := by
  simp only [argRefs, List.mem_cons, List.mem_append, List.mem_singleton, List.not_mem_nil, or_false] at hb
  rcases hb with (rfl | rfl | rfl | rfl | rfl | rfl | rfl | rfl | rfl | rfl | rfl | rfl) | rfl
  all_goals
    exact StableHlo.after_of_forall_not_mem (b := Proc.devRef .tc _) _ _ (List.forall_iff_forall_mem.mp (by
      simp only [hostOps4, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

end Cert.KHost

end
-- ==== Proof.KHost.lean ====
/-
  The host operations between the kernel's regions, read from an arbitrary valuation `W` of the buffers: each
  stretch leaves in its result buffers the reference's own layer functions of what `W` holds (the aggregation is
  the same gather / scale / scatter-add chain on both sides; a reshape of a bias vector to a 1 × C row is the
  reference's broadcast of it), and leaves every buffer it does not write as `W` has it.

  One module per stretch, side by side; this module gathers them:
    - the two grouping tables (`host0_cst`, `host0_cst0`, `host0_keeps`);
    - the first aggregation and the row of `b0` (`host1_agg`, `host1_b0`, `host1_keeps`);
    - the second aggregation and the rows of `b1`, `γ`, `β` (`host2_agg`, `host2_b1`, `host2_gamma`,
      `host2_beta`, `host2_keeps`);
    - the third aggregation and the row of `b2` (`host4_agg`, `host4_b2`, `host4_keeps`).
-/
import proofs.«106202_j40956808135033_1_alg».proof.Proof.KHost0
import proofs.«106202_j40956808135033_1_alg».proof.Proof.KHost1
import proofs.«106202_j40956808135033_1_alg».proof.Proof.KHost2
import proofs.«106202_j40956808135033_1_alg».proof.Proof.KHost4
-- ==== Proof.KRun.lean ====
/-
  The kernel program's run with its result named. The generated frame certificate folds the buffer contents through
  @main's nine segments (a host stretch, region 0, a host stretch, region 1, a host stretch, regions 2 and 3, a host
  stretch, region 4); here that fold is read at the buffers that matter: the argument buffers and the two grouping
  tables are carried unchanged to where they are used, every region's output array is its layer function of the
  region's entry arrays, every host stretch's aggregation is the reference's, and so the last region's output array
  holds the reference's composition of the layers of the argument arrays — given that the second aggregation and
  the bias `b1` hold real numbers, which the group normalisation's variance needs.
-/
import proofs.«106202_j40956808135033_1_alg».proof.Proof.KernelIdealFrameP
import proofs.«106202_j40956808135033_1_alg».proof.Proof.RefSpec
import proofs.«106202_j40956808135033_1_alg».proof.Proof.KRegion0
import proofs.«106202_j40956808135033_1_alg».proof.Proof.KRegion1
import proofs.«106202_j40956808135033_1_alg».proof.Proof.KRegion2
import proofs.«106202_j40956808135033_1_alg».proof.Proof.KRegion3
import proofs.«106202_j40956808135033_1_alg».proof.Proof.KRegion4
import proofs.«106202_j40956808135033_1_alg».proof.Proof.KHost

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

local notation "𝕄" => MT nD τ sig Unit (Elt Ideal) ℕ (UR sig nD τ) ℕ

variable (m : (ℓ : Loc nD τ sig) → Buf (Elt Ideal) ℓ) (ρ : Dev nD → PrngReg) (c : Dev nD)

/-- The aggregation respects equality of its four operands. -/
theorem agg128_congr {h h' : RefSpec.A128} {s s' t t' : RefSpec.EdgeI} {w w' : RefSpec.EdgeW}
    (e1 : h = h') (e2 : s = s') (e3 : t = t') (e4 : w = w') :
    RefSpec.agg128 h s t w = RefSpec.agg128 h' s' t' w' := by subst e1 e2 e3 e4; rfl
theorem agg40_congr {h h' : RefSpec.A40} {s s' t t' : RefSpec.EdgeI} {w w' : RefSpec.EdgeW}
    (e1 : h = h') (e2 : s = s') (e3 : t = t') (e4 : w = w') :
    RefSpec.agg40 h s t w = RefSpec.agg40 h' s' t' w' := by subst e1 e2 e3 e4; rfl

/-! ## The argument buffers at every boundary: as launched

No host operation writes an argument and no region has one as an output window; a region that reads one through an
input window leaves the array as it found it. -/

theorem keep1_arg0 : W1 m ρ c (Proc.devRef .tc main_arg0) = (m ((c : Thread nD τ).loc main_arg0)) :=
  (KHost.host0_keeps (W0 m ρ c) main_arg0 (by decide)).trans rfl
theorem keep1_arg1 : W1 m ρ c (Proc.devRef .tc main_arg1) = (m ((c : Thread nD τ).loc main_arg1)) :=
  (KHost.host0_keeps (W0 m ρ c) main_arg1 (by decide)).trans rfl
theorem keep1_arg2 : W1 m ρ c (Proc.devRef .tc main_arg2) = (m ((c : Thread nD τ).loc main_arg2)) :=
  (KHost.host0_keeps (W0 m ρ c) main_arg2 (by decide)).trans rfl
theorem keep1_arg3 : W1 m ρ c (Proc.devRef .tc main_arg3) = (m ((c : Thread nD τ).loc main_arg3)) :=
  (KHost.host0_keeps (W0 m ρ c) main_arg3 (by decide)).trans rfl
theorem keep1_arg4 : W1 m ρ c (Proc.devRef .tc main_arg4) = (m ((c : Thread nD τ).loc main_arg4)) :=
  (KHost.host0_keeps (W0 m ρ c) main_arg4 (by decide)).trans rfl
theorem keep1_arg5 : W1 m ρ c (Proc.devRef .tc main_arg5) = (m ((c : Thread nD τ).loc main_arg5)) :=
  (KHost.host0_keeps (W0 m ρ c) main_arg5 (by decide)).trans rfl
theorem keep1_arg6 : W1 m ρ c (Proc.devRef .tc main_arg6) = (m ((c : Thread nD τ).loc main_arg6)) :=
  (KHost.host0_keeps (W0 m ρ c) main_arg6 (by decide)).trans rfl
theorem keep1_arg7 : W1 m ρ c (Proc.devRef .tc main_arg7) = (m ((c : Thread nD τ).loc main_arg7)) :=
  (KHost.host0_keeps (W0 m ρ c) main_arg7 (by decide)).trans rfl
theorem keep1_arg8 : W1 m ρ c (Proc.devRef .tc main_arg8) = (m ((c : Thread nD τ).loc main_arg8)) :=
  (KHost.host0_keeps (W0 m ρ c) main_arg8 (by decide)).trans rfl
theorem keep1_arg9 : W1 m ρ c (Proc.devRef .tc main_arg9) = (m ((c : Thread nD τ).loc main_arg9)) :=
  (KHost.host0_keeps (W0 m ρ c) main_arg9 (by decide)).trans rfl
theorem keep1_arg10 : W1 m ρ c (Proc.devRef .tc main_arg10) = (m ((c : Thread nD τ).loc main_arg10)) :=
  (KHost.host0_keeps (W0 m ρ c) main_arg10 (by decide)).trans rfl
theorem keep1_arg11 : W1 m ρ c (Proc.devRef .tc main_arg11) = (m ((c : Thread nD τ).loc main_arg11)) :=
  (KHost.host0_keeps (W0 m ρ c) main_arg11 (by decide)).trans rfl
theorem keep2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (keep1_arg0 m ρ c)
theorem keep2_arg1 : W2 m ρ c (Proc.devRef .tc main_arg1) = (m ((c : Thread nD τ).loc main_arg1)) :=
  (W2_of_ne m ρ c main_arg1 (by decide)).trans (keep1_arg1 m ρ c)
theorem keep2_arg2 : W2 m ρ c (Proc.devRef .tc main_arg2) = (m ((c : Thread nD τ).loc main_arg2)) :=
  (W2_of_ne m ρ c main_arg2 (by decide)).trans (keep1_arg2 m ρ c)
theorem keep2_arg3 : W2 m ρ c (Proc.devRef .tc main_arg3) = (m ((c : Thread nD τ).loc main_arg3)) :=
  (W2_of_ne m ρ c main_arg3 (by decide)).trans (keep1_arg3 m ρ c)
theorem keep2_arg4 : W2 m ρ c (Proc.devRef .tc main_arg4) = (m ((c : Thread nD τ).loc main_arg4)) :=
  ((W2_arr m ρ c 1).trans (((dat0 (V1 m ρ) c).arrAt_in 1 rfl _).trans (A_eq0 (V1 m ρ) c 1))).trans (keep1_arg4 m ρ c)
theorem keep2_arg5 : W2 m ρ c (Proc.devRef .tc main_arg5) = (m ((c : Thread nD τ).loc main_arg5)) :=
  (W2_of_ne m ρ c main_arg5 (by decide)).trans (keep1_arg5 m ρ c)
theorem keep2_arg6 : W2 m ρ c (Proc.devRef .tc main_arg6) = (m ((c : Thread nD τ).loc main_arg6)) :=
  (W2_of_ne m ρ c main_arg6 (by decide)).trans (keep1_arg6 m ρ c)
theorem keep2_arg7 : W2 m ρ c (Proc.devRef .tc main_arg7) = (m ((c : Thread nD τ).loc main_arg7)) :=
  (W2_of_ne m ρ c main_arg7 (by decide)).trans (keep1_arg7 m ρ c)
theorem keep2_arg8 : W2 m ρ c (Proc.devRef .tc main_arg8) = (m ((c : Thread nD τ).loc main_arg8)) :=
  (W2_of_ne m ρ c main_arg8 (by decide)).trans (keep1_arg8 m ρ c)
theorem keep2_arg9 : W2 m ρ c (Proc.devRef .tc main_arg9) = (m ((c : Thread nD τ).loc main_arg9)) :=
  (W2_of_ne m ρ c main_arg9 (by decide)).trans (keep1_arg9 m ρ c)
theorem keep2_arg10 : W2 m ρ c (Proc.devRef .tc main_arg10) = (m ((c : Thread nD τ).loc main_arg10)) :=
  (W2_of_ne m ρ c main_arg10 (by decide)).trans (keep1_arg10 m ρ c)
theorem keep2_arg11 : W2 m ρ c (Proc.devRef .tc main_arg11) = (m ((c : Thread nD τ).loc main_arg11)) :=
  (W2_of_ne m ρ c main_arg11 (by decide)).trans (keep1_arg11 m ρ c)
theorem keep3_arg0 : W3 m ρ c (Proc.devRef .tc main_arg0) = (m ((c : Thread nD τ).loc main_arg0)) :=
  (KHost.host1_keeps (W2 m ρ c) main_arg0 (by decide)).trans (keep2_arg0 m ρ c)
theorem keep3_arg1 : W3 m ρ c (Proc.devRef .tc main_arg1) = (m ((c : Thread nD τ).loc main_arg1)) :=
  (KHost.host1_keeps (W2 m ρ c) main_arg1 (by decide)).trans (keep2_arg1 m ρ c)
theorem keep3_arg2 : W3 m ρ c (Proc.devRef .tc main_arg2) = (m ((c : Thread nD τ).loc main_arg2)) :=
  (KHost.host1_keeps (W2 m ρ c) main_arg2 (by decide)).trans (keep2_arg2 m ρ c)
theorem keep3_arg3 : W3 m ρ c (Proc.devRef .tc main_arg3) = (m ((c : Thread nD τ).loc main_arg3)) :=
  (KHost.host1_keeps (W2 m ρ c) main_arg3 (by decide)).trans (keep2_arg3 m ρ c)
theorem keep3_arg4 : W3 m ρ c (Proc.devRef .tc main_arg4) = (m ((c : Thread nD τ).loc main_arg4)) :=
  (KHost.host1_keeps (W2 m ρ c) main_arg4 (by decide)).trans (keep2_arg4 m ρ c)
theorem keep3_arg5 : W3 m ρ c (Proc.devRef .tc main_arg5) = (m ((c : Thread nD τ).loc main_arg5)) :=
  (KHost.host1_keeps (W2 m ρ c) main_arg5 (by decide)).trans (keep2_arg5 m ρ c)
theorem keep3_arg6 : W3 m ρ c (Proc.devRef .tc main_arg6) = (m ((c : Thread nD τ).loc main_arg6)) :=
  (KHost.host1_keeps (W2 m ρ c) main_arg6 (by decide)).trans (keep2_arg6 m ρ c)
theorem keep3_arg7 : W3 m ρ c (Proc.devRef .tc main_arg7) = (m ((c : Thread nD τ).loc main_arg7)) :=
  (KHost.host1_keeps (W2 m ρ c) main_arg7 (by decide)).trans (keep2_arg7 m ρ c)
theorem keep3_arg8 : W3 m ρ c (Proc.devRef .tc main_arg8) = (m ((c : Thread nD τ).loc main_arg8)) :=
  (KHost.host1_keeps (W2 m ρ c) main_arg8 (by decide)).trans (keep2_arg8 m ρ c)
theorem keep3_arg9 : W3 m ρ c (Proc.devRef .tc main_arg9) = (m ((c : Thread nD τ).loc main_arg9)) :=
  (KHost.host1_keeps (W2 m ρ c) main_arg9 (by decide)).trans (keep2_arg9 m ρ c)
theorem keep3_arg10 : W3 m ρ c (Proc.devRef .tc main_arg10) = (m ((c : Thread nD τ).loc main_arg10)) :=
  (KHost.host1_keeps (W2 m ρ c) main_arg10 (by decide)).trans (keep2_arg10 m ρ c)
theorem keep3_arg11 : W3 m ρ c (Proc.devRef .tc main_arg11) = (m ((c : Thread nD τ).loc main_arg11)) :=
  (KHost.host1_keeps (W2 m ρ c) main_arg11 (by decide)).trans (keep2_arg11 m ρ c)
theorem keep4_arg0 : W4 m ρ c (Proc.devRef .tc main_arg0) = (m ((c : Thread nD τ).loc main_arg0)) :=
  (W4_of_ne m ρ c main_arg0 (by decide)).trans (keep3_arg0 m ρ c)
theorem keep4_arg1 : W4 m ρ c (Proc.devRef .tc main_arg1) = (m ((c : Thread nD τ).loc main_arg1)) :=
  (W4_of_ne m ρ c main_arg1 (by decide)).trans (keep3_arg1 m ρ c)
theorem keep4_arg2 : W4 m ρ c (Proc.devRef .tc main_arg2) = (m ((c : Thread nD τ).loc main_arg2)) :=
  (W4_of_ne m ρ c main_arg2 (by decide)).trans (keep3_arg2 m ρ c)
theorem keep4_arg3 : W4 m ρ c (Proc.devRef .tc main_arg3) = (m ((c : Thread nD τ).loc main_arg3)) :=
  (W4_of_ne m ρ c main_arg3 (by decide)).trans (keep3_arg3 m ρ c)
theorem keep4_arg4 : W4 m ρ c (Proc.devRef .tc main_arg4) = (m ((c : Thread nD τ).loc main_arg4)) :=
  (W4_of_ne m ρ c main_arg4 (by decide)).trans (keep3_arg4 m ρ c)
theorem keep4_arg5 : W4 m ρ c (Proc.devRef .tc main_arg5) = (m ((c : Thread nD τ).loc main_arg5)) :=
  (W4_of_ne m ρ c main_arg5 (by decide)).trans (keep3_arg5 m ρ c)
theorem keep4_arg6 : W4 m ρ c (Proc.devRef .tc main_arg6) = (m ((c : Thread nD τ).loc main_arg6)) :=
  ((W4_arr m ρ c 2).trans (((dat1 (V3 m ρ) c).arrAt_in 2 rfl _).trans (A_eq1 (V3 m ρ) c 2))).trans (keep3_arg6 m ρ c)
theorem keep4_arg7 : W4 m ρ c (Proc.devRef .tc main_arg7) = (m ((c : Thread nD τ).loc main_arg7)) :=
  (W4_of_ne m ρ c main_arg7 (by decide)).trans (keep3_arg7 m ρ c)
theorem keep4_arg8 : W4 m ρ c (Proc.devRef .tc main_arg8) = (m ((c : Thread nD τ).loc main_arg8)) :=
  (W4_of_ne m ρ c main_arg8 (by decide)).trans (keep3_arg8 m ρ c)
theorem keep4_arg9 : W4 m ρ c (Proc.devRef .tc main_arg9) = (m ((c : Thread nD τ).loc main_arg9)) :=
  (W4_of_ne m ρ c main_arg9 (by decide)).trans (keep3_arg9 m ρ c)
theorem keep4_arg10 : W4 m ρ c (Proc.devRef .tc main_arg10) = (m ((c : Thread nD τ).loc main_arg10)) :=
  (W4_of_ne m ρ c main_arg10 (by decide)).trans (keep3_arg10 m ρ c)
theorem keep4_arg11 : W4 m ρ c (Proc.devRef .tc main_arg11) = (m ((c : Thread nD τ).loc main_arg11)) :=
  (W4_of_ne m ρ c main_arg11 (by decide)).trans (keep3_arg11 m ρ c)
theorem keep5_arg0 : W5 m ρ c (Proc.devRef .tc main_arg0) = (m ((c : Thread nD τ).loc main_arg0)) :=
  (KHost.host2_keeps (W4 m ρ c) main_arg0 (by decide)).trans (keep4_arg0 m ρ c)
theorem keep5_arg1 : W5 m ρ c (Proc.devRef .tc main_arg1) = (m ((c : Thread nD τ).loc main_arg1)) :=
  (KHost.host2_keeps (W4 m ρ c) main_arg1 (by decide)).trans (keep4_arg1 m ρ c)
theorem keep5_arg2 : W5 m ρ c (Proc.devRef .tc main_arg2) = (m ((c : Thread nD τ).loc main_arg2)) :=
  (KHost.host2_keeps (W4 m ρ c) main_arg2 (by decide)).trans (keep4_arg2 m ρ c)
theorem keep5_arg3 : W5 m ρ c (Proc.devRef .tc main_arg3) = (m ((c : Thread nD τ).loc main_arg3)) :=
  (KHost.host2_keeps (W4 m ρ c) main_arg3 (by decide)).trans (keep4_arg3 m ρ c)
theorem keep5_arg4 : W5 m ρ c (Proc.devRef .tc main_arg4) = (m ((c : Thread nD τ).loc main_arg4)) :=
  (KHost.host2_keeps (W4 m ρ c) main_arg4 (by decide)).trans (keep4_arg4 m ρ c)
theorem keep5_arg5 : W5 m ρ c (Proc.devRef .tc main_arg5) = (m ((c : Thread nD τ).loc main_arg5)) :=
  (KHost.host2_keeps (W4 m ρ c) main_arg5 (by decide)).trans (keep4_arg5 m ρ c)
theorem keep5_arg6 : W5 m ρ c (Proc.devRef .tc main_arg6) = (m ((c : Thread nD τ).loc main_arg6)) :=
  (KHost.host2_keeps (W4 m ρ c) main_arg6 (by decide)).trans (keep4_arg6 m ρ c)
theorem keep5_arg7 : W5 m ρ c (Proc.devRef .tc main_arg7) = (m ((c : Thread nD τ).loc main_arg7)) :=
  (KHost.host2_keeps (W4 m ρ c) main_arg7 (by decide)).trans (keep4_arg7 m ρ c)
theorem keep5_arg8 : W5 m ρ c (Proc.devRef .tc main_arg8) = (m ((c : Thread nD τ).loc main_arg8)) :=
  (KHost.host2_keeps (W4 m ρ c) main_arg8 (by decide)).trans (keep4_arg8 m ρ c)
theorem keep5_arg9 : W5 m ρ c (Proc.devRef .tc main_arg9) = (m ((c : Thread nD τ).loc main_arg9)) :=
  (KHost.host2_keeps (W4 m ρ c) main_arg9 (by decide)).trans (keep4_arg9 m ρ c)
theorem keep5_arg10 : W5 m ρ c (Proc.devRef .tc main_arg10) = (m ((c : Thread nD τ).loc main_arg10)) :=
  (KHost.host2_keeps (W4 m ρ c) main_arg10 (by decide)).trans (keep4_arg10 m ρ c)
theorem keep5_arg11 : W5 m ρ c (Proc.devRef .tc main_arg11) = (m ((c : Thread nD τ).loc main_arg11)) :=
  (KHost.host2_keeps (W4 m ρ c) main_arg11 (by decide)).trans (keep4_arg11 m ρ c)
theorem keep6_arg0 : W6 m ρ c (Proc.devRef .tc main_arg0) = (m ((c : Thread nD τ).loc main_arg0)) :=
  (W6_of_ne m ρ c main_arg0 (by decide)).trans (keep5_arg0 m ρ c)
theorem keep6_arg1 : W6 m ρ c (Proc.devRef .tc main_arg1) = (m ((c : Thread nD τ).loc main_arg1)) :=
  (W6_of_ne m ρ c main_arg1 (by decide)).trans (keep5_arg1 m ρ c)
theorem keep6_arg2 : W6 m ρ c (Proc.devRef .tc main_arg2) = (m ((c : Thread nD τ).loc main_arg2)) :=
  (W6_of_ne m ρ c main_arg2 (by decide)).trans (keep5_arg2 m ρ c)
theorem keep6_arg3 : W6 m ρ c (Proc.devRef .tc main_arg3) = (m ((c : Thread nD τ).loc main_arg3)) :=
  (W6_of_ne m ρ c main_arg3 (by decide)).trans (keep5_arg3 m ρ c)
theorem keep6_arg4 : W6 m ρ c (Proc.devRef .tc main_arg4) = (m ((c : Thread nD τ).loc main_arg4)) :=
  (W6_of_ne m ρ c main_arg4 (by decide)).trans (keep5_arg4 m ρ c)
theorem keep6_arg5 : W6 m ρ c (Proc.devRef .tc main_arg5) = (m ((c : Thread nD τ).loc main_arg5)) :=
  (W6_of_ne m ρ c main_arg5 (by decide)).trans (keep5_arg5 m ρ c)
theorem keep6_arg6 : W6 m ρ c (Proc.devRef .tc main_arg6) = (m ((c : Thread nD τ).loc main_arg6)) :=
  (W6_of_ne m ρ c main_arg6 (by decide)).trans (keep5_arg6 m ρ c)
theorem keep6_arg7 : W6 m ρ c (Proc.devRef .tc main_arg7) = (m ((c : Thread nD τ).loc main_arg7)) :=
  (W6_of_ne m ρ c main_arg7 (by decide)).trans (keep5_arg7 m ρ c)
theorem keep6_arg8 : W6 m ρ c (Proc.devRef .tc main_arg8) = (m ((c : Thread nD τ).loc main_arg8)) :=
  (W6_of_ne m ρ c main_arg8 (by decide)).trans (keep5_arg8 m ρ c)
theorem keep6_arg9 : W6 m ρ c (Proc.devRef .tc main_arg9) = (m ((c : Thread nD τ).loc main_arg9)) :=
  (W6_of_ne m ρ c main_arg9 (by decide)).trans (keep5_arg9 m ρ c)
theorem keep6_arg10 : W6 m ρ c (Proc.devRef .tc main_arg10) = (m ((c : Thread nD τ).loc main_arg10)) :=
  (W6_of_ne m ρ c main_arg10 (by decide)).trans (keep5_arg10 m ρ c)
theorem keep6_arg11 : W6 m ρ c (Proc.devRef .tc main_arg11) = (m ((c : Thread nD τ).loc main_arg11)) :=
  (W6_of_ne m ρ c main_arg11 (by decide)).trans (keep5_arg11 m ρ c)
theorem keep7_arg0 : W7 m ρ c (Proc.devRef .tc main_arg0) = (m ((c : Thread nD τ).loc main_arg0)) :=
  (W7_of_ne m ρ c main_arg0 (by decide)).trans (keep6_arg0 m ρ c)
theorem keep7_arg1 : W7 m ρ c (Proc.devRef .tc main_arg1) = (m ((c : Thread nD τ).loc main_arg1)) :=
  (W7_of_ne m ρ c main_arg1 (by decide)).trans (keep6_arg1 m ρ c)
theorem keep7_arg2 : W7 m ρ c (Proc.devRef .tc main_arg2) = (m ((c : Thread nD τ).loc main_arg2)) :=
  (W7_of_ne m ρ c main_arg2 (by decide)).trans (keep6_arg2 m ρ c)
theorem keep7_arg3 : W7 m ρ c (Proc.devRef .tc main_arg3) = (m ((c : Thread nD τ).loc main_arg3)) :=
  (W7_of_ne m ρ c main_arg3 (by decide)).trans (keep6_arg3 m ρ c)
theorem keep7_arg4 : W7 m ρ c (Proc.devRef .tc main_arg4) = (m ((c : Thread nD τ).loc main_arg4)) :=
  (W7_of_ne m ρ c main_arg4 (by decide)).trans (keep6_arg4 m ρ c)
theorem keep7_arg5 : W7 m ρ c (Proc.devRef .tc main_arg5) = (m ((c : Thread nD τ).loc main_arg5)) :=
  (W7_of_ne m ρ c main_arg5 (by decide)).trans (keep6_arg5 m ρ c)
theorem keep7_arg6 : W7 m ρ c (Proc.devRef .tc main_arg6) = (m ((c : Thread nD τ).loc main_arg6)) :=
  (W7_of_ne m ρ c main_arg6 (by decide)).trans (keep6_arg6 m ρ c)
theorem keep7_arg7 : W7 m ρ c (Proc.devRef .tc main_arg7) = (m ((c : Thread nD τ).loc main_arg7)) :=
  (W7_of_ne m ρ c main_arg7 (by decide)).trans (keep6_arg7 m ρ c)
theorem keep7_arg8 : W7 m ρ c (Proc.devRef .tc main_arg8) = (m ((c : Thread nD τ).loc main_arg8)) :=
  ((W7_arr m ρ c 1).trans (((dat3 (V6 m ρ) c).arrAt_in 1 rfl _).trans (A_eq3 (V6 m ρ) c 1))).trans (keep6_arg8 m ρ c)
theorem keep7_arg9 : W7 m ρ c (Proc.devRef .tc main_arg9) = (m ((c : Thread nD τ).loc main_arg9)) :=
  (W7_of_ne m ρ c main_arg9 (by decide)).trans (keep6_arg9 m ρ c)
theorem keep7_arg10 : W7 m ρ c (Proc.devRef .tc main_arg10) = (m ((c : Thread nD τ).loc main_arg10)) :=
  (W7_of_ne m ρ c main_arg10 (by decide)).trans (keep6_arg10 m ρ c)
theorem keep7_arg11 : W7 m ρ c (Proc.devRef .tc main_arg11) = (m ((c : Thread nD τ).loc main_arg11)) :=
  (W7_of_ne m ρ c main_arg11 (by decide)).trans (keep6_arg11 m ρ c)
theorem keep8_arg0 : W8 m ρ c (Proc.devRef .tc main_arg0) = (m ((c : Thread nD τ).loc main_arg0)) :=
  (KHost.host4_keeps (W7 m ρ c) main_arg0 (by decide)).trans (keep7_arg0 m ρ c)
theorem keep8_arg1 : W8 m ρ c (Proc.devRef .tc main_arg1) = (m ((c : Thread nD τ).loc main_arg1)) :=
  (KHost.host4_keeps (W7 m ρ c) main_arg1 (by decide)).trans (keep7_arg1 m ρ c)
theorem keep8_arg2 : W8 m ρ c (Proc.devRef .tc main_arg2) = (m ((c : Thread nD τ).loc main_arg2)) :=
  (KHost.host4_keeps (W7 m ρ c) main_arg2 (by decide)).trans (keep7_arg2 m ρ c)
theorem keep8_arg3 : W8 m ρ c (Proc.devRef .tc main_arg3) = (m ((c : Thread nD τ).loc main_arg3)) :=
  (KHost.host4_keeps (W7 m ρ c) main_arg3 (by decide)).trans (keep7_arg3 m ρ c)
theorem keep8_arg4 : W8 m ρ c (Proc.devRef .tc main_arg4) = (m ((c : Thread nD τ).loc main_arg4)) :=
  (KHost.host4_keeps (W7 m ρ c) main_arg4 (by decide)).trans (keep7_arg4 m ρ c)
theorem keep8_arg5 : W8 m ρ c (Proc.devRef .tc main_arg5) = (m ((c : Thread nD τ).loc main_arg5)) :=
  (KHost.host4_keeps (W7 m ρ c) main_arg5 (by decide)).trans (keep7_arg5 m ρ c)
theorem keep8_arg6 : W8 m ρ c (Proc.devRef .tc main_arg6) = (m ((c : Thread nD τ).loc main_arg6)) :=
  (KHost.host4_keeps (W7 m ρ c) main_arg6 (by decide)).trans (keep7_arg6 m ρ c)
theorem keep8_arg7 : W8 m ρ c (Proc.devRef .tc main_arg7) = (m ((c : Thread nD τ).loc main_arg7)) :=
  (KHost.host4_keeps (W7 m ρ c) main_arg7 (by decide)).trans (keep7_arg7 m ρ c)
theorem keep8_arg8 : W8 m ρ c (Proc.devRef .tc main_arg8) = (m ((c : Thread nD τ).loc main_arg8)) :=
  (KHost.host4_keeps (W7 m ρ c) main_arg8 (by decide)).trans (keep7_arg8 m ρ c)
theorem keep8_arg9 : W8 m ρ c (Proc.devRef .tc main_arg9) = (m ((c : Thread nD τ).loc main_arg9)) :=
  (KHost.host4_keeps (W7 m ρ c) main_arg9 (by decide)).trans (keep7_arg9 m ρ c)
theorem keep8_arg10 : W8 m ρ c (Proc.devRef .tc main_arg10) = (m ((c : Thread nD τ).loc main_arg10)) :=
  (KHost.host4_keeps (W7 m ρ c) main_arg10 (by decide)).trans (keep7_arg10 m ρ c)
theorem keep8_arg11 : W8 m ρ c (Proc.devRef .tc main_arg11) = (m ((c : Thread nD τ).loc main_arg11)) :=
  (KHost.host4_keeps (W7 m ρ c) main_arg11 (by decide)).trans (keep7_arg11 m ρ c)

/-! ## The two grouping tables, from the stretch that writes them to the region that reads them -/

theorem tab1_cst : (W1 m ρ c (Proc.devRef .tc main_cst) : S128x32.Idx → EReal) = fun i => FloatOps.ofBits (F := Ideal) .f32 (lit0 (S128x32.rowMajor i)) :=
  KHost.host0_cst (W0 m ρ c)
theorem tab2_cst : (W2 m ρ c (Proc.devRef .tc main_cst) : S128x32.Idx → EReal) = fun i => FloatOps.ofBits (F := Ideal) .f32 (lit0 (S128x32.rowMajor i)) :=
  (W2_of_ne m ρ c main_cst (by decide)).trans (tab1_cst m ρ c)
theorem tab3_cst : (W3 m ρ c (Proc.devRef .tc main_cst) : S128x32.Idx → EReal) = fun i => FloatOps.ofBits (F := Ideal) .f32 (lit0 (S128x32.rowMajor i)) :=
  (KHost.host1_keeps (W2 m ρ c) main_cst (by decide)).trans (tab2_cst m ρ c)
theorem tab4_cst : (W4 m ρ c (Proc.devRef .tc main_cst) : S128x32.Idx → EReal) = fun i => FloatOps.ofBits (F := Ideal) .f32 (lit0 (S128x32.rowMajor i)) :=
  (W4_of_ne m ρ c main_cst (by decide)).trans (tab3_cst m ρ c)
theorem tab5_cst : (V5 m ρ c main_cst : S128x32.Idx → EReal) = fun i => FloatOps.ofBits (F := Ideal) .f32 (lit0 (S128x32.rowMajor i)) :=
  (KHost.host2_keeps (W4 m ρ c) main_cst (by decide)).trans (tab4_cst m ρ c)
theorem tab1_cst_0 : (W1 m ρ c (Proc.devRef .tc main_cst_0) : S32x128.Idx → EReal) = fun i => FloatOps.ofBits (F := Ideal) .f32 (lit1 (S32x128.rowMajor i)) :=
  KHost.host0_cst0 (W0 m ρ c)
theorem tab2_cst_0 : (W2 m ρ c (Proc.devRef .tc main_cst_0) : S32x128.Idx → EReal) = fun i => FloatOps.ofBits (F := Ideal) .f32 (lit1 (S32x128.rowMajor i)) :=
  (W2_of_ne m ρ c main_cst_0 (by decide)).trans (tab1_cst_0 m ρ c)
theorem tab3_cst_0 : (W3 m ρ c (Proc.devRef .tc main_cst_0) : S32x128.Idx → EReal) = fun i => FloatOps.ofBits (F := Ideal) .f32 (lit1 (S32x128.rowMajor i)) :=
  (KHost.host1_keeps (W2 m ρ c) main_cst_0 (by decide)).trans (tab2_cst_0 m ρ c)
theorem tab4_cst_0 : (W4 m ρ c (Proc.devRef .tc main_cst_0) : S32x128.Idx → EReal) = fun i => FloatOps.ofBits (F := Ideal) .f32 (lit1 (S32x128.rowMajor i)) :=
  (W4_of_ne m ρ c main_cst_0 (by decide)).trans (tab3_cst_0 m ρ c)
theorem tab5_cst_0 : (V5 m ρ c main_cst_0 : S32x128.Idx → EReal) = fun i => FloatOps.ofBits (F := Ideal) .f32 (lit1 (S32x128.rowMajor i)) :=
  (KHost.host2_keeps (W4 m ρ c) main_cst_0 (by decide)).trans (tab4_cst_0 m ρ c)

/-! ## The value at each boundary -/

/-- After region 0: `x · W0`. -/
theorem val2_v0 : (W2 m ρ c (Proc.devRef .tc main_v0) : S50000x128.Idx → EReal) = RefSpec.mm128 (m ((c : Thread nD τ).loc main_arg0)) (m ((c : Thread nD τ).loc main_arg4)) :=
  ((W2_arr m ρ c 2).trans (KValue.region0 (V1 m ρ) c)).trans
    (congrArg₂ RefSpec.mm128 (keep1_arg0 m ρ c) (keep1_arg4 m ρ c))

/-- Before region 1: the first aggregation, and the row of `b0`. -/
theorem val3_v13 : (V3 m ρ c main_v13 : S50000x128.Idx → EReal) = RefSpec.agg128 (RefSpec.mm128 (m ((c : Thread nD τ).loc main_arg0)) (m ((c : Thread nD τ).loc main_arg4))) (m ((c : Thread nD τ).loc main_arg1)) (m ((c : Thread nD τ).loc main_arg2)) (m ((c : Thread nD τ).loc main_arg3)) :=
  (KHost.host1_agg (W2 m ρ c)).trans
    (agg128_congr (val2_v0 m ρ c) (keep2_arg1 m ρ c) (keep2_arg2 m ρ c) (keep2_arg3 m ρ c))
theorem val3_v14 : (V3 m ρ c main_v14 : S1x128.Idx → EReal) = broadcastInDim Cert.ReferenceIdeal.S1x128 ![1] Cert.ReferenceIdeal.Facts₀.bcast_S128_S1x128_1 (m ((c : Thread nD τ).loc main_arg5)) :=
  (KHost.host1_b0 (W2 m ρ c)).trans (congrArg (broadcastInDim Cert.ReferenceIdeal.S1x128 ![1] Cert.ReferenceIdeal.Facts₀.bcast_S128_S1x128_1) (keep2_arg5 m ρ c))

/-- After region 1: `relu (agg + b0) · W1`. -/
theorem val4_v15 : (W4 m ρ c (Proc.devRef .tc main_v15) : S50000x128.Idx → EReal)
    = RefSpec.mm128 (RefSpec.relu128 (RefSpec.bias128 (RefSpec.agg128 (RefSpec.mm128 (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)))) (m ((c : Thread nD τ).loc main_arg6)) :=
  ((W4_arr m ρ c 3).trans (KValue.region1 (V3 m ρ) c (m ((c : Thread nD τ).loc main_arg5)) (val3_v14 m ρ c))).trans
    (congrArg₂ (fun a W => RefSpec.mm128 (RefSpec.relu128 (RefSpec.bias128 a (m ((c : Thread nD τ).loc main_arg5)))) W)
      (val3_v13 m ρ c) (keep3_arg6 m ρ c))

/-- Before region 2: the second aggregation, and the rows of `b1`, `γ`, `β`. -/
theorem val5_v28 : (V5 m ρ c main_v28 : S50000x128.Idx → EReal) = RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (KHost.host2_agg (W4 m ρ c)).trans
    (agg128_congr (val4_v15 m ρ c) (keep4_arg1 m ρ c) (keep4_arg2 m ρ c) (keep4_arg3 m ρ c))
theorem val5_v29 : (V5 m ρ c main_v29 : S1x128.Idx → EReal) = broadcastInDim Cert.ReferenceIdeal.S1x128 ![1] Cert.ReferenceIdeal.Facts₀.bcast_S128_S1x128_1 (m ((c : Thread nD τ).loc main_arg7)) :=
  (KHost.host2_b1 (W4 m ρ c)).trans (congrArg (broadcastInDim Cert.ReferenceIdeal.S1x128 ![1] Cert.ReferenceIdeal.Facts₀.bcast_S128_S1x128_1) (keep4_arg7 m ρ c))
theorem val5_v30 : (V5 m ρ c main_v30 : S1x128.Idx → EReal) = broadcastInDim Cert.ReferenceIdeal.S1x128 ![1] Cert.ReferenceIdeal.Facts₀.bcast_S128_S1x128_1 (m ((c : Thread nD τ).loc main_arg10)) :=
  (KHost.host2_gamma (W4 m ρ c)).trans (congrArg (broadcastInDim Cert.ReferenceIdeal.S1x128 ![1] Cert.ReferenceIdeal.Facts₀.bcast_S128_S1x128_1) (keep4_arg10 m ρ c))
theorem val5_v31 : (V5 m ρ c main_v31 : S1x128.Idx → EReal) = broadcastInDim Cert.ReferenceIdeal.S1x128 ![1] Cert.ReferenceIdeal.Facts₀.bcast_S128_S1x128_1 (m ((c : Thread nD τ).loc main_arg11)) :=
  (KHost.host2_beta (W4 m ρ c)).trans (congrArg (broadcastInDim Cert.ReferenceIdeal.S1x128 ![1] Cert.ReferenceIdeal.Facts₀.bcast_S128_S1x128_1) (keep4_arg11 m ρ c))

/-- After region 2: the group-normalised activations (the variance identity needs the real witnesses). -/
theorem val6_v32 (hagg : ∀ i, ∃ r : ℝ, (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i = (r : EReal)) (hb1 : ∀ j, ∃ r : ℝ, (m ((c : Thread nD τ).loc main_arg7)) j = (r : EReal)) :
    (V6 m ρ c main_v32 : S50000x128.Idx → EReal) = RefSpec.gnorm (RefSpec.relu128 (RefSpec.bias128 (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)))) (m ((c : Thread nD τ).loc main_arg10)) (m ((c : Thread nD τ).loc main_arg11)) :=
  ((W6_arr m ρ c 6).trans (KValue.region2 (V5 m ρ) c (m ((c : Thread nD τ).loc main_arg7)) (m ((c : Thread nD τ).loc main_arg10)) (m ((c : Thread nD τ).loc main_arg11))
      (val5_v29 m ρ c) (val5_v30 m ρ c) (val5_v31 m ρ c) (tab5_cst m ρ c) (tab5_cst_0 m ρ c)
      (fun i => by rw [val5_v28 m ρ c]; exact hagg i) hb1)).trans
    (congrArg (fun a => RefSpec.gnorm (RefSpec.relu128 (RefSpec.bias128 a (m ((c : Thread nD τ).loc main_arg7)))) (m ((c : Thread nD τ).loc main_arg10)) (m ((c : Thread nD τ).loc main_arg11))) (val5_v28 m ρ c))

/-- After region 3: the head's product. -/
theorem val7_v33 (hagg : ∀ i, ∃ r : ℝ, (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i = (r : EReal)) (hb1 : ∀ j, ∃ r : ℝ, (m ((c : Thread nD τ).loc main_arg7)) j = (r : EReal)) :
    (W7 m ρ c (Proc.devRef .tc main_v33) : S50000x40.Idx → EReal) = RefSpec.mm40 (RefSpec.gnorm (RefSpec.relu128 (RefSpec.bias128 (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)))) (m ((c : Thread nD τ).loc main_arg10)) (m ((c : Thread nD τ).loc main_arg11))) (m ((c : Thread nD τ).loc main_arg8)) :=
  ((W7_arr m ρ c 2).trans (KValue.region3 (V6 m ρ) c)).trans
    (congrArg₂ RefSpec.mm40 (val6_v32 m ρ c hagg hb1) (keep6_arg8 m ρ c))

/-- Before region 4: the third aggregation, and the row of `b2`. -/
theorem val8_v46 (hagg : ∀ i, ∃ r : ℝ, (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i = (r : EReal)) (hb1 : ∀ j, ∃ r : ℝ, (m ((c : Thread nD τ).loc main_arg7)) j = (r : EReal)) :
    (V8 m ρ c main_v46 : S50000x40.Idx → EReal) = RefSpec.agg40 (RefSpec.mm40 (RefSpec.gnorm (RefSpec.relu128 (RefSpec.bias128 (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)))) (m ((c : Thread nD τ).loc main_arg10)) (m ((c : Thread nD τ).loc main_arg11))) (m ((c : Thread nD τ).loc main_arg8))) (m ((c : Thread nD τ).loc main_arg1)) (m ((c : Thread nD τ).loc main_arg2)) (m ((c : Thread nD τ).loc main_arg3)) :=
  (KHost.host4_agg (W7 m ρ c)).trans
    (agg40_congr (val7_v33 m ρ c hagg hb1) (keep7_arg1 m ρ c) (keep7_arg2 m ρ c) (keep7_arg3 m ρ c))
theorem val8_v47 : (V8 m ρ c main_v47 : S1x40.Idx → EReal) = broadcastInDim Cert.ReferenceIdeal.S1x40 ![1] Cert.ReferenceIdeal.Facts₀.bcast_S40_S1x40_1 (m ((c : Thread nD τ).loc main_arg9)) :=
  (KHost.host4_b2 (W7 m ρ c)).trans (congrArg (broadcastInDim Cert.ReferenceIdeal.S1x40 ![1] Cert.ReferenceIdeal.Facts₀.bcast_S40_S1x40_1) (keep7_arg9 m ρ c))

/-- After region 4: the result buffer holds the reference's composition of the layers. -/
theorem val9_v48 (hagg : ∀ i, ∃ r : ℝ, (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i = (r : EReal)) (hb1 : ∀ j, ∃ r : ℝ, (m ((c : Thread nD τ).loc main_arg7)) j = (r : EReal)) :
    (W9 m ρ c (Proc.devRef .tc main_v48) : S50000x40.Idx → EReal) = RefSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((W9_arr m ρ c 2).trans (KValue.region4 (V8 m ρ) c (m ((c : Thread nD τ).loc main_arg9)) (val8_v47 m ρ c))).trans
    ((congrArg (fun a => RefSpec.logSoftmax (RefSpec.bias40 a (m ((c : Thread nD τ).loc main_arg9)))) (val8_v46 m ρ c hagg hb1)).trans rfl)

/-! ## The run -/

set_option backward.isDefEq.respectTransparency.types false in
/-- Every weakly fair execution of the kernel program terminates without a fault, the result buffer holding the
    reference's composition of the layers of the argument arrays, which end unchanged: the frame certificate's
    launch over the nine segments, with the result buffer read off the last boundary's contents as well. -/
theorem run (hagg : ∀ (c : Dev nD) i, ∃ r : ℝ, (RefSpec.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i = (r : EReal))
    (hb1 : ∀ (c : Dev nD) j, ∃ r : ℝ, (m ((c : Thread nD τ).loc main_arg7)) j = (r : EReal)) :
    θ_run defs (onTc (τ := τ) (main (F := Ideal))) ⟨m, fun _ => 0, ρ⟩ (fun r => ∀ c : Dev nD,
      r.2.mem ((c.tc : Thread nD τ).loc main_v48) = RefSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v48 (by decide))).trans (val9_v48 m ρ c (hagg c) (hb1 c)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KRun

end
-- ==== Proof.RefRunDefs.lean ====
/-
  The reference's @main as a straight line of host operations, every call of an outlined function replaced by
  the callee's operations over that call's own buffers, cut at the layer boundaries into consecutive stretches.
-/
import proofs.«106202_j40956808135033_1_alg».proof.ReferenceIdeal
import proofs.«106202_j40956808135033_1_alg».proof.Proof.Gen.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first layer: `x·W0`, the aggregation over the edges, the bias and the rectifier. -/
abbrev opsA : List (HloOp τ sig (Elt F)) :=
  (StableHlo.binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) ::
  (StableHlo.unary main_arg3 main_v1 (broadcastInDim S800000x1 ![0] bcast_S800000_S800000x1_0 : (⟨S800000, .f32⟩ : BufTy).Contents (Elt F) → (⟨S800000x1, .f32⟩ : BufTy).Contents (Elt F))) ::
  (StableHlo.nullary main_c (constantI S_ 32 0#32)) ::
  (StableHlo.unary main_c main_v2 (broadcastInDim S800000 ![] bcast_S_S800000 : (⟨S_, .i32⟩ : BufTy).Contents (Elt F) → (⟨S800000, .i32⟩ : BufTy).Contents (Elt F))) ::
  (StableHlo.binary main_arg1 main_v2 main_v3 (cmpi .slt : (⟨S800000, .i32⟩ : BufTy).Contents (Elt F) → (⟨S800000, .i32⟩ : BufTy).Contents (Elt F) → (⟨S800000, .i1⟩ : BufTy).Contents (Elt F))) ::
  (StableHlo.nullary main_c_0 (constantI S_ 32 50000#32)) ::
  (StableHlo.unary main_c_0 main_v4 (broadcastInDim S800000 ![] bcast_S_S800000 : (⟨S_, .i32⟩ : BufTy).Contents (Elt F) → (⟨S800000, .i32⟩ : BufTy).Contents (Elt F))) ::
  (StableHlo.binary main_arg1 main_v4 main_v5 (addi : (⟨S800000, .i32⟩ : BufTy).Contents (Elt F) → (⟨S800000, .i32⟩ : BufTy).Contents (Elt F) → (⟨S800000, .i32⟩ : BufTy).Contents (Elt F))) ::
  (StableHlo.ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) ::
  (StableHlo.unary main_v6 main_v7 (broadcastInDim S800000x1 ![0] bcast_S800000_S800000x1_0 : (⟨S800000, .i32⟩ : BufTy).Contents (Elt F) → (⟨S800000x1, .i32⟩ : BufTy).Contents (Elt F))) ::
  (StableHlo.binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))) ::
  (StableHlo.unary main_v1 main_v9 (broadcastInDim S800000x128 ![0, 1] bcast_S800000x1_S800000x128_0_1 : (⟨S800000x1, .f32⟩ : BufTy).Contents (Elt F) → (⟨S800000x128, .f32⟩ : BufTy).Contents (Elt F))) ::
  (StableHlo.binary main_v9 main_v8 main_v10 (mulf : (⟨S800000x128, .f32⟩ : BufTy).Contents (Elt F) → (⟨S800000x128, .f32⟩ : BufTy).Contents (Elt F) → (⟨S800000x128, .f32⟩ : BufTy).Contents (Elt F))) ::
  (StableHlo.nullary main_cst (constant S_ .f32 0x00000000#32)) ::
  (StableHlo.unary main_cst main_v11 (broadcastInDim S50000x128 ![] bcast_S_S50000x128 : (⟨S_, .f32⟩ : BufTy).Contents (Elt F) → (⟨S50000x128, .f32⟩ : BufTy).Contents (Elt F))) ::
  (StableHlo.unary main_arg2 main_v12 (broadcastInDim S800000x1 ![0] bcast_S800000_S800000x1_0 : (⟨S800000, .i32⟩ : BufTy).Contents (Elt F) → (⟨S800000x1, .i32⟩ : BufTy).Contents (Elt F))) ::
  (StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))) ::
  (StableHlo.unary main_arg5 main_v14 (broadcastInDim S1x128 ![1] bcast_S128_S1x128_1 : (⟨S128, .f32⟩ : BufTy).Contents (Elt F) → (⟨S1x128, .f32⟩ : BufTy).Contents (Elt F))) ::
  (StableHlo.unary main_v14 main_v15 (broadcastInDim S50000x128 ![0, 1] bcast_S1x128_S50000x128_0_1 : (⟨S1x128, .f32⟩ : BufTy).Contents (Elt F) → (⟨S50000x128, .f32⟩ : BufTy).Contents (Elt F))) ::
  (StableHlo.binary main_v13 main_v15 main_v16 (addf : (⟨S50000x128, .f32⟩ : BufTy).Contents (Elt F) → (⟨S50000x128, .f32⟩ : BufTy).Contents (Elt F) → (⟨S50000x128, .f32⟩ : BufTy).Contents (Elt F))) ::
  (StableHlo.TRef.nullary main_call0.cst (constant S_ .f32 0x00000000#32)) ::
  (StableHlo.TRef.unary main_call0.cst main_call0.v0 (broadcastInDim S50000x128 ![] bcast_S_S50000x128)) ::
  (StableHlo.TRef.binary (.of main_v16 : StableHlo.TRef sig ⟨S50000x128, .f32⟩) main_call0.v0 main_call0.v1 maximumf) :: []

/-- The second layer: the product with `W1`, the aggregation, the bias and the rectifier. -/
abbrev opsB : List (HloOp τ sig (Elt F)) :=
  (StableHlo.binary main_v17 main_arg6 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) ::
  (StableHlo.unary main_arg3 main_v19 (broadcastInDim S800000x1 ![0] bcast_S800000_S800000x1_0 : (⟨S800000, .f32⟩ : BufTy).Contents (Elt F) → (⟨S800000x1, .f32⟩ : BufTy).Contents (Elt F))) ::
  (StableHlo.nullary main_c_1 (constantI S_ 32 0#32)) ::
  (StableHlo.unary main_c_1 main_v20 (broadcastInDim S800000 ![] bcast_S_S800000 : (⟨S_, .i32⟩ : BufTy).Contents (Elt F) → (⟨S800000, .i32⟩ : BufTy).Contents (Elt F))) ::
  (StableHlo.binary main_arg1 main_v20 main_v21 (cmpi .slt : (⟨S800000, .i32⟩ : BufTy).Contents (Elt F) → (⟨S800000, .i32⟩ : BufTy).Contents (Elt F) → (⟨S800000, .i1⟩ : BufTy).Contents (Elt F))) ::
  (StableHlo.nullary main_c_2 (constantI S_ 32 50000#32)) ::
  (StableHlo.unary main_c_2 main_v22 (broadcastInDim S800000 ![] bcast_S_S800000 : (⟨S_, .i32⟩ : BufTy).Contents (Elt F) → (⟨S800000, .i32⟩ : BufTy).Contents (Elt F))) ::
  (StableHlo.binary main_arg1 main_v22 main_v23 (addi : (⟨S800000, .i32⟩ : BufTy).Contents (Elt F) → (⟨S800000, .i32⟩ : BufTy).Contents (Elt F) → (⟨S800000, .i32⟩ : BufTy).Contents (Elt F))) ::
  (StableHlo.ternary main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) ::
  (StableHlo.unary main_v24 main_v25 (broadcastInDim S800000x1 ![0] bcast_S800000_S800000x1_0 : (⟨S800000, .i32⟩ : BufTy).Contents (Elt F) → (⟨S800000x1, .i32⟩ : BufTy).Contents (Elt F))) ::
  (StableHlo.binary main_v18 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))) ::
  (StableHlo.unary main_v19 main_v27 (broadcastInDim S800000x128 ![0, 1] bcast_S800000x1_S800000x128_0_1 : (⟨S800000x1, .f32⟩ : BufTy).Contents (Elt F) → (⟨S800000x128, .f32⟩ : BufTy).Contents (Elt F))) ::
  (StableHlo.binary main_v27 main_v26 main_v28 (mulf : (⟨S800000x128, .f32⟩ : BufTy).Contents (Elt F) → (⟨S800000x128, .f32⟩ : BufTy).Contents (Elt F) → (⟨S800000x128, .f32⟩ : BufTy).Contents (Elt F))) ::
  (StableHlo.nullary main_cst_3 (constant S_ .f32 0x00000000#32)) ::
  (StableHlo.unary main_cst_3 main_v29 (broadcastInDim S50000x128 ![] bcast_S_S50000x128 : (⟨S_, .f32⟩ : BufTy).Contents (Elt F) → (⟨S50000x128, .f32⟩ : BufTy).Contents (Elt F))) ::
  (StableHlo.unary main_arg2 main_v30 (broadcastInDim S800000x1 ![0] bcast_S800000_S800000x1_0 : (⟨S800000, .i32⟩ : BufTy).Contents (Elt F) → (⟨S800000x1, .i32⟩ : BufTy).Contents (Elt F))) ::
  (StableHlo.ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))) ::
  (StableHlo.unary main_arg7 main_v32 (broadcastInDim S1x128 ![1] bcast_S128_S1x128_1 : (⟨S128, .f32⟩ : BufTy).Contents (Elt F) → (⟨S1x128, .f32⟩ : BufTy).Contents (Elt F))) ::
  (StableHlo.unary main_v32 main_v33 (broadcastInDim S50000x128 ![0, 1] bcast_S1x128_S50000x128_0_1 : (⟨S1x128, .f32⟩ : BufTy).Contents (Elt F) → (⟨S50000x128, .f32⟩ : BufTy).Contents (Elt F))) ::
  (StableHlo.binary main_v31 main_v33 main_v34 (addf : (⟨S50000x128, .f32⟩ : BufTy).Contents (Elt F) → (⟨S50000x128, .f32⟩ : BufTy).Contents (Elt F) → (⟨S50000x128, .f32⟩ : BufTy).Contents (Elt F))) ::
  (StableHlo.TRef.nullary main_call1.cst (constant S_ .f32 0x00000000#32)) ::
  (StableHlo.TRef.unary main_call1.cst main_call1.v0 (broadcastInDim S50000x128 ![] bcast_S_S50000x128)) ::
  (StableHlo.TRef.binary (.of main_v34 : StableHlo.TRef sig ⟨S50000x128, .f32⟩) main_call1.v0 main_call1.v1 maximumf) :: []

/-- The channels regrouped in fours and each group's mean. -/
abbrev opsC : List (HloOp τ sig (Elt F)) :=
  (StableHlo.reshape main_v35 main_v36 rfl shapeCasts_S50000x128_S50000x32x4) ::
  (StableHlo.nullary main_cst_4 (constant S_ .f32 0x00000000#32)) ::
  (StableHlo.binary main_v36 main_cst_4 main_v37 ((fun x v => Host.reduceAdd x v reducesTo_S50000x32x4_S50000x32_d2 h_S_) : (⟨S50000x32x4, .f32⟩ : BufTy).Contents (Elt F) → (⟨S_, .f32⟩ : BufTy).Contents (Elt F) → (⟨S50000x32, .f32⟩ : BufTy).Contents (Elt F))) ::
  (StableHlo.unary main_v37 main_v38 (broadcastInDim S50000x32x1 ![0, 1] bcast_S50000x32_S50000x32x1_0_1 : (⟨S50000x32, .f32⟩ : BufTy).Contents (Elt F) → (⟨S50000x32x1, .f32⟩ : BufTy).Contents (Elt F))) ::
  (StableHlo.nullary main_cst_5 (constant S_ .f32 0x40800000#32)) ::
  (StableHlo.unary main_cst_5 main_v39 (broadcastInDim S50000x32x1 ![] bcast_S_S50000x32x1 : (⟨S_, .f32⟩ : BufTy).Contents (Elt F) → (⟨S50000x32x1, .f32⟩ : BufTy).Contents (Elt F))) ::
  (StableHlo.binary main_v38 main_v39 main_v40 (Host.divf : (⟨S50000x32x1, .f32⟩ : BufTy).Contents (Elt F) → (⟨S50000x32x1, .f32⟩ : BufTy).Contents (Elt F) → (⟨S50000x32x1, .f32⟩ : BufTy).Contents (Elt F))) ::
  (StableHlo.nullary main_c_6 (constantI S_ 32 0#32)) :: []

/-- Each group's variance: the mean of the squared deviations, selected over the not-a-number literal. -/
abbrev opsD : List (HloOp τ sig (Elt F)) :=
  (StableHlo.TRef.nullary main_call2.cst (constant S_ .f32 0x00000000#32)) ::
  (StableHlo.TRef.binary (.of main_v36 : StableHlo.TRef sig ⟨S50000x32x4, .f32⟩) main_call2.cst main_call2.v0 (fun x v => Host.reduceAdd x v reducesTo_S50000x32x4_S50000x32_d2 h_S_)) ::
  (StableHlo.TRef.unary main_call2.v0 main_call2.v1 (broadcastInDim S50000x32x1 ![0, 1] bcast_S50000x32_S50000x32x1_0_1)) ::
  (StableHlo.TRef.nullary main_call2.cst_0 (constant S_ .f32 0x40800000#32)) ::
  (StableHlo.TRef.unary main_call2.cst_0 main_call2.v2 (broadcastInDim S50000x32x1 ![] bcast_S_S50000x32x1)) ::
  (StableHlo.TRef.binary main_call2.v1 main_call2.v2 main_call2.v3 Host.divf) ::
  (StableHlo.TRef.unary main_call2.v3 main_call2.v4 (broadcastInDim S50000x32x4 ![0, 1, 2] bcast_S50000x32x1_S50000x32x4_0_1_2)) ::
  (StableHlo.TRef.binary (.of main_v36 : StableHlo.TRef sig ⟨S50000x32x4, .f32⟩) main_call2.v4 main_call2.v5 subf) ::
  (StableHlo.TRef.binary main_call2.v5 main_call2.v5 main_call2.v6 mulf) ::
  (StableHlo.TRef.unary (.of main_c_6 : StableHlo.TRef sig ⟨S_, .i32⟩) main_call2.v7 (sitofp .f32)) ::
  (StableHlo.TRef.nullary main_call2.cst_1 (constant S_ .f32 0x40800000#32)) ::
  (StableHlo.TRef.binary main_call2.cst_1 main_call2.v7 main_call2.v8 subf) ::
  (StableHlo.TRef.nullary main_call2.cst_2 (constant S_ .f32 0x00000000#32)) ::
  (StableHlo.TRef.binary main_call2.v6 main_call2.cst_2 main_call2.v9 (fun x v => Host.reduceAdd x v reducesTo_S50000x32x4_S50000x32_d2 h_S_)) ::
  (StableHlo.TRef.unary main_call2.v9 main_call2.v10 (broadcastInDim S50000x32x1 ![0, 1] bcast_S50000x32_S50000x32x1_0_1)) ::
  (StableHlo.TRef.unary main_call2.v8 main_call2.v11 (broadcastInDim S50000x32x1 ![] bcast_S_S50000x32x1)) ::
  (StableHlo.TRef.binary main_call2.v10 main_call2.v11 main_call2.v12 Host.divf) ::
  (StableHlo.TRef.nullary main_call2.cst_3 (constant S_ .f32 0x00000000#32)) ::
  (StableHlo.TRef.binary main_call2.v8 main_call2.cst_3 main_call2.v13 (cmpf .ogt)) ::
  (StableHlo.TRef.nullary main_call2.cst_4 (constant S_ .f32 0x7FC00000#32)) ::
  (StableHlo.TRef.unary main_call2.cst_4 main_call2.call0.v0 id) ::
  (StableHlo.TRef.unary main_call2.call0.v0 main_call2.call0.v1 (broadcastInDim S50000x32x1 ![] bcast_S_S50000x32x1)) ::
  (StableHlo.TRef.ternary main_call2.v13 main_call2.v12 main_call2.call0.v1 main_call2.call0.v2 (fun p a b => select (broadcastInDim S50000x32x1 ![] bcast_S_S50000x32x1 p) a b)) :: []

/-- The deviations scaled by the reciprocal root of the variance plus the small constant, laid out flat again. -/
abbrev opsE : List (HloOp τ sig (Elt F)) :=
  (StableHlo.unary main_v40 main_v42 (broadcastInDim S50000x32x4 ![0, 1, 2] bcast_S50000x32x1_S50000x32x4_0_1_2 : (⟨S50000x32x1, .f32⟩ : BufTy).Contents (Elt F) → (⟨S50000x32x4, .f32⟩ : BufTy).Contents (Elt F))) ::
  (StableHlo.binary main_v36 main_v42 main_v43 (subf : (⟨S50000x32x4, .f32⟩ : BufTy).Contents (Elt F) → (⟨S50000x32x4, .f32⟩ : BufTy).Contents (Elt F) → (⟨S50000x32x4, .f32⟩ : BufTy).Contents (Elt F))) ::
  (StableHlo.nullary main_cst_7 (constant S_ .f32 0x3727C5AC#32)) ::
  (StableHlo.unary main_cst_7 main_v44 (broadcastInDim S50000x32x1 ![] bcast_S_S50000x32x1 : (⟨S_, .f32⟩ : BufTy).Contents (Elt F) → (⟨S50000x32x1, .f32⟩ : BufTy).Contents (Elt F))) ::
  (StableHlo.binary main_v41 main_v44 main_v45 (addf : (⟨S50000x32x1, .f32⟩ : BufTy).Contents (Elt F) → (⟨S50000x32x1, .f32⟩ : BufTy).Contents (Elt F) → (⟨S50000x32x1, .f32⟩ : BufTy).Contents (Elt F))) ::
  (StableHlo.unary main_v45 main_v46 (Host.rsqrt : (⟨S50000x32x1, .f32⟩ : BufTy).Contents (Elt F) → (⟨S50000x32x1, .f32⟩ : BufTy).Contents (Elt F))) ::
  (StableHlo.unary main_v46 main_v47 (broadcastInDim S50000x32x4 ![0, 1, 2] bcast_S50000x32x1_S50000x32x4_0_1_2 : (⟨S50000x32x1, .f32⟩ : BufTy).Contents (Elt F) → (⟨S50000x32x4, .f32⟩ : BufTy).Contents (Elt F))) ::
  (StableHlo.binary main_v43 main_v47 main_v48 (mulf : (⟨S50000x32x4, .f32⟩ : BufTy).Contents (Elt F) → (⟨S50000x32x4, .f32⟩ : BufTy).Contents (Elt F) → (⟨S50000x32x4, .f32⟩ : BufTy).Contents (Elt F))) ::
  (StableHlo.reshape main_v48 main_v49 rfl shapeCasts_S50000x32x4_S50000x128) :: []

/-- The per-channel scale and shift. -/
abbrev opsG : List (HloOp τ sig (Elt F)) :=
  (StableHlo.unary main_arg10 main_v50 (broadcastInDim S1x128 ![1] bcast_S128_S1x128_1 : (⟨S128, .f32⟩ : BufTy).Contents (Elt F) → (⟨S1x128, .f32⟩ : BufTy).Contents (Elt F))) ::
  (StableHlo.unary main_v50 main_v51 (broadcastInDim S50000x128 ![0, 1] bcast_S1x128_S50000x128_0_1 : (⟨S1x128, .f32⟩ : BufTy).Contents (Elt F) → (⟨S50000x128, .f32⟩ : BufTy).Contents (Elt F))) ::
  (StableHlo.binary main_v49 main_v51 main_v52 (mulf : (⟨S50000x128, .f32⟩ : BufTy).Contents (Elt F) → (⟨S50000x128, .f32⟩ : BufTy).Contents (Elt F) → (⟨S50000x128, .f32⟩ : BufTy).Contents (Elt F))) ::
  (StableHlo.unary main_arg11 main_v53 (broadcastInDim S1x128 ![1] bcast_S128_S1x128_1 : (⟨S128, .f32⟩ : BufTy).Contents (Elt F) → (⟨S1x128, .f32⟩ : BufTy).Contents (Elt F))) ::
  (StableHlo.unary main_v53 main_v54 (broadcastInDim S50000x128 ![0, 1] bcast_S1x128_S50000x128_0_1 : (⟨S1x128, .f32⟩ : BufTy).Contents (Elt F) → (⟨S50000x128, .f32⟩ : BufTy).Contents (Elt F))) ::
  (StableHlo.binary main_v52 main_v54 main_v55 (addf : (⟨S50000x128, .f32⟩ : BufTy).Contents (Elt F) → (⟨S50000x128, .f32⟩ : BufTy).Contents (Elt F) → (⟨S50000x128, .f32⟩ : BufTy).Contents (Elt F))) :: []

/-- The head: the product with `W2`, the aggregation over the edges and the bias. -/
abbrev opsH : List (HloOp τ sig (Elt F)) :=
  (StableHlo.binary main_v55 main_arg8 main_v56 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F))) ::
  (StableHlo.unary main_arg3 main_v57 (broadcastInDim S800000x1 ![0] bcast_S800000_S800000x1_0 : (⟨S800000, .f32⟩ : BufTy).Contents (Elt F) → (⟨S800000x1, .f32⟩ : BufTy).Contents (Elt F))) ::
  (StableHlo.nullary main_c_8 (constantI S_ 32 0#32)) ::
  (StableHlo.unary main_c_8 main_v58 (broadcastInDim S800000 ![] bcast_S_S800000 : (⟨S_, .i32⟩ : BufTy).Contents (Elt F) → (⟨S800000, .i32⟩ : BufTy).Contents (Elt F))) ::
  (StableHlo.binary main_arg1 main_v58 main_v59 (cmpi .slt : (⟨S800000, .i32⟩ : BufTy).Contents (Elt F) → (⟨S800000, .i32⟩ : BufTy).Contents (Elt F) → (⟨S800000, .i1⟩ : BufTy).Contents (Elt F))) ::
  (StableHlo.nullary main_c_9 (constantI S_ 32 50000#32)) ::
  (StableHlo.unary main_c_9 main_v60 (broadcastInDim S800000 ![] bcast_S_S800000 : (⟨S_, .i32⟩ : BufTy).Contents (Elt F) → (⟨S800000, .i32⟩ : BufTy).Contents (Elt F))) ::
  (StableHlo.binary main_arg1 main_v60 main_v61 (addi : (⟨S800000, .i32⟩ : BufTy).Contents (Elt F) → (⟨S800000, .i32⟩ : BufTy).Contents (Elt F) → (⟨S800000, .i32⟩ : BufTy).Contents (Elt F))) ::
  (StableHlo.ternary main_v59 main_v61 main_arg1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) ::
  (StableHlo.unary main_v62 main_v63 (broadcastInDim S800000x1 ![0] bcast_S800000_S800000x1_0 : (⟨S800000, .i32⟩ : BufTy).Contents (Elt F) → (⟨S800000x1, .i32⟩ : BufTy).Contents (Elt F))) ::
  (StableHlo.binary main_v56 main_v63 main_v64 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F))) ::
  (StableHlo.unary main_v57 main_v65 (broadcastInDim S800000x40 ![0, 1] bcast_S800000x1_S800000x40_0_1 : (⟨S800000x1, .f32⟩ : BufTy).Contents (Elt F) → (⟨S800000x40, .f32⟩ : BufTy).Contents (Elt F))) ::
  (StableHlo.binary main_v65 main_v64 main_v66 (mulf : (⟨S800000x40, .f32⟩ : BufTy).Contents (Elt F) → (⟨S800000x40, .f32⟩ : BufTy).Contents (Elt F) → (⟨S800000x40, .f32⟩ : BufTy).Contents (Elt F))) ::
  (StableHlo.nullary main_cst_10 (constant S_ .f32 0x00000000#32)) ::
  (StableHlo.unary main_cst_10 main_v67 (broadcastInDim S50000x40 ![] bcast_S_S50000x40 : (⟨S_, .f32⟩ : BufTy).Contents (Elt F) → (⟨S50000x40, .f32⟩ : BufTy).Contents (Elt F))) ::
  (StableHlo.unary main_arg2 main_v68 (broadcastInDim S800000x1 ![0] bcast_S800000_S800000x1_0 : (⟨S800000, .i32⟩ : BufTy).Contents (Elt F) → (⟨S800000x1, .i32⟩ : BufTy).Contents (Elt F))) ::
  (StableHlo.ternary main_v67 main_v68 main_v66 main_v69 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F))) ::
  (StableHlo.unary main_arg9 main_v70 (broadcastInDim S1x40 ![1] bcast_S40_S1x40_1 : (⟨S40, .f32⟩ : BufTy).Contents (Elt F) → (⟨S1x40, .f32⟩ : BufTy).Contents (Elt F))) ::
  (StableHlo.unary main_v70 main_v71 (broadcastInDim S50000x40 ![0, 1] bcast_S1x40_S50000x40_0_1 : (⟨S1x40, .f32⟩ : BufTy).Contents (Elt F) → (⟨S50000x40, .f32⟩ : BufTy).Contents (Elt F))) ::
  (StableHlo.binary main_v69 main_v71 main_v72 (addf : (⟨S50000x40, .f32⟩ : BufTy).Contents (Elt F) → (⟨S50000x40, .f32⟩ : BufTy).Contents (Elt F) → (⟨S50000x40, .f32⟩ : BufTy).Contents (Elt F))) :: []

/-- The logarithm of the softmax of each row. -/
abbrev opsL : List (HloOp τ sig (Elt F)) :=
  (StableHlo.TRef.nullary main_call3.cst (constant S_ .f32 0xFF800000#32)) ::
  (StableHlo.TRef.binary (.of main_v72 : StableHlo.TRef sig ⟨S50000x40, .f32⟩) main_call3.cst main_call3.v0 (fun x v => Host.reduce FloatOps.maximumf x v reducesTo_S50000x40_S50000_d1 h_S_)) ::
  (StableHlo.TRef.nullary main_call3.cst_0 (constant S_ .f32 0xFF800000#32)) ::
  (StableHlo.TRef.unary main_call3.cst_0 main_call3.v1 (broadcastInDim S50000 ![] bcast_S_S50000)) ::
  (StableHlo.TRef.binary main_call3.v1 main_call3.v0 main_call3.v2 maximumf) ::
  (StableHlo.TRef.unary main_call3.v2 main_call3.v3 (broadcastInDim S50000x1 ![0] bcast_S50000_S50000x1_0)) ::
  (StableHlo.TRef.unary main_call3.v3 main_call3.v4 (broadcastInDim S50000x40 ![0, 1] bcast_S50000x1_S50000x40_0_1)) ::
  (StableHlo.TRef.binary (.of main_v72 : StableHlo.TRef sig ⟨S50000x40, .f32⟩) main_call3.v4 main_call3.v5 subf) ::
  (StableHlo.TRef.unary main_call3.v5 main_call3.v6 Host.exp) ::
  (StableHlo.TRef.nullary main_call3.cst_1 (constant S_ .f32 0x00000000#32)) ::
  (StableHlo.TRef.binary main_call3.v6 main_call3.cst_1 main_call3.v7 (fun x v => Host.reduceAdd x v reducesTo_S50000x40_S50000_d1 h_S_)) ::
  (StableHlo.TRef.unary main_call3.v7 main_call3.v8 (broadcastInDim S50000x1 ![0] bcast_S50000_S50000x1_0)) ::
  (StableHlo.TRef.unary main_call3.v8 main_call3.v9 Host.log) ::
  (StableHlo.TRef.unary main_call3.v9 main_call3.v10 (broadcastInDim S50000x40 ![0, 1] bcast_S50000x1_S50000x40_0_1)) ::
  (StableHlo.TRef.binary main_call3.v5 main_call3.v10 main_call3.v11 subf) :: []

/-- The whole line. -/
abbrev ops : List (HloOp τ sig (Elt F)) :=
  opsA ++ (opsB ++ (opsC ++ (opsD ++ (opsE ++ (opsG ++ (opsH ++ opsL))))))

end Cert.RefRun

end
-- ==== Proof.RefRunSeq.lean ====
/-
  The reference's @main is the straight line of RefRunDefs: the outlined functions' definitions unfolded at their
  calls, both sides are one chain of host steps once sequencing is reassociated. Hence its run: every weakly fair
  execution terminates, each buffer holding the fold of the operations' results over the launch contents.
-/
import proofs.«106202_j40956808135033_1_alg».proof.Proof.RefRunDefs

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 4096 in
theorem part0_eq (c : Dev nD) : main_part0 (F := F) c = seq (opsA ++ (opsB ++ (opsC ++ (opsD ++ opsE)))) := by
  simp only [main_part0, fn_relu.body, fn_var.body, fn_where.body, bind_assoc, pure_bind]
  rfl

set_option maxRecDepth 4096 in
theorem part1_eq (c : Dev nD) : main_part1 (F := F) c = seq (opsG ++ (opsH ++ opsL)) := by
  simp only [main_part1, fn_log_softmax.body, bind_assoc, pure_bind]
  rfl

theorem main_eq (c : Dev nD) : main (F := F) c = seq ops := by
  have e : (ops : List (HloOp τ sig (Elt F))) = (opsA ++ (opsB ++ (opsC ++ (opsD ++ opsE)))) ++ (opsG ++ (opsH ++ opsL)) := by
    simp only [ops, List.append_assoc]
  rw [e, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., nullary_bufs_sub ..⟩
theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., reshape_bufs_sub ..⟩
theorem opsE_fresh : ∀ op ∈ (opsE : List (HloOp τ sig (Elt F))), op.fresh = ∅ := by
  intro _ h; (repeat (cases h with | head => rfl | tail _ h => ?_)); exact nomatch h

theorem opsG_sub : (opsG : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsG_fresh : ∀ op ∈ (opsG : List (HloOp τ sig (Elt F))), op.fresh = ∅ := by
  intro _ h; (repeat (cases h with | head => rfl | tail _ h => ?_)); exact nomatch h

theorem opsH_sub : (opsH : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem opsH_fresh : ∀ op ∈ (opsH : List (HloOp τ sig (Elt F))), op.fresh = ∅ := by
  intro _ h; (repeat (cases h with | head => rfl | tail _ h => ?_)); exact nomatch h

theorem opsL_sub : (opsL : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsL_fresh : ∀ op ∈ (opsL : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  rw [List.forall_iff_forall_mem]
  intro op h
  simp only [ops, List.mem_append] at h
  rcases h with h | h | h | h | h | h | h | h
  · exact List.forall_iff_forall_mem.mp opsA_sub op h
  · exact List.forall_iff_forall_mem.mp opsB_sub op h
  · exact List.forall_iff_forall_mem.mp opsC_sub op h
  · exact List.forall_iff_forall_mem.mp opsD_sub op h
  · exact List.forall_iff_forall_mem.mp opsE_sub op h
  · exact List.forall_iff_forall_mem.mp opsG_sub op h
  · exact List.forall_iff_forall_mem.mp opsH_sub op h
  · exact List.forall_iff_forall_mem.mp opsL_sub op h

theorem ops_fresh : ∀ op ∈ (ops : List (HloOp τ sig (Elt F))), op.fresh = ∅ := by
  intro op h
  simp only [ops, List.mem_append] at h
  rcases h with h | h | h | h | h | h | h | h
  · exact opsA_fresh op h
  · exact opsB_fresh op h
  · exact opsC_fresh op h
  · exact opsD_fresh op h
  · exact opsE_fresh op h
  · exact opsG_fresh op h
  · exact opsH_fresh op h
  · exact opsL_fresh op h

/-- Every weakly fair execution of @main terminates, and every final state has each buffer at the fold of the
    operations' results over its launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefRun

end
-- ==== Proof.RefRunPlain.lean ====
/-
  The stretches that hold an outlined function's operations, with each operation stated at its buffers directly:
  a typed reference's transport of contents along its type equation is the identity at these literal buffers.
-/
import proofs.«106202_j40956808135033_1_alg».proof.Proof.RefRunDefs

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

theorem cons_congr {α : Type} {a a' : α} {l l' : List α} (h : a = a') (hl : l = l') : a :: l = a' :: l' := by
  subst h hl; rfl

/-- The stretch `opsA`, each operation at its buffers. -/
abbrev opsA' : List (HloOp τ sig (Elt F)) :=
  (StableHlo.binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) ::
  (StableHlo.unary main_arg3 main_v1 (broadcastInDim S800000x1 ![0] bcast_S800000_S800000x1_0 : (⟨S800000, .f32⟩ : BufTy).Contents (Elt F) → (⟨S800000x1, .f32⟩ : BufTy).Contents (Elt F))) ::
  (StableHlo.nullary main_c (constantI S_ 32 0#32)) ::
  (StableHlo.unary main_c main_v2 (broadcastInDim S800000 ![] bcast_S_S800000 : (⟨S_, .i32⟩ : BufTy).Contents (Elt F) → (⟨S800000, .i32⟩ : BufTy).Contents (Elt F))) ::
  (StableHlo.binary main_arg1 main_v2 main_v3 (cmpi .slt : (⟨S800000, .i32⟩ : BufTy).Contents (Elt F) → (⟨S800000, .i32⟩ : BufTy).Contents (Elt F) → (⟨S800000, .i1⟩ : BufTy).Contents (Elt F))) ::
  (StableHlo.nullary main_c_0 (constantI S_ 32 50000#32)) ::
  (StableHlo.unary main_c_0 main_v4 (broadcastInDim S800000 ![] bcast_S_S800000 : (⟨S_, .i32⟩ : BufTy).Contents (Elt F) → (⟨S800000, .i32⟩ : BufTy).Contents (Elt F))) ::
  (StableHlo.binary main_arg1 main_v4 main_v5 (addi : (⟨S800000, .i32⟩ : BufTy).Contents (Elt F) → (⟨S800000, .i32⟩ : BufTy).Contents (Elt F) → (⟨S800000, .i32⟩ : BufTy).Contents (Elt F))) ::
  (StableHlo.ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) ::
  (StableHlo.unary main_v6 main_v7 (broadcastInDim S800000x1 ![0] bcast_S800000_S800000x1_0 : (⟨S800000, .i32⟩ : BufTy).Contents (Elt F) → (⟨S800000x1, .i32⟩ : BufTy).Contents (Elt F))) ::
  (StableHlo.binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))) ::
  (StableHlo.unary main_v1 main_v9 (broadcastInDim S800000x128 ![0, 1] bcast_S800000x1_S800000x128_0_1 : (⟨S800000x1, .f32⟩ : BufTy).Contents (Elt F) → (⟨S800000x128, .f32⟩ : BufTy).Contents (Elt F))) ::
  (StableHlo.binary main_v9 main_v8 main_v10 (mulf : (⟨S800000x128, .f32⟩ : BufTy).Contents (Elt F) → (⟨S800000x128, .f32⟩ : BufTy).Contents (Elt F) → (⟨S800000x128, .f32⟩ : BufTy).Contents (Elt F))) ::
  (StableHlo.nullary main_cst (constant S_ .f32 0x00000000#32)) ::
  (StableHlo.unary main_cst main_v11 (broadcastInDim S50000x128 ![] bcast_S_S50000x128 : (⟨S_, .f32⟩ : BufTy).Contents (Elt F) → (⟨S50000x128, .f32⟩ : BufTy).Contents (Elt F))) ::
  (StableHlo.unary main_arg2 main_v12 (broadcastInDim S800000x1 ![0] bcast_S800000_S800000x1_0 : (⟨S800000, .i32⟩ : BufTy).Contents (Elt F) → (⟨S800000x1, .i32⟩ : BufTy).Contents (Elt F))) ::
  (StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))) ::
  (StableHlo.unary main_arg5 main_v14 (broadcastInDim S1x128 ![1] bcast_S128_S1x128_1 : (⟨S128, .f32⟩ : BufTy).Contents (Elt F) → (⟨S1x128, .f32⟩ : BufTy).Contents (Elt F))) ::
  (StableHlo.unary main_v14 main_v15 (broadcastInDim S50000x128 ![0, 1] bcast_S1x128_S50000x128_0_1 : (⟨S1x128, .f32⟩ : BufTy).Contents (Elt F) → (⟨S50000x128, .f32⟩ : BufTy).Contents (Elt F))) ::
  (StableHlo.binary main_v13 main_v15 main_v16 (addf : (⟨S50000x128, .f32⟩ : BufTy).Contents (Elt F) → (⟨S50000x128, .f32⟩ : BufTy).Contents (Elt F) → (⟨S50000x128, .f32⟩ : BufTy).Contents (Elt F))) ::
  (StableHlo.nullary main_call0_cst (constant S_ .f32 0x00000000#32)) ::
  (StableHlo.unary main_call0_cst main_call0_v0 ((broadcastInDim S50000x128 ![] bcast_S_S50000x128) : (⟨S_, .f32⟩ : BufTy).Contents (Elt F) → (⟨S50000x128, .f32⟩ : BufTy).Contents (Elt F))) ::
  (StableHlo.binary main_v16 main_call0_v0 main_v17 ((maximumf) : (⟨S50000x128, .f32⟩ : BufTy).Contents (Elt F) → (⟨S50000x128, .f32⟩ : BufTy).Contents (Elt F) → (⟨S50000x128, .f32⟩ : BufTy).Contents (Elt F))) :: []

theorem opsA_eq : (opsA : List (HloOp τ sig (Elt F))) = opsA' := rfl

/-- The stretch `opsB`, each operation at its buffers. -/
abbrev opsB' : List (HloOp τ sig (Elt F)) :=
  (StableHlo.binary main_v17 main_arg6 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) ::
  (StableHlo.unary main_arg3 main_v19 (broadcastInDim S800000x1 ![0] bcast_S800000_S800000x1_0 : (⟨S800000, .f32⟩ : BufTy).Contents (Elt F) → (⟨S800000x1, .f32⟩ : BufTy).Contents (Elt F))) ::
  (StableHlo.nullary main_c_1 (constantI S_ 32 0#32)) ::
  (StableHlo.unary main_c_1 main_v20 (broadcastInDim S800000 ![] bcast_S_S800000 : (⟨S_, .i32⟩ : BufTy).Contents (Elt F) → (⟨S800000, .i32⟩ : BufTy).Contents (Elt F))) ::
  (StableHlo.binary main_arg1 main_v20 main_v21 (cmpi .slt : (⟨S800000, .i32⟩ : BufTy).Contents (Elt F) → (⟨S800000, .i32⟩ : BufTy).Contents (Elt F) → (⟨S800000, .i1⟩ : BufTy).Contents (Elt F))) ::
  (StableHlo.nullary main_c_2 (constantI S_ 32 50000#32)) ::
  (StableHlo.unary main_c_2 main_v22 (broadcastInDim S800000 ![] bcast_S_S800000 : (⟨S_, .i32⟩ : BufTy).Contents (Elt F) → (⟨S800000, .i32⟩ : BufTy).Contents (Elt F))) ::
  (StableHlo.binary main_arg1 main_v22 main_v23 (addi : (⟨S800000, .i32⟩ : BufTy).Contents (Elt F) → (⟨S800000, .i32⟩ : BufTy).Contents (Elt F) → (⟨S800000, .i32⟩ : BufTy).Contents (Elt F))) ::
  (StableHlo.ternary main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) ::
  (StableHlo.unary main_v24 main_v25 (broadcastInDim S800000x1 ![0] bcast_S800000_S800000x1_0 : (⟨S800000, .i32⟩ : BufTy).Contents (Elt F) → (⟨S800000x1, .i32⟩ : BufTy).Contents (Elt F))) ::
  (StableHlo.binary main_v18 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))) ::
  (StableHlo.unary main_v19 main_v27 (broadcastInDim S800000x128 ![0, 1] bcast_S800000x1_S800000x128_0_1 : (⟨S800000x1, .f32⟩ : BufTy).Contents (Elt F) → (⟨S800000x128, .f32⟩ : BufTy).Contents (Elt F))) ::
  (StableHlo.binary main_v27 main_v26 main_v28 (mulf : (⟨S800000x128, .f32⟩ : BufTy).Contents (Elt F) → (⟨S800000x128, .f32⟩ : BufTy).Contents (Elt F) → (⟨S800000x128, .f32⟩ : BufTy).Contents (Elt F))) ::
  (StableHlo.nullary main_cst_3 (constant S_ .f32 0x00000000#32)) ::
  (StableHlo.unary main_cst_3 main_v29 (broadcastInDim S50000x128 ![] bcast_S_S50000x128 : (⟨S_, .f32⟩ : BufTy).Contents (Elt F) → (⟨S50000x128, .f32⟩ : BufTy).Contents (Elt F))) ::
  (StableHlo.unary main_arg2 main_v30 (broadcastInDim S800000x1 ![0] bcast_S800000_S800000x1_0 : (⟨S800000, .i32⟩ : BufTy).Contents (Elt F) → (⟨S800000x1, .i32⟩ : BufTy).Contents (Elt F))) ::
  (StableHlo.ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))) ::
  (StableHlo.unary main_arg7 main_v32 (broadcastInDim S1x128 ![1] bcast_S128_S1x128_1 : (⟨S128, .f32⟩ : BufTy).Contents (Elt F) → (⟨S1x128, .f32⟩ : BufTy).Contents (Elt F))) ::
  (StableHlo.unary main_v32 main_v33 (broadcastInDim S50000x128 ![0, 1] bcast_S1x128_S50000x128_0_1 : (⟨S1x128, .f32⟩ : BufTy).Contents (Elt F) → (⟨S50000x128, .f32⟩ : BufTy).Contents (Elt F))) ::
  (StableHlo.binary main_v31 main_v33 main_v34 (addf : (⟨S50000x128, .f32⟩ : BufTy).Contents (Elt F) → (⟨S50000x128, .f32⟩ : BufTy).Contents (Elt F) → (⟨S50000x128, .f32⟩ : BufTy).Contents (Elt F))) ::
  (StableHlo.nullary main_call1_cst (constant S_ .f32 0x00000000#32)) ::
  (StableHlo.unary main_call1_cst main_call1_v0 ((broadcastInDim S50000x128 ![] bcast_S_S50000x128) : (⟨S_, .f32⟩ : BufTy).Contents (Elt F) → (⟨S50000x128, .f32⟩ : BufTy).Contents (Elt F))) ::
  (StableHlo.binary main_v34 main_call1_v0 main_v35 ((maximumf) : (⟨S50000x128, .f32⟩ : BufTy).Contents (Elt F) → (⟨S50000x128, .f32⟩ : BufTy).Contents (Elt F) → (⟨S50000x128, .f32⟩ : BufTy).Contents (Elt F))) :: []

theorem opsB_eq : (opsB : List (HloOp τ sig (Elt F))) = opsB' := rfl

/-- The stretch `opsD`, each operation at its buffers. -/
abbrev opsD' : List (HloOp τ sig (Elt F)) :=
  (StableHlo.nullary main_call2_cst (constant S_ .f32 0x00000000#32)) ::
  (StableHlo.binary main_v36 main_call2_cst main_call2_v0 ((fun x v => Host.reduceAdd x v reducesTo_S50000x32x4_S50000x32_d2 h_S_) : (⟨S50000x32x4, .f32⟩ : BufTy).Contents (Elt F) → (⟨S_, .f32⟩ : BufTy).Contents (Elt F) → (⟨S50000x32, .f32⟩ : BufTy).Contents (Elt F))) ::
  (StableHlo.unary main_call2_v0 main_call2_v1 ((broadcastInDim S50000x32x1 ![0, 1] bcast_S50000x32_S50000x32x1_0_1) : (⟨S50000x32, .f32⟩ : BufTy).Contents (Elt F) → (⟨S50000x32x1, .f32⟩ : BufTy).Contents (Elt F))) ::
  (StableHlo.nullary main_call2_cst_0 (constant S_ .f32 0x40800000#32)) ::
  (StableHlo.unary main_call2_cst_0 main_call2_v2 ((broadcastInDim S50000x32x1 ![] bcast_S_S50000x32x1) : (⟨S_, .f32⟩ : BufTy).Contents (Elt F) → (⟨S50000x32x1, .f32⟩ : BufTy).Contents (Elt F))) ::
  (StableHlo.binary main_call2_v1 main_call2_v2 main_call2_v3 ((Host.divf) : (⟨S50000x32x1, .f32⟩ : BufTy).Contents (Elt F) → (⟨S50000x32x1, .f32⟩ : BufTy).Contents (Elt F) → (⟨S50000x32x1, .f32⟩ : BufTy).Contents (Elt F))) ::
  (StableHlo.unary main_call2_v3 main_call2_v4 ((broadcastInDim S50000x32x4 ![0, 1, 2] bcast_S50000x32x1_S50000x32x4_0_1_2) : (⟨S50000x32x1, .f32⟩ : BufTy).Contents (Elt F) → (⟨S50000x32x4, .f32⟩ : BufTy).Contents (Elt F))) ::
  (StableHlo.binary main_v36 main_call2_v4 main_call2_v5 ((subf) : (⟨S50000x32x4, .f32⟩ : BufTy).Contents (Elt F) → (⟨S50000x32x4, .f32⟩ : BufTy).Contents (Elt F) → (⟨S50000x32x4, .f32⟩ : BufTy).Contents (Elt F))) ::
  (StableHlo.binary main_call2_v5 main_call2_v5 main_call2_v6 ((mulf) : (⟨S50000x32x4, .f32⟩ : BufTy).Contents (Elt F) → (⟨S50000x32x4, .f32⟩ : BufTy).Contents (Elt F) → (⟨S50000x32x4, .f32⟩ : BufTy).Contents (Elt F))) ::
  (StableHlo.unary main_c_6 main_call2_v7 ((sitofp .f32) : (⟨S_, .i32⟩ : BufTy).Contents (Elt F) → (⟨S_, .f32⟩ : BufTy).Contents (Elt F))) ::
  (StableHlo.nullary main_call2_cst_1 (constant S_ .f32 0x40800000#32)) ::
  (StableHlo.binary main_call2_cst_1 main_call2_v7 main_call2_v8 ((subf) : (⟨S_, .f32⟩ : BufTy).Contents (Elt F) → (⟨S_, .f32⟩ : BufTy).Contents (Elt F) → (⟨S_, .f32⟩ : BufTy).Contents (Elt F))) ::
  (StableHlo.nullary main_call2_cst_2 (constant S_ .f32 0x00000000#32)) ::
  (StableHlo.binary main_call2_v6 main_call2_cst_2 main_call2_v9 ((fun x v => Host.reduceAdd x v reducesTo_S50000x32x4_S50000x32_d2 h_S_) : (⟨S50000x32x4, .f32⟩ : BufTy).Contents (Elt F) → (⟨S_, .f32⟩ : BufTy).Contents (Elt F) → (⟨S50000x32, .f32⟩ : BufTy).Contents (Elt F))) ::
  (StableHlo.unary main_call2_v9 main_call2_v10 ((broadcastInDim S50000x32x1 ![0, 1] bcast_S50000x32_S50000x32x1_0_1) : (⟨S50000x32, .f32⟩ : BufTy).Contents (Elt F) → (⟨S50000x32x1, .f32⟩ : BufTy).Contents (Elt F))) ::
  (StableHlo.unary main_call2_v8 main_call2_v11 ((broadcastInDim S50000x32x1 ![] bcast_S_S50000x32x1) : (⟨S_, .f32⟩ : BufTy).Contents (Elt F) → (⟨S50000x32x1, .f32⟩ : BufTy).Contents (Elt F))) ::
  (StableHlo.binary main_call2_v10 main_call2_v11 main_call2_v12 ((Host.divf) : (⟨S50000x32x1, .f32⟩ : BufTy).Contents (Elt F) → (⟨S50000x32x1, .f32⟩ : BufTy).Contents (Elt F) → (⟨S50000x32x1, .f32⟩ : BufTy).Contents (Elt F))) ::
  (StableHlo.nullary main_call2_cst_3 (constant S_ .f32 0x00000000#32)) ::
  (StableHlo.binary main_call2_v8 main_call2_cst_3 main_call2_v13 ((cmpf .ogt) : (⟨S_, .f32⟩ : BufTy).Contents (Elt F) → (⟨S_, .f32⟩ : BufTy).Contents (Elt F) → (⟨S_, .i1⟩ : BufTy).Contents (Elt F))) ::
  (StableHlo.nullary main_call2_cst_4 (constant S_ .f32 0x7FC00000#32)) ::
  (StableHlo.unary main_call2_cst_4 main_call2_call0_v0 ((id) : (⟨S_, .f32⟩ : BufTy).Contents (Elt F) → (⟨S_, .f32⟩ : BufTy).Contents (Elt F))) ::
  (StableHlo.unary main_call2_call0_v0 main_call2_call0_v1 ((broadcastInDim S50000x32x1 ![] bcast_S_S50000x32x1) : (⟨S_, .f32⟩ : BufTy).Contents (Elt F) → (⟨S50000x32x1, .f32⟩ : BufTy).Contents (Elt F))) ::
  (StableHlo.ternary main_call2_v13 main_call2_v12 main_call2_call0_v1 main_v41 ((fun p a b => select (broadcastInDim S50000x32x1 ![] bcast_S_S50000x32x1 p) a b) : (⟨S_, .i1⟩ : BufTy).Contents (Elt F) → (⟨S50000x32x1, .f32⟩ : BufTy).Contents (Elt F) → (⟨S50000x32x1, .f32⟩ : BufTy).Contents (Elt F) → (⟨S50000x32x1, .f32⟩ : BufTy).Contents (Elt F))) :: []

theorem opsD_eq : (opsD : List (HloOp τ sig (Elt F))) = opsD' := rfl

/-- The stretch `opsL`, each operation at its buffers. -/
abbrev opsL' : List (HloOp τ sig (Elt F)) :=
  (StableHlo.nullary main_call3_cst (constant S_ .f32 0xFF800000#32)) ::
  (StableHlo.binary main_v72 main_call3_cst main_call3_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F))) ::
  (StableHlo.nullary main_call3_cst_0 (constant S_ .f32 0xFF800000#32)) ::
  (StableHlo.unary main_call3_cst_0 main_call3_v1 ((broadcastInDim S50000 ![] bcast_S_S50000) : (⟨S_, .f32⟩ : BufTy).Contents (Elt F) → (⟨S50000, .f32⟩ : BufTy).Contents (Elt F))) ::
  (StableHlo.binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F))) ::
  (StableHlo.unary main_call3_v2 main_call3_v3 ((broadcastInDim S50000x1 ![0] bcast_S50000_S50000x1_0) : (⟨S50000, .f32⟩ : BufTy).Contents (Elt F) → (⟨S50000x1, .f32⟩ : BufTy).Contents (Elt F))) ::
  (StableHlo.unary main_call3_v3 main_call3_v4 ((broadcastInDim S50000x40 ![0, 1] bcast_S50000x1_S50000x40_0_1) : (⟨S50000x1, .f32⟩ : BufTy).Contents (Elt F) → (⟨S50000x40, .f32⟩ : BufTy).Contents (Elt F))) ::
  (StableHlo.binary main_v72 main_call3_v4 main_call3_v5 ((subf) : (⟨S50000x40, .f32⟩ : BufTy).Contents (Elt F) → (⟨S50000x40, .f32⟩ : BufTy).Contents (Elt F) → (⟨S50000x40, .f32⟩ : BufTy).Contents (Elt F))) ::
  (StableHlo.unary main_call3_v5 main_call3_v6 ((Host.exp) : (⟨S50000x40, .f32⟩ : BufTy).Contents (Elt F) → (⟨S50000x40, .f32⟩ : BufTy).Contents (Elt F))) ::
  (StableHlo.nullary main_call3_cst_1 (constant S_ .f32 0x00000000#32)) ::
  (StableHlo.binary main_call3_v6 main_call3_cst_1 main_call3_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F))) ::
  (StableHlo.unary main_call3_v7 main_call3_v8 ((broadcastInDim S50000x1 ![0] bcast_S50000_S50000x1_0) : (⟨S50000, .f32⟩ : BufTy).Contents (Elt F) → (⟨S50000x1, .f32⟩ : BufTy).Contents (Elt F))) ::
  (StableHlo.unary main_call3_v8 main_call3_v9 ((Host.log) : (⟨S50000x1, .f32⟩ : BufTy).Contents (Elt F) → (⟨S50000x1, .f32⟩ : BufTy).Contents (Elt F))) ::
  (StableHlo.unary main_call3_v9 main_call3_v10 ((broadcastInDim S50000x40 ![0, 1] bcast_S50000x1_S50000x40_0_1) : (⟨S50000x1, .f32⟩ : BufTy).Contents (Elt F) → (⟨S50000x40, .f32⟩ : BufTy).Contents (Elt F))) ::
  (StableHlo.binary main_call3_v5 main_call3_v10 main_v73 ((subf) : (⟨S50000x40, .f32⟩ : BufTy).Contents (Elt F) → (⟨S50000x40, .f32⟩ : BufTy).Contents (Elt F) → (⟨S50000x40, .f32⟩ : BufTy).Contents (Elt F))) :: []

/-- The row maximum's operation at its buffers, for any reducing function: the transports are the identity. -/
theorem opsL_max (f : (⟨S50000x40, .f32⟩ : BufTy).Contents (Elt F) → (⟨S_, .f32⟩ : BufTy).Contents (Elt F) → (⟨S50000, .f32⟩ : BufTy).Contents (Elt F)) :
    ((StableHlo.TRef.binary (.of main_v72 : StableHlo.TRef sig ⟨S50000x40, .f32⟩) main_call3.cst main_call3.v0 f) : HloOp τ sig (Elt F)) = StableHlo.binary main_v72 main_call3_cst main_call3_v0 f := rfl

theorem opsL_eq : (opsL : List (HloOp τ sig (Elt F))) = opsL' :=
  cons_congr rfl (cons_congr (opsL_max _) rfl)

end Cert.RefRun

end
-- ==== Proof.RefRunA.lean ====
/-
  The first stretch of the reference's line read back: from any contents, its last buffer holds the first layer's activations of the argument buffers' contents, and no buffer but the stretch's own is written.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- The first layer's activations. -/
theorem valA (W : Valuation τ sig (Elt Ideal)) :
    after (opsA' (F := Ideal)) W (Proc.devRef .tc main_v17)
      = RefSpec.act1 (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp
  unfold RefSpec.act1 RefSpec.relu128 RefSpec.bias128 RefSpec.agg128 RefSpec.mm128 RefSpec.srcIx
  with_reducible rfl

/-- The references this stretch writes. -/
abbrev wrA : List (Ref sig .tc) := [main_v0, main_v1, main_c, main_v2, main_v3, main_c_0, main_v4, main_v5, main_v6, main_v7, main_v8, main_v9, main_v10, main_cst, main_v11, main_v12, main_v13, main_v14, main_v15, main_v16, main_call0_cst, main_call0_v0, main_v17]

/-- A buffer this stretch does not write keeps its contents. -/
theorem keepA {F : FTy → Type} [FloatOps F] (W : Valuation τ sig (Elt F)) (r : Ref sig .tc) (hr : r ∉ wrA) :
    after (opsA' (F := F)) W (Proc.devRef .tc r) = W (Proc.devRef .tc r) :=
  after_of_forall_not_mem (b := Proc.devRef .tc r) _ _ (List.forall_iff_forall_mem.mp (by
    simp only [opsA', List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunB.lean ====
/-
  The second stretch read back: from any contents, its last buffer holds the rectified, biased aggregation of the product of the first layer's buffer with the second weight matrix.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- The second layer's activations, from the first layer's buffer. -/
theorem valB (W : Valuation τ sig (Elt Ideal)) :
    after (opsB' (F := Ideal)) W (Proc.devRef .tc main_v35)
      = RefSpec.relu128 (RefSpec.bias128 (RefSpec.agg128 (RefSpec.mm128 (W (Proc.devRef .tc main_v17)) (W (Proc.devRef .tc main_arg6))) (W (Proc.devRef .tc main_arg1)) (W (Proc.devRef .tc main_arg2)) (W (Proc.devRef .tc main_arg3))) (W (Proc.devRef .tc main_arg7))) := by
  after_results_simp
  unfold RefSpec.relu128 RefSpec.bias128 RefSpec.agg128 RefSpec.mm128 RefSpec.srcIx
  with_reducible rfl

/-- The references this stretch writes. -/
abbrev wrB : List (Ref sig .tc) := [main_v18, main_v19, main_c_1, main_v20, main_v21, main_c_2, main_v22, main_v23, main_v24, main_v25, main_v26, main_v27, main_v28, main_cst_3, main_v29, main_v30, main_v31, main_v32, main_v33, main_v34, main_call1_cst, main_call1_v0, main_v35]

/-- A buffer this stretch does not write keeps its contents. -/
theorem keepB {F : FTy → Type} [FloatOps F] (W : Valuation τ sig (Elt F)) (r : Ref sig .tc) (hr : r ∉ wrB) :
    after (opsB' (F := F)) W (Proc.devRef .tc r) = W (Proc.devRef .tc r) :=
  after_of_forall_not_mem (b := Proc.devRef .tc r) _ _ (List.forall_iff_forall_mem.mp (by
    simp only [opsB', List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunC.lean ====
/-
  The third stretch read back: the channels in groups of four, each group's mean, and the integer zero the variance is called with.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] shapeCast broadcastInDim Host.reduceAdd in
/-- The channels in groups of four. -/
theorem valC_grouped (W : Valuation τ sig (Elt Ideal)) :
    after (opsC (F := Ideal)) W (Proc.devRef .tc main_v36)
      = RefSpec.grouped (W (Proc.devRef .tc main_v35)) := by
  after_results_simp
  unfold RefSpec.grouped
  rfl

attribute [local irreducible] shapeCast broadcastInDim Host.reduceAdd in
/-- Each group's mean. -/
theorem valC_mean (W : Valuation τ sig (Elt Ideal)) :
    after (opsC (F := Ideal)) W (Proc.devRef .tc main_v40)
      = RefSpec.gmean (RefSpec.grouped (W (Proc.devRef .tc main_v35))) := by
  after_results_simp
  unfold RefSpec.gmean RefSpec.grouped
  rfl

/-- The degrees of freedom the variance is called with: zero. -/
theorem valC_ddof (W : Valuation τ sig (Elt Ideal)) :
    after (opsC (F := Ideal)) W (Proc.devRef .tc main_c_6)
      = constantI S_ 32 0#32 := by
  after_results_simp

/-- The references this stretch writes. -/
abbrev wrC : List (Ref sig .tc) := [main_v36, main_cst_4, main_v37, main_v38, main_cst_5, main_v39, main_v40, main_c_6]

/-- A buffer this stretch does not write keeps its contents. -/
theorem keepC {F : FTy → Type} [FloatOps F] (W : Valuation τ sig (Elt F)) (r : Ref sig .tc) (hr : r ∉ wrC) :
    after (opsC (F := F)) W (Proc.devRef .tc r) = W (Proc.devRef .tc r) :=
  after_of_forall_not_mem (b := Proc.devRef .tc r) _ _ (List.forall_iff_forall_mem.mp (by
    simp only [opsC, List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunD.lean ====
/-
  The fourth stretch read back: the variance of each group of four, from the grouped buffer and the zero it is called with.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- Each group's variance. -/
theorem valD (W : Valuation τ sig (Elt Ideal)) (hc : W (Proc.devRef .tc main_c_6) = constantI S_ 32 0#32) :
    after (opsD' (F := Ideal)) W (Proc.devRef .tc main_v41)
      = RefSpec.gvar (W (Proc.devRef .tc main_v36)) := by
  after_results_simp
  rw [hc]
  unfold RefSpec.gvar RefSpec.gmean RefSpec.varDen
  with_reducible rfl

/-- The references this stretch writes. -/
abbrev wrD : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v41]

/-- A buffer this stretch does not write keeps its contents. -/
theorem keepD {F : FTy → Type} [FloatOps F] (W : Valuation τ sig (Elt F)) (r : Ref sig .tc) (hr : r ∉ wrD) :
    after (opsD' (F := F)) W (Proc.devRef .tc r) = W (Proc.devRef .tc r) :=
  after_of_forall_not_mem (b := Proc.devRef .tc r) _ _ (List.forall_iff_forall_mem.mp (by
    simp only [opsD', List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunE.lean ====
/-
  The fifth stretch read back: the deviations from the group means scaled by the reciprocal root of the variance plus the small constant, laid out flat.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] shapeCast broadcastInDim Host.reduceAdd in
/-- The normalised channels, flat. -/
theorem valE (W : Valuation τ sig (Elt Ideal)) :
    after (opsE (F := Ideal)) W (Proc.devRef .tc main_v49)
      = shapeCast S50000x128
          (mulf (subf (W (Proc.devRef .tc main_v36)) (broadcastInDim S50000x32x4 ![0, 1, 2] bcast_S50000x32x1_S50000x32x4_0_1_2 (W (Proc.devRef .tc main_v40))))
            (broadcastInDim S50000x32x4 ![0, 1, 2] bcast_S50000x32x1_S50000x32x4_0_1_2 (Host.rsqrt (addf (W (Proc.devRef .tc main_v41))
                (broadcastInDim S50000x32x1 ![] bcast_S_S50000x32x1 (constant (F := Ideal) S_ .f32 0x3727C5AC#32))))))
          shapeCasts_S50000x32x4_S50000x128 := by
  after_results_simp
  rfl

/-- The references this stretch writes. -/
abbrev wrE : List (Ref sig .tc) := [main_v42, main_v43, main_cst_7, main_v44, main_v45, main_v46, main_v47, main_v48, main_v49]

/-- A buffer this stretch does not write keeps its contents. -/
theorem keepE {F : FTy → Type} [FloatOps F] (W : Valuation τ sig (Elt F)) (r : Ref sig .tc) (hr : r ∉ wrE) :
    after (opsE (F := F)) W (Proc.devRef .tc r) = W (Proc.devRef .tc r) :=
  after_of_forall_not_mem (b := Proc.devRef .tc r) _ _ (List.forall_iff_forall_mem.mp (by
    simp only [opsE, List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunG.lean ====
/-
  The sixth stretch read back: the per-channel scale and shift of the normalised buffer.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- Scale and shift, channel by channel. -/
theorem valG (W : Valuation τ sig (Elt Ideal)) :
    after (opsG (F := Ideal)) W (Proc.devRef .tc main_v55)
      = (addf (mulf (W (Proc.devRef .tc main_v49)) (broadcastInDim S50000x128 ![0, 1] bcast_S1x128_S50000x128_0_1 (broadcastInDim S1x128 ![1] bcast_S128_S1x128_1 (W (Proc.devRef .tc main_arg10))))) (broadcastInDim S50000x128 ![0, 1] bcast_S1x128_S50000x128_0_1 (broadcastInDim S1x128 ![1] bcast_S128_S1x128_1 (W (Proc.devRef .tc main_arg11)))) : RefSpec.A128) := by
  after_results_simp

/-- The references this stretch writes. -/
abbrev wrG : List (Ref sig .tc) := [main_v50, main_v51, main_v52, main_v53, main_v54, main_v55]

/-- A buffer this stretch does not write keeps its contents. -/
theorem keepG {F : FTy → Type} [FloatOps F] (W : Valuation τ sig (Elt F)) (r : Ref sig .tc) (hr : r ∉ wrG) :
    after (opsG (F := F)) W (Proc.devRef .tc r) = W (Proc.devRef .tc r) :=
  after_of_forall_not_mem (b := Proc.devRef .tc r) _ _ (List.forall_iff_forall_mem.mp (by
    simp only [opsG, List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunH.lean ====
/-
  The seventh stretch read back: the head's product with the last weight matrix, aggregated over the edges, plus its bias.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- The class scores before the softmax. -/
theorem valH (W : Valuation τ sig (Elt Ideal)) :
    after (opsH (F := Ideal)) W (Proc.devRef .tc main_v72)
      = RefSpec.bias40 (RefSpec.agg40 (RefSpec.mm40 (W (Proc.devRef .tc main_v55)) (W (Proc.devRef .tc main_arg8))) (W (Proc.devRef .tc main_arg1)) (W (Proc.devRef .tc main_arg2)) (W (Proc.devRef .tc main_arg3))) (W (Proc.devRef .tc main_arg9)) := by
  after_results_simp
  unfold RefSpec.bias40 RefSpec.agg40 RefSpec.mm40 RefSpec.srcIx
  with_reducible rfl

/-- The references this stretch writes. -/
abbrev wrH : List (Ref sig .tc) := [main_v56, main_v57, main_c_8, main_v58, main_v59, main_c_9, main_v60, main_v61, main_v62, main_v63, main_v64, main_v65, main_v66, main_cst_10, main_v67, main_v68, main_v69, main_v70, main_v71, main_v72]

/-- A buffer this stretch does not write keeps its contents. -/
theorem keepH {F : FTy → Type} [FloatOps F] (W : Valuation τ sig (Elt F)) (r : Ref sig .tc) (hr : r ∉ wrH) :
    after (opsH (F := F)) W (Proc.devRef .tc r) = W (Proc.devRef .tc r) :=
  after_of_forall_not_mem (b := Proc.devRef .tc r) _ _ (List.forall_iff_forall_mem.mp (by
    simp only [opsH, List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRunL.lean ====
/-
  The last stretch read back: the logarithm of the softmax of each row of the scores.
-/
import proofs.«106202_j40956808135033_1_alg».proof.Proof.RefRunPlain
import proofs.«106202_j40956808135033_1_alg».proof.Proof.RefSpec

noncomputable section

namespace Cert.RefRun

open Cert.ReferenceIdeal Cert.ReferenceIdeal.Facts₀ Idealize.ShloMosaic Idealize.ShloMosaic.TcCoe Idealize.SL.Sem Idealize.ShloMosaic.StableHlo

/-- The logarithm of the softmax. -/
theorem valL (W : Valuation τ sig (Elt Ideal)) :
    after (opsL' (F := Ideal)) W (Proc.devRef .tc main_v73)
      = RefSpec.logSoftmax (W (Proc.devRef .tc main_v72)) := by
  after_results_simp
  unfold RefSpec.logSoftmax RefSpec.shifted
  with_reducible rfl

/-- The references this stretch writes. -/
abbrev wrL : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v73]

/-- A buffer this stretch does not write keeps its contents. -/
theorem keepL {F : FTy → Type} [FloatOps F] (W : Valuation τ sig (Elt F)) (r : Ref sig .tc) (hr : r ∉ wrL) :
    after (opsL' (F := F)) W (Proc.devRef .tc r) = W (Proc.devRef .tc r) :=
  after_of_forall_not_mem (b := Proc.devRef .tc r) _ _ (List.forall_iff_forall_mem.mp (by
    simp only [opsL', List.Forall, nullary_writes, unary_writes, binary_writes, ternary_writes, reshape_writes, Finset.mem_singleton]
    repeat' apply And.intro
    all_goals exact devRef_ne_of_ne (fun e => hr (by rw [e]; decide))))

end Cert.RefRun

end
-- ==== Proof.RefRun.lean ====
/-
  The reference's run: every weakly fair execution of its @main terminates without a fault, its result buffer
  holding the composition of the layer functions of RefSpec applied to the argument arrays, which end unchanged.

  The line of host operations is read back stretch by stretch: each stretch's last buffer holds that layer's function
  of the buffers the stretch reads, whatever the contents it starts from; a stretch writes only its own buffers, so
  the arguments and the values a later stretch still reads pass through it; the whole line's fold is the stretches'
  folds one after the other.
-/
import proofs.«106202_j40956808135033_1_alg».proof.Defs
import proofs.«106202_j40956808135033_1_alg».proof.Proof.Gen.ReferenceIdeal
import proofs.«106202_j40956808135033_1_alg».proof.Proof.RefSpec
import Idealize.ShloMosaic.Lib.StableHlo.Run
import proofs.«106202_j40956808135033_1_alg».proof.Proof.RefRunSeq
import proofs.«106202_j40956808135033_1_alg».proof.Proof.RefRunA
import proofs.«106202_j40956808135033_1_alg».proof.Proof.RefRunB
import proofs.«106202_j40956808135033_1_alg».proof.Proof.RefRunC
import proofs.«106202_j40956808135033_1_alg».proof.Proof.RefRunD
import proofs.«106202_j40956808135033_1_alg».proof.Proof.RefRunE
import proofs.«106202_j40956808135033_1_alg».proof.Proof.RefRunG
import proofs.«106202_j40956808135033_1_alg».proof.Proof.RefRunH
import proofs.«106202_j40956808135033_1_alg».proof.Proof.RefRunL

noncomputable section

namespace Cert.RefRun

open Idealize.ShloMosaic Idealize.ShloMosaic.TcCoe Idealize.SL.Sem

section Compose

open Cert.ReferenceIdeal Cert.ReferenceIdeal.Facts₀ Idealize.ShloMosaic.StableHlo

/-- The whole line as the stretches stated at their buffers. -/
theorem ops_plain : (ops (F := Ideal)) = opsA' ++ (opsB' ++ (opsC ++ (opsD' ++ (opsE ++ (opsG ++ (opsH ++ opsL')))))) := by
  unfold ops
  rw [opsA_eq, opsB_eq, opsD_eq, opsL_eq]

/-- The whole line's fold is the stretches' folds, one after the other. -/
theorem after_ops (V : Valuation τ sig (Elt Ideal)) :
    after (ops (F := Ideal)) V = (after opsL' (after opsH (after opsG (after opsE (after opsD' (after opsC (after opsB' (after opsA' V)))))))) := by
  rw [ops_plain]
  simp only [after_app]

theorem keepTo5 (V : Valuation τ sig (Elt Ideal)) (r : Ref sig .tc) (hA : r ∉ wrA) (hB : r ∉ wrB) (hC : r ∉ wrC) (hD : r ∉ wrD) (hE : r ∉ wrE) :
    (after opsE (after opsD' (after opsC (after opsB' (after opsA' V))))) (Proc.devRef .tc r) = V (Proc.devRef .tc r) := by
  rw [keepE _ r hE, keepD _ r hD, keepC _ r hC, keepB _ r hB, keepA _ r hA]

theorem keepTo6 (V : Valuation τ sig (Elt Ideal)) (r : Ref sig .tc) (hA : r ∉ wrA) (hB : r ∉ wrB) (hC : r ∉ wrC) (hD : r ∉ wrD) (hE : r ∉ wrE) (hG : r ∉ wrG) :
    (after opsG (after opsE (after opsD' (after opsC (after opsB' (after opsA' V)))))) (Proc.devRef .tc r) = V (Proc.devRef .tc r) := by
  rw [keepG _ r hG, keepE _ r hE, keepD _ r hD, keepC _ r hC, keepB _ r hB, keepA _ r hA]

/-- No stretch writes a buffer outside the eight lists: it ends as it started. -/
theorem keep_ops (V : Valuation τ sig (Elt Ideal)) (r : Ref sig .tc) (hA : r ∉ wrA) (hB : r ∉ wrB) (hC : r ∉ wrC) (hD : r ∉ wrD) (hE : r ∉ wrE) (hG : r ∉ wrG) (hH : r ∉ wrH) (hL : r ∉ wrL) :
    after (ops (F := Ideal)) V (Proc.devRef .tc r) = V (Proc.devRef .tc r) := by
  rw [after_ops, keepL _ r hL, keepH _ r hH, keepG _ r hG, keepE _ r hE, keepD _ r hD, keepC _ r hC, keepB _ r hB, keepA _ r hA]

/-- The result buffer after the whole line: the layers composed. -/
theorem val_ops (V : Valuation τ sig (Elt Ideal)) :
    after (ops (F := Ideal)) V (Proc.devRef .tc main_v73)
      = RefSpec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  -- the first layer
  have h17 : (after opsA' V) (Proc.devRef .tc main_v17) = (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) := valA V
  -- the second layer, reading the first layer's buffer and the arguments, which the first stretch kept
  have h35 : (after opsB' (after opsA' V)) (Proc.devRef .tc main_v35) = (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))) := by
    rw [valB, h17, keepA V main_arg6 (by decide), keepA V main_arg1 (by decide), keepA V main_arg2 (by decide),
      keepA V main_arg3 (by decide), keepA V main_arg7 (by decide)]
  -- the groups of four, their means and variances
  have h36 : (after opsC (after opsB' (after opsA' V))) (Proc.devRef .tc main_v36) = (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) := by rw [valC_grouped, h35]
  have h40 : (after opsC (after opsB' (after opsA' V))) (Proc.devRef .tc main_v40) = RefSpec.gmean (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) := by rw [valC_mean, h35]
  have hc6 : (after opsC (after opsB' (after opsA' V))) (Proc.devRef .tc main_c_6) = constantI S_ 32 0#32 := valC_ddof (after opsB' (after opsA' V))
  have h41 : (after opsD' (after opsC (after opsB' (after opsA' V)))) (Proc.devRef .tc main_v41) = RefSpec.gvar (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) := by rw [valD (after opsC (after opsB' (after opsA' V))) hc6, h36]
  have h36' : (after opsD' (after opsC (after opsB' (after opsA' V)))) (Proc.devRef .tc main_v36) = (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) := by rw [keepD (after opsC (after opsB' (after opsA' V))) main_v36 (by decide), h36]
  have h40' : (after opsD' (after opsC (after opsB' (after opsA' V)))) (Proc.devRef .tc main_v40) = RefSpec.gmean (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) := by rw [keepD (after opsC (after opsB' (after opsA' V))) main_v40 (by decide), h40]
  -- the normalisation, then scale and shift
  have h49 : (after opsE (after opsD' (after opsC (after opsB' (after opsA' V))))) (Proc.devRef .tc main_v49) = ((shapeCast S50000x128 (mulf (subf (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) (broadcastInDim S50000x32x4 ![0, 1, 2] bcast_S50000x32x1_S50000x32x4_0_1_2 (RefSpec.gmean (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))))) (broadcastInDim S50000x32x4 ![0, 1, 2] bcast_S50000x32x1_S50000x32x4_0_1_2 (Host.rsqrt (addf (RefSpec.gvar (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))) (broadcastInDim S50000x32x1 ![] bcast_S_S50000x32x1 (constant (F := Ideal) S_ .f32 0x3727C5AC#32)))))) shapeCasts_S50000x32x4_S50000x128) : RefSpec.A128) := by rw [valE, h36', h40', h41]
  have h55 : (after opsG (after opsE (after opsD' (after opsC (after opsB' (after opsA' V)))))) (Proc.devRef .tc main_v55) = ((addf (mulf (shapeCast S50000x128 (mulf (subf (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) (broadcastInDim S50000x32x4 ![0, 1, 2] bcast_S50000x32x1_S50000x32x4_0_1_2 (RefSpec.gmean (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))))) (broadcastInDim S50000x32x4 ![0, 1, 2] bcast_S50000x32x1_S50000x32x4_0_1_2 (Host.rsqrt (addf (RefSpec.gvar (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))) (broadcastInDim S50000x32x1 ![] bcast_S_S50000x32x1 (constant (F := Ideal) S_ .f32 0x3727C5AC#32)))))) shapeCasts_S50000x32x4_S50000x128) (broadcastInDim S50000x128 ![0, 1] bcast_S1x128_S50000x128_0_1 (broadcastInDim S1x128 ![1] bcast_S128_S1x128_1 (V (Proc.devRef .tc main_arg10))))) (broadcastInDim S50000x128 ![0, 1] bcast_S1x128_S50000x128_0_1 (broadcastInDim S1x128 ![1] bcast_S128_S1x128_1 (V (Proc.devRef .tc main_arg11))))) : RefSpec.A128) := by
    rw [valG, h49, keepTo5 V main_arg10 (by decide) (by decide) (by decide) (by decide) (by decide), keepTo5 V main_arg11 (by decide) (by decide) (by decide) (by decide) (by decide)]
  -- the head
  have h72 : (after opsH (after opsG (after opsE (after opsD' (after opsC (after opsB' (after opsA' V))))))) (Proc.devRef .tc main_v72) = (RefSpec.bias40 (RefSpec.agg40 (RefSpec.mm40 (addf (mulf (shapeCast S50000x128 (mulf (subf (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7))))) (broadcastInDim S50000x32x4 ![0, 1, 2] bcast_S50000x32x1_S50000x32x4_0_1_2 (RefSpec.gmean (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))))) (broadcastInDim S50000x32x4 ![0, 1, 2] bcast_S50000x32x1_S50000x32x4_0_1_2 (Host.rsqrt (addf (RefSpec.gvar (RefSpec.grouped (RefSpec.relu128 (RefSpec.bias128 (RefSpec.agg128 (RefSpec.mm128 (RefSpec.act1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6))) (V (Proc.devRef .tc main_arg1)) (V (Proc.devRef .tc main_arg2)) (V (Proc.devRef .tc main_arg3))) (V (Proc.devRef .tc main_arg7)))))) (broadcastInDim S50000x32x1 ![] bcast_S_S50000x32x1 (constant (F := Ideal) S_ .f32 0x3727C5AC#32)))))) shapeCasts_S50000x32x4_S50000x128) (broadcastInDim S50000x128 ![0, 1] bcast_S1x128_S50000x128_0_1 (broadcastInDim S1x128 ![1] bcast_S128_S1x128_1 (V (Proc.devRef .tc main_arg10))))) (broadcastInDim S50000x128 ![0, 1] bcast_S1x128_S50000x128_0_1 (broadcastInDim S1x128 ![1] bcast_S128_S1x128_1 (V (Proc.devRef .tc main_arg11))))) (V (Proc.devRef .tc main_arg8))) (V (Proc.devRef .tc main_arg1)) (V (Proc.devRef .tc main_arg2)) (V (Proc.devRef .tc main_arg3))) (V (Proc.devRef .tc main_arg9))) := by
    rw [valH, h55, keepTo6 V main_arg8 (by decide) (by decide) (by decide) (by decide) (by decide) (by decide), keepTo6 V main_arg1 (by decide) (by decide) (by decide) (by decide) (by decide) (by decide), keepTo6 V main_arg2 (by decide) (by decide) (by decide) (by decide) (by decide) (by decide),
      keepTo6 V main_arg3 (by decide) (by decide) (by decide) (by decide) (by decide) (by decide), keepTo6 V main_arg9 (by decide) (by decide) (by decide) (by decide) (by decide) (by decide)]
  rw [after_ops, valL, h72]
  unfold RefSpec.result RefSpec.agg2 RefSpec.gnorm
  with_reducible rfl

end Compose

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v73)
          = RefSpec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono (fun _ h c =>
    ⟨(h c Cert.ReferenceIdeal.main_v73).trans (val_ops (Idealize.ShloMosaic.StableHlo.launchContents m c)),
     (h c Cert.ReferenceIdeal.main_arg0).trans (keep_ops _ Cert.ReferenceIdeal.main_arg0 (by decide) (by decide) (by decide) (by decide) (by decide) (by decide) (by decide) (by decide)),
     (h c Cert.ReferenceIdeal.main_arg1).trans (keep_ops _ Cert.ReferenceIdeal.main_arg1 (by decide) (by decide) (by decide) (by decide) (by decide) (by decide) (by decide) (by decide)),
     (h c Cert.ReferenceIdeal.main_arg2).trans (keep_ops _ Cert.ReferenceIdeal.main_arg2 (by decide) (by decide) (by decide) (by decide) (by decide) (by decide) (by decide) (by decide)),
     (h c Cert.ReferenceIdeal.main_arg3).trans (keep_ops _ Cert.ReferenceIdeal.main_arg3 (by decide) (by decide) (by decide) (by decide) (by decide) (by decide) (by decide) (by decide)),
     (h c Cert.ReferenceIdeal.main_arg4).trans (keep_ops _ Cert.ReferenceIdeal.main_arg4 (by decide) (by decide) (by decide) (by decide) (by decide) (by decide) (by decide) (by decide)),
     (h c Cert.ReferenceIdeal.main_arg5).trans (keep_ops _ Cert.ReferenceIdeal.main_arg5 (by decide) (by decide) (by decide) (by decide) (by decide) (by decide) (by decide) (by decide)),
     (h c Cert.ReferenceIdeal.main_arg6).trans (keep_ops _ Cert.ReferenceIdeal.main_arg6 (by decide) (by decide) (by decide) (by decide) (by decide) (by decide) (by decide) (by decide)),
     (h c Cert.ReferenceIdeal.main_arg7).trans (keep_ops _ Cert.ReferenceIdeal.main_arg7 (by decide) (by decide) (by decide) (by decide) (by decide) (by decide) (by decide) (by decide)),
     (h c Cert.ReferenceIdeal.main_arg8).trans (keep_ops _ Cert.ReferenceIdeal.main_arg8 (by decide) (by decide) (by decide) (by decide) (by decide) (by decide) (by decide) (by decide)),
     (h c Cert.ReferenceIdeal.main_arg9).trans (keep_ops _ Cert.ReferenceIdeal.main_arg9 (by decide) (by decide) (by decide) (by decide) (by decide) (by decide) (by decide) (by decide)),
     (h c Cert.ReferenceIdeal.main_arg10).trans (keep_ops _ Cert.ReferenceIdeal.main_arg10 (by decide) (by decide) (by decide) (by decide) (by decide) (by decide) (by decide) (by decide)),
     (h c Cert.ReferenceIdeal.main_arg11).trans (keep_ops _ Cert.ReferenceIdeal.main_arg11 (by decide) (by decide) (by decide) (by decide) (by decide) (by decide) (by decide) (by decide))⟩)
    (run_ops (F := Ideal) m ρ)

end Cert.RefRun

end
-- ==== Proof.FiniteLib.lean ====
/-
  Real-valued arrays. An extended real is *real* when it is the image of a real number: neither of the two
  infinities. Sums, products and maxima of reals are real; so an operation that builds each of its entries from
  finitely many entries of its operands by these three carries real-valued arrays to real-valued arrays. A
  broadcast and a gather only move entries, whatever the gather's indices are; a contraction is a finite sum of
  products; a scatter-add puts at each entry the operand's entry plus a finite sum of updates, whatever the
  scatter's indices are. The reference's layers up to the second aggregation are compositions of these.
-/
import proofs.«106202_j40956808135033_1_alg».proof.Proof.RefSpec
import Idealize.ShloMosaic.PureOps.Ideal.Laws

noncomputable section

namespace Cert.Finite

open Idealize.ShloMosaic

/-! ### Extended reals that are real numbers -/

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is real: by induction on the index set, one addition at a time. -/
theorem real_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact real_add (hf a (Finset.mem_insert_self a s)) (ih fun j hj => hf j (Finset.mem_insert_of_mem hj))

/-- An extended real whose absolute value, the maximum of the number and its negative, is below `+∞` is real: at
    either infinity that maximum is `+∞`. -/
theorem real_of_abs_lt_top (a : EReal) (h : max a (-a) < ⊤) : ∃ r : ℝ, a = (r : EReal) := by
  induction a with
  | bot => simp at h
  | coe r => exact ⟨r, rfl⟩
  | top => simp at h

/-- The same as the comparison reads at the ideal values: `|a| < +∞`, against the bit pattern of `+∞`, answered 1. -/
theorem real_of_cmp_abs_inf (a : Ideal .f32)
    (h : FloatOps.cmpf .olt (FloatOps.hostAbsf a) (FloatOps.ofBits (F := Ideal) .f32 0x7F800000#32) = 1#1) :
    ∃ r : ℝ, (a : EReal) = (r : EReal) := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  unfold Ideal.cmp at h'
  refine real_of_abs_lt_top a ?_
  by_contra hn
  simp [hn] at h'

/-! ### Operations on arrays -/

/-- The array of zeros. -/
theorem real_zeros (s : Shape) : ∀ i, ∃ r : ℝ, constant (F := Ideal) s .f32 0x00000000#32 i = (r : EReal) := by
  intro i
  refine ⟨0, ?_⟩
  show Ideal.ofBits .f32 0x00000000#32 = _
  rw [Ideal.ofBits_zero_f32, EReal.coe_zero]

/-- A broadcast reads, at each index, one entry of its operand. -/
theorem real_broadcastInDim {s t : Shape} (dims : Fin s.rank → Fin t.rank) (h : s.BroadcastsInDim t dims)
    (x : s.Idx → EReal) (hx : ∀ i, ∃ r : ℝ, x i = (r : EReal)) :
    ∀ j, ∃ r : ℝ, broadcastInDim t dims h x j = (r : EReal) :=
  fun _ => hx _

/-- A gather reads, at each index, one entry of its operand: which one depends on the indices, that it is one
    does not. -/
theorem real_gather {s si t : Shape} {w : Nat} (d : GatherDims s si t) (x : s.Idx → EReal) (idx : IVec si w)
    (hx : ∀ i, ∃ r : ℝ, x i = (r : EReal)) :
    ∀ j, ∃ r : ℝ, Host.gather d x idx j = (r : EReal) :=
  fun _ => hx _

theorem real_mulf {s : Shape} (x y : FVec Ideal s .f32) (hx : ∀ i, ∃ r : ℝ, x i = (r : EReal))
    (hy : ∀ i, ∃ r : ℝ, y i = (r : EReal)) : ∀ i, ∃ r : ℝ, mulf x y i = (r : EReal) := by
  intro i
  show ∃ r : ℝ, x i * y i = (r : EReal)
  exact real_mul (hx i) (hy i)

theorem real_addf {s : Shape} (x y : FVec Ideal s .f32) (hx : ∀ i, ∃ r : ℝ, x i = (r : EReal))
    (hy : ∀ i, ∃ r : ℝ, y i = (r : EReal)) : ∀ i, ∃ r : ℝ, addf x y i = (r : EReal) := by
  intro i
  show ∃ r : ℝ, x i + y i = (r : EReal)
  exact real_add (hx i) (hy i)

theorem real_maximumf {s : Shape} (x y : FVec Ideal s .f32) (hx : ∀ i, ∃ r : ℝ, x i = (r : EReal))
    (hy : ∀ i, ∃ r : ℝ, y i = (r : EReal)) : ∀ i, ∃ r : ℝ, maximumf x y i = (r : EReal) := by
  intro i
  show ∃ r : ℝ, max (x i) (y i) = (r : EReal)
  exact real_max (hx i) (hy i)

/-- A contraction: each entry is the sum, over the contracted index, of products of an entry of each operand. -/
theorem real_dotGeneral {sl sr so : Shape} (d : DotDims sl sr so) (prec : Option ContractPrecision)
    (x : FVec Ideal sl .f32) (y : FVec Ideal sr .f32) (hx : ∀ i, ∃ r : ℝ, x i = (r : EReal))
    (hy : ∀ i, ∃ r : ℝ, y i = (r : EReal)) :
    ∀ j, ∃ r : ℝ, Host.dotGeneral d prec x y j = (r : EReal) := by
  intro j
  simp only [Host.dotGeneral]
  rw [Ideal.dotGeneral_apply]
  exact real_sum _ _ fun k _ => real_mul (hx _) (hy _)

/-- A scatter-add: each entry is the operand's entry plus the sum of the updates the indices send there — a
    finite sum, whichever updates those are. -/
theorem real_scatterAdd {s si u : Shape} {w : Nat} (d : ScatterDims s si u) (x : FVec Ideal s .f32) (idx : IVec si w)
    (upd : FVec Ideal u .f32) (hx : ∀ i, ∃ r : ℝ, x i = (r : EReal)) (hu : ∀ i, ∃ r : ℝ, upd i = (r : EReal)) :
    ∀ i, ∃ r : ℝ, Host.scatterAdd d x idx upd i = (r : EReal) := by
  intro i
  unfold Host.scatterAdd
  rw [Ideal.hostScatterAdd_def]
  unfold Ideal.hostScatterAdd
  exact real_add (hx i) (real_sum _ _ fun j _ => hu j)

/-! ### The reference's layers -/

open Cert.ReferenceIdeal

theorem mm128_real (x : RefSpec.A128) (W : FVec Ideal S128x128 .f32) (hx : ∀ i, ∃ r : ℝ, x i = (r : EReal))
    (hW : ∀ i, ∃ r : ℝ, W i = (r : EReal)) : ∀ i, ∃ r : ℝ, RefSpec.mm128 x W i = (r : EReal) := by
  unfold RefSpec.mm128
  exact real_dotGeneral _ _ x W hx hW

/-- The aggregation: the gathered rows are rows of `h`, the scaled rows products of two reals, and each entry of
    the result is zero plus a finite sum of scaled entries. Nothing is asked of the edge indices. -/
theorem agg128_real (h : RefSpec.A128) (src tgt : RefSpec.EdgeI) (w : RefSpec.EdgeW)
    (hh : ∀ i, ∃ r : ℝ, h i = (r : EReal)) (hw : ∀ i, ∃ r : ℝ, w i = (r : EReal)) :
    ∀ i, ∃ r : ℝ, RefSpec.agg128 h src tgt w i = (r : EReal) := by
  unfold RefSpec.agg128
  refine real_scatterAdd _ _ _ _ (real_broadcastInDim _ _ _ (real_zeros _)) ?_
  refine real_mulf _ _ (real_broadcastInDim _ _ _ (real_broadcastInDim _ _ _ hw)) ?_
  exact real_gather _ _ _ hh

theorem bias128_real (a : RefSpec.A128) (b : FVec Ideal S128 .f32) (ha : ∀ i, ∃ r : ℝ, a i = (r : EReal))
    (hb : ∀ i, ∃ r : ℝ, b i = (r : EReal)) : ∀ i, ∃ r : ℝ, RefSpec.bias128 a b i = (r : EReal) := by
  unfold RefSpec.bias128
  exact real_addf _ _ ha (real_broadcastInDim _ _ _ (real_broadcastInDim _ _ _ hb))

theorem relu128_real (a : RefSpec.A128) (ha : ∀ i, ∃ r : ℝ, a i = (r : EReal)) :
    ∀ i, ∃ r : ℝ, RefSpec.relu128 a i = (r : EReal) := by
  unfold RefSpec.relu128
  exact real_maximumf _ _ ha (real_broadcastInDim _ _ _ (real_zeros _))

theorem act1_real (x : RefSpec.A128) (src tgt : RefSpec.EdgeI) (w : RefSpec.EdgeW)
    (W0 : FVec Ideal S128x128 .f32) (b0 : FVec Ideal S128 .f32)
    (hx : ∀ i, ∃ r : ℝ, x i = (r : EReal)) (hw : ∀ i, ∃ r : ℝ, w i = (r : EReal))
    (hW0 : ∀ i, ∃ r : ℝ, W0 i = (r : EReal)) (hb0 : ∀ i, ∃ r : ℝ, b0 i = (r : EReal)) :
    ∀ i, ∃ r : ℝ, RefSpec.act1 x src tgt w W0 b0 i = (r : EReal) := by
  unfold RefSpec.act1
  exact relu128_real _ (bias128_real _ _ (agg128_real _ src tgt w (mm128_real x W0 hx hW0) hw) hb0)

end Cert.Finite

end
-- ==== Proof.Finite.lean ====
/-
  Finiteness. The precondition says every float argument holds finite numbers; sums and products of finitely many
  reals are real, a gather only moves entries, a scatter-add adds finitely many of them to zero, and a maximum with
  zero of a real is real: so the second aggregation, whose entries the group normalisation's variance is taken
  of, holds real numbers at every index.
-/
import proofs.«106202_j40956808135033_1_alg».proof.Defs
import proofs.«106202_j40956808135033_1_alg».proof.Proof.Gen.KernelIdeal
import proofs.«106202_j40956808135033_1_alg».proof.Proof.Gen.Pre_finite_inputs
import proofs.«106202_j40956808135033_1_alg».proof.Proof.RefSpec
import proofs.«106202_j40956808135033_1_alg».proof.Proof.FiniteLib
import Idealize.ShloMosaic.Lib.ReduceAll

noncomputable section

namespace Cert.Finite

open Idealize.ShloMosaic Idealize.ShloMosaic.TcCoe Idealize.SL.Sem

/-- One conjunct of the precondition: `all (|x| < +∞)` answered 1 says every entry of `x` is real. The conjunction
    over all entries came out 1, so each entry's comparison did; and an entry whose absolute value is below `+∞` is
    neither infinity. -/
theorem real_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  haveI : Subsingleton Cert.Pre_finite_inputs.S_.Idx := ⟨fun a b => funext fun d => d.elim0⟩
  exact real_of_cmp_abs_inf (x i) (Host.reduce_andi_all _ _ hr hu j e i)

/-- Under the precondition the float arguments the second aggregation and its bias depend on hold real numbers:
    `x`, `w`, `W0`, `b0`, `W1`, `b1` (arguments 0, 3, 4, 5, 6, 7). -/
theorem pre_real (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S50000x128.Idx → EReal) i = (r : EReal))
    ∧ (∀ i, ∃ r : ℝ, (m ((c.tc : Thread Cert.KernelIdeal.nD Cert.KernelIdeal.τ).loc Cert.KernelIdeal.main_arg3) : Cert.KernelIdeal.S800000.Idx → EReal) i = (r : EReal))
    ∧ (∀ i, ∃ r : ℝ, (m ((c.tc : Thread Cert.KernelIdeal.nD Cert.KernelIdeal.τ).loc Cert.KernelIdeal.main_arg4) : Cert.KernelIdeal.S128x128.Idx → EReal) i = (r : EReal))
    ∧ (∀ i, ∃ r : ℝ, (m ((c.tc : Thread Cert.KernelIdeal.nD Cert.KernelIdeal.τ).loc Cert.KernelIdeal.main_arg5) : Cert.KernelIdeal.S128.Idx → EReal) i = (r : EReal))
    ∧ (∀ i, ∃ r : ℝ, (m ((c.tc : Thread Cert.KernelIdeal.nD Cert.KernelIdeal.τ).loc Cert.KernelIdeal.main_arg6) : Cert.KernelIdeal.S128x128.Idx → EReal) i = (r : EReal))
    ∧ (∀ i, ∃ r : ℝ, (m ((c.tc : Thread Cert.KernelIdeal.nD Cert.KernelIdeal.τ).loc Cert.KernelIdeal.main_arg7) : Cert.KernelIdeal.S128.Idx → EReal) i = (r : EReal)) := by
  -- the predicate's one result, at the one index of a rank-0 array, is 1
  have e := congrFun (h c) (fun a => a.elim0 : Cert.Pre_finite_inputs.S_.Idx)
  dsimp only [Cert.Pre_finite_inputs.fn, Cert.Pre_finite_inputs.fn_part1, Cert.Pre_finite_inputs.fn_part2] at e
  -- it is the conjunction, left-nested, of one `all (|x| < +∞)` per float argument, in argument order
  simp only [andi, IntOp.andi_eq_one] at e
  obtain ⟨⟨⟨⟨⟨⟨⟨⟨⟨h0, h3⟩, h4⟩, h5⟩, h6⟩, h7⟩, -⟩, -⟩, -⟩, -⟩ := e
  exact ⟨real_of_all_finite _ _ _ _ _ h0, real_of_all_finite _ _ _ _ _ h3, real_of_all_finite _ _ _ _ _ h4,
    real_of_all_finite _ _ _ _ _ h5, real_of_all_finite _ _ _ _ _ h6, real_of_all_finite _ _ _ _ _ h7⟩

/-- The second aggregation of real-valued arguments is real-valued, whatever the edge indices are. -/
theorem agg2_real (x : RefSpec.A128) (src tgt : RefSpec.EdgeI) (w : RefSpec.EdgeW)
    (W0 : FVec Ideal Cert.ReferenceIdeal.S128x128 .f32) (b0 : FVec Ideal Cert.ReferenceIdeal.S128 .f32)
    (W1 : FVec Ideal Cert.ReferenceIdeal.S128x128 .f32)
    (hx : ∀ i, ∃ r : ℝ, x i = (r : EReal)) (hw : ∀ i, ∃ r : ℝ, w i = (r : EReal))
    (hW0 : ∀ i, ∃ r : ℝ, W0 i = (r : EReal)) (hb0 : ∀ i, ∃ r : ℝ, b0 i = (r : EReal))
    (hW1 : ∀ i, ∃ r : ℝ, W1 i = (r : EReal)) :
    ∀ i, ∃ r : ℝ, RefSpec.agg2 x src tgt w W0 b0 W1 i = (r : EReal) := by
  unfold RefSpec.agg2
  exact agg128_real _ src tgt w (mm128_real _ W1 (act1_real x src tgt w W0 b0 hx hw hW0 hb0) hW1) hw

end Cert.Finite

end
-- ==== Proof.lean ====
/-
  A three-layer graph network — three matrix products, each followed by the mean aggregation over the graph's edges,
  with a bias and a relu after the first two, a group normalisation over groups of four channels after the second,
  and a bias and a log-softmax after the third — as five TensorCore kernels among host gathers and scatter-adds,
  against the same network written with jnp.

  Over the extended reals the two programs compute one function of the arguments. The matrix units' products are
  the host's contractions (a change of float format is the identity); the aggregations are the same host
  operations on both sides; the kernel's log-softmax reduces along the lanes what the host reduces along a row.
  The one place where the two differ as expressions is the variance of a group: the kernel takes the mean of the
  squares minus the square of the mean, the reference the mean of the squared deviations. These agree for real
  numbers and not at infinities, and this is where the precondition is used: finite arguments give, through sums and
  products of finitely many reals, real activations in front of the normalisation.

  Each kernel's output array is read off the generated frame certificate block
  by block (KRegion0 … KRegion4), the host stretches between them are read from their operation lists (KHost), the
  fold through the nine segments is assembled in KRun, the reference's run is RefRun, finiteness is Finite; RefSpec
  holds the layer functions both runs are stated with. The idealization rewrote nothing, so `preserves` is trivial.
-/
import proofs.«106202_j40956808135033_1_alg».proof.Defs
import proofs.«106202_j40956808135033_1_alg».proof.Proof.Gen.Kernel
import proofs.«106202_j40956808135033_1_alg».proof.Proof.Gen.KernelIdeal
import proofs.«106202_j40956808135033_1_alg».proof.Proof.Gen.ReferenceIdeal
import proofs.«106202_j40956808135033_1_alg».proof.Proof.Gen.Pre_finite_inputs
import proofs.«106202_j40956808135033_1_alg».proof.Proof.KernelFrameP
import proofs.«106202_j40956808135033_1_alg».proof.Proof.KernelIdealFrameP
import proofs.«106202_j40956808135033_1_alg».proof.Proof.KRun
import proofs.«106202_j40956808135033_1_alg».proof.Proof.RefRun
import proofs.«106202_j40956808135033_1_alg».proof.Proof.Finite

noncomputable section

namespace Cert.Proof

open Idealize.ShloMosaic Idealize.ShloMosaic.TcCoe Idealize.SL.Sem

/-- The word-level kernel program runs and leaves its arguments unchanged: the generated frame certificate. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.RefRun.run m ρ)

/-- The ideal pass rewrote no operation. -/
theorem preserves : Cert.preserves_Kernel_KernelIdeal := trivial

/-- From memories agreeing on the arguments both programs end with the reference's composition of the layers of
    the arguments in their result buffers: the kernel's run (its group normalisation under the real witnesses the
    precondition gives), the reference's run, and the arguments' agreement. -/
theorem algebraic : Cert.algebraic_KernelIdeal_ReferenceIdeal := by
  intro m ρ m' ρ' hpre hagree
  have hreal := fun c => Cert.Finite.pre_real m hpre c
  refine ⟨fun c => RefSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine Cert.KRun.run m ρ (fun c => ?_) (fun c => (hreal c).2.2.2.2.2)
    exact Cert.Finite.agg2_real _ _ _ _ _ _ _ (hreal c).1 (hreal c).2.1 (hreal c).2.2.1 (hreal c).2.2.2.1 (hreal c).2.2.2.2.1
  · refine (θ_run Cert.ReferenceIdeal.defs _ _).mono (fun _ h c => ⟨(h c).1.trans ?_, (h c).2⟩) (Cert.RefRun.run m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
